-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v633) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x512 : Shape := ⟨2, ![1024, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S1024x1024 .f32) (main_arg1 : FVec F S1024x512 .f32) (main_arg2 : FVec F S1024x1024 .f32) (main_arg3 : FVec F S1024x1024 .f32) (main_arg4 : FVec F S1024x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S1024x1024 : Shape := ⟨2, ![1024, 1024]⟩
abbrev S1024x512 : Shape := ⟨2, ![1024, 512]⟩
abbrev S_ : Shape := ⟨0, ![]⟩
abbrev S256x512 : Shape := ⟨2, ![256, 512]⟩
abbrev S256x1024 : Shape := ⟨2, ![256, 1024]⟩
abbrev S1048576 : Shape := ⟨1, ![1048576]⟩
abbrev S524288 : Shape := ⟨1, ![524288]⟩
abbrev S1 : Shape := ⟨1, ![1]⟩
abbrev S2621441 : Shape := ⟨1, ![2621441]⟩

abbrev nBuf : Space → Nat
  | .hbm => 25
  | .vmem => 35
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x1024, .f32⟩
  | .hbm, ⟨3, _⟩ => ⟨S1024x1024, .f32⟩
  | .hbm, ⟨4, _⟩ => ⟨S1024x512, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1048576, .f32⟩
  | .hbm, ⟨21, _⟩ => ⟨S1048576, .f32⟩
  | .hbm, ⟨22, _⟩ => ⟨S524288, .f32⟩
  | .hbm, ⟨23, _⟩ => ⟨S1, .f32⟩
  | .hbm, ⟨24, _⟩ => ⟨S2621441, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x512, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x512, .f32⟩
  | .local _ .vmem, ⟨14, _⟩ => ⟨S256x512, .f32⟩
  | .local _ .vmem, ⟨15, _⟩ => ⟨S1024x1024, .f32⟩
  | .local _ .vmem, ⟨16, _⟩ => ⟨S1024x512, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x512, .f32⟩
  | .local _ .vmem, ⟨22, _⟩ => ⟨S256x512, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem1_0 : DmaSem sig := 24
abbrev cc2_sem2_0 : DmaSem sig := 25
abbrev cc2_sem3_0 : DmaSem sig := 26
abbrev cc3_sem0_0 : DmaSem sig := 27
abbrev cc3_sem1_0 : DmaSem sig := 28
abbrev cc3_sem2_0 : DmaSem sig := 29
abbrev cc3_sem3_0 : DmaSem sig := 30
abbrev cc4_sem0_0 : DmaSem sig := 31
abbrev cc4_sem1_0 : DmaSem sig := 32
abbrev cc4_sem2_0 : DmaSem sig := 33
abbrev cc4_sem3_0 : DmaSem sig := 34

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![4], ![false]⟩

@[reducible] def k1_t1_loop : Scf.Loop 32 :=
  let c0_i32 : BitVec 32 := 0#32
  let c20_i32 : BitVec 32 := 20#32
  let v9 : BitVec 32 := Scalar.addi c0_i32 c20_i32
  let c1_i32 : BitVec 32 := 1#32
  ⟨c0_i32, v9, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S1024x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

abbrev stage4_0 : Fin 1 → Memref sig .tc .vmem S1024x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1024x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

class Facts₀ : Prop where
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  reducesTo_S1024x512_S_d0_1 : S1024x512.ReducesTo [0, 1] S_
  h_S_ : 0 < S_.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x1024_S1024x1024 : S1024x1024.ShapeCasts S1024x1024
  shapeCasts_S1024x512_S1024x512 : S1024x512.ShapeCasts S1024x512
  shapeCasts_S1024x1024_S1048576 : S1024x1024.ShapeCasts S1048576
  shapeCasts_S1024x512_S524288 : S1024x512.ShapeCasts S524288
  shapeCasts_S_S1 : S_.ShapeCasts S1
  concatenates_S1048576_S1048576_S524288_S1_S2621441_d0 : Shape.Concatenates [S1048576, S1048576, S524288, S1] S2621441 0
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S256x1024_S1024x1024_S256x1024_1_0_0_1_n_n_wf : DotDims.WF S256x1024 S1024x1024 S256x1024 [1] [0] [0] [1] [] []
  dot_S256x1024_S1024x512_S256x512_1_0_0_1_n_n_wf : DotDims.WF S256x1024 S1024x512 S256x512 [1] [0] [0] [1] [] []
  dot_S256x1024_S1024x1024_S256x1024_1_1_0_0_n_n_wf : DotDims.WF S256x1024 S1024x1024 S256x1024 [1] [1] [0] [0] [] []
  dot_S256x512_S1024x512_S256x1024_1_1_0_0_n_n_wf : DotDims.WF S256x512 S1024x512 S256x1024 [1] [1] [0] [0] [] []
  dot_S1024x1024_S1024x1024_S1024x1024_0_0_1_1_n_n_wf : DotDims.WF S1024x1024 S1024x1024 S1024x1024 [0] [0] [1] [1] [] []
  dot_S1024x1024_S1024x512_S1024x512_0_0_1_1_n_n_wf : DotDims.WF S1024x1024 S1024x512 S1024x512 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  k1_t1_ok : k1_t1_loop.OK
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S1024x512.size a
  hwx1_0 : ∀ i : grid1.Coords, EltTy.bits .f32 = 32 ∨ (Rect.block (s := S1024x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S1024x1024.size a
  hwx1_1 : ∀ i : grid1.Coords, EltTy.bits .f32 = 32 ∨ (Rect.block (s := S1024x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S1024x1024.size a
  hwx1_2 : ∀ i : grid1.Coords, EltTy.bits .f32 = 32 ∨ (Rect.block (s := S1024x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S1024x512.size a
  hwx1_3 : ∀ i : grid1.Coords, EltTy.bits .f32 = 32 ∨ (Rect.block (s := S1024x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .f32 = 32 ∨ (Rect.block (s := S1024x512) S1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S1024x1024.size a
  hwx1_6 : ∀ i : grid1.Coords, EltTy.bits .f32 = 32 ∨ (Rect.block (s := S1024x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S1024x1024.size a
  hwx1_7 : ∀ i : grid1.Coords, EltTy.bits .f32 = 32 ∨ (Rect.block (s := S1024x1024) S256x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S1024x512.size a
  hwx1_8 : ∀ i : grid1.Coords, EltTy.bits .f32 = 32 ∨ (Rect.block (s := S1024x512) S256x512.size (cc1_transform_8 i) (hinb1_8 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage4_0 : ∀ j, (stage4_0 j).IsWhole
  hstage4_1 : ∀ j, (stage4_1 j).IsWhole
  hstage4_2 : ∀ j, (stage4_2 j).IsWhole
  hstage4_3 : ∀ j, (stage4_3 j).IsWhole

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v0_0) true false (stage0_4 0) (sem0_4 0) (Memref.isWhole_whole _) (hstage0_4 0)

abbrev win0_5 : Pipeline.Window sig grid0 :=
  Pipeline.Window.whole (Memref.whole main_v0_1) true false (stage0_5 0) (sem0_5 0) (Memref.isWhole_whole _) (hstage0_5 0)

abbrev win0_6 : Pipeline.Window sig grid0 :=
  Pipeline.Window.whole (Memref.whole main_v0_2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_2) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S256x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5_2) S256x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.whole (Memref.whole main_arg0) false false (stage2_0 0) (sem2_0 0) (Memref.isWhole_whole _) (hstage2_0 0)

abbrev win2_1 : Pipeline.Window sig grid2 :=
  Pipeline.Window.whole (Memref.whole main_v0_0) false false (stage2_1 0) (sem2_1 0) (Memref.isWhole_whole _) (hstage2_1 0)

abbrev win2_2 : Pipeline.Window sig grid2 :=
  Pipeline.Window.whole (Memref.whole main_v5_0) false false (stage2_2 0) (sem2_2 0) (Memref.isWhole_whole _) (hstage2_2 0)

abbrev win2_3 : Pipeline.Window sig grid2 :=
  Pipeline.Window.whole (Memref.whole main_v6) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.whole (Memref.whole main_v5_0) false false (stage3_0 0) (sem3_0 0) (Memref.isWhole_whole _) (hstage3_0 0)

abbrev win3_1 : Pipeline.Window sig grid3 :=
  Pipeline.Window.whole (Memref.whole main_arg3) false false (stage3_1 0) (sem3_1 0) (Memref.isWhole_whole _) (hstage3_1 0)

abbrev win3_2 : Pipeline.Window sig grid3 :=
  Pipeline.Window.whole (Memref.whole main_v5_1) false false (stage3_2 0) (sem3_2 0) (Memref.isWhole_whole _) (hstage3_2 0)

abbrev win3_3 : Pipeline.Window sig grid3 :=
  Pipeline.Window.whole (Memref.whole main_v7) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.whole (Memref.whole main_v5_1) false false (stage4_0 0) (sem4_0 0) (Memref.isWhole_whole _) (hstage4_0 0)

abbrev win4_1 : Pipeline.Window sig grid4 :=
  Pipeline.Window.whole (Memref.whole main_arg4) false false (stage4_1 0) (sem4_1 0) (Memref.isWhole_whole _) (hstage4_1 0)

abbrev win4_2 : Pipeline.Window sig grid4 :=
  Pipeline.Window.whole (Memref.whole main_v5_2) false false (stage4_2 0) (sem4_2 0) (Memref.isWhole_whole _) (hstage4_2 0)

abbrev win4_3 : Pipeline.Window sig grid4 :=
  Pipeline.Window.whole (Memref.whole main_v8) true false (stage4_3 0) (sem4_3 0) (Memref.isWhole_whole _) (hstage4_3 0)

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S1024x1024 : Shape := ⟨2, ![1024, 1024]⟩
abbrev S1024x512 : Shape := ⟨2, ![1024, 512]⟩
abbrev S512x1024 : Shape := ⟨2, ![512, 1024]⟩
abbrev S_ : Shape := ⟨0, ![]⟩
abbrev S1048576 : Shape := ⟨1, ![1048576]⟩
abbrev S524288 : Shape := ⟨1, ![524288]⟩
abbrev S1 : Shape := ⟨1, ![1]⟩
abbrev S2621441 : Shape := ⟨1, ![2621441]⟩

abbrev nBuf : Space → Nat
  | .hbm => 724
  | .vmem => 0
  | .smem => 0
  | _ => 0

abbrev hbmTy0_0 (i : Nat) : BufTy := match i % 128 with
  | 0 => ⟨S1024x1024, .f32⟩
  | 1 => ⟨S1024x512, .f32⟩
  | 2 => ⟨S1024x1024, .f32⟩
  | 3 => ⟨S1024x1024, .f32⟩
  | 4 => ⟨S1024x512, .f32⟩
  | 5 => ⟨S1024x1024, .f32⟩
  | 6 => ⟨S1024x1024, .f32⟩
  | 7 => ⟨S1024x512, .f32⟩
  | 8 => ⟨S1024x1024, .f32⟩
  | 9 => ⟨S1024x1024, .f32⟩
  | 10 => ⟨S1024x512, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S1024x512, .f32⟩
  | 21 => ⟨S1024x512, .f32⟩
  | 22 => ⟨S512x1024, .f32⟩
  | 23 => ⟨S1024x1024, .f32⟩
  | 24 => ⟨S1024x1024, .f32⟩
  | 25 => ⟨S1024x512, .f32⟩
  | 26 => ⟨S1024x512, .f32⟩
  | 27 => ⟨S1024x512, .f32⟩
  | 28 => ⟨S_, .f32⟩
  | 29 => ⟨S1024x512, .f32⟩
  | 30 => ⟨S1024x512, .f32⟩
  | 31 => ⟨S1024x512, .f32⟩
  | 32 => ⟨S512x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S_, .f32⟩
  | 39 => ⟨S1024x1024, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x512, .f32⟩
  | 48 => ⟨S1024x512, .f32⟩
  | 49 => ⟨S1024x512, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S1024x512, .f32⟩
  | 60 => ⟨S1024x512, .f32⟩
  | 61 => ⟨S512x1024, .f32⟩
  | 62 => ⟨S1024x1024, .f32⟩
  | 63 => ⟨S1024x1024, .f32⟩
  | 64 => ⟨S1024x512, .f32⟩
  | 65 => ⟨S1024x512, .f32⟩
  | 66 => ⟨S1024x512, .f32⟩
  | 67 => ⟨S_, .f32⟩
  | 68 => ⟨S1024x512, .f32⟩
  | 69 => ⟨S1024x512, .f32⟩
  | 70 => ⟨S1024x512, .f32⟩
  | 71 => ⟨S_, .f32⟩
  | 72 => ⟨S1024x1024, .f32⟩
  | 73 => ⟨S1024x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S1024x512, .f32⟩
  | 81 => ⟨S1024x512, .f32⟩
  | 82 => ⟨S1024x512, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1024x1024, .f32⟩
  | 89 => ⟨S1024x1024, .f32⟩
  | 90 => ⟨S1024x1024, .f32⟩
  | 91 => ⟨S1024x1024, .f32⟩
  | 92 => ⟨S1024x512, .f32⟩
  | 93 => ⟨S1024x512, .f32⟩
  | 94 => ⟨S512x1024, .f32⟩
  | 95 => ⟨S1024x1024, .f32⟩
  | 96 => ⟨S1024x1024, .f32⟩
  | 97 => ⟨S1024x512, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S_, .f32⟩
  | 105 => ⟨S1024x1024, .f32⟩
  | 106 => ⟨S1024x1024, .f32⟩
  | 107 => ⟨S1024x1024, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024x512, .f32⟩
  | 114 => ⟨S1024x512, .f32⟩
  | 115 => ⟨S1024x512, .f32⟩
  | 116 => ⟨S1024x1024, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x512, .f32⟩
  | 126 => ⟨S1024x512, .f32⟩
  | 127 => ⟨S512x1024, .f32⟩
  | _ => ⟨S1024x1024, .f32⟩

abbrev hbmTy0_1 (i : Nat) : BufTy := match i % 128 with
  | 0 => ⟨S1024x1024, .f32⟩
  | 1 => ⟨S1024x1024, .f32⟩
  | 2 => ⟨S1024x512, .f32⟩
  | 3 => ⟨S1024x512, .f32⟩
  | 4 => ⟨S1024x512, .f32⟩
  | 5 => ⟨S_, .f32⟩
  | 6 => ⟨S1024x512, .f32⟩
  | 7 => ⟨S1024x512, .f32⟩
  | 8 => ⟨S1024x512, .f32⟩
  | 9 => ⟨S_, .f32⟩
  | 10 => ⟨S1024x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x512, .f32⟩
  | 19 => ⟨S1024x512, .f32⟩
  | 20 => ⟨S1024x512, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x512, .f32⟩
  | 31 => ⟨S1024x512, .f32⟩
  | 32 => ⟨S512x1024, .f32⟩
  | 33 => ⟨S1024x1024, .f32⟩
  | 34 => ⟨S1024x1024, .f32⟩
  | 35 => ⟨S1024x512, .f32⟩
  | 36 => ⟨S1024x512, .f32⟩
  | 37 => ⟨S1024x512, .f32⟩
  | 38 => ⟨S_, .f32⟩
  | 39 => ⟨S1024x512, .f32⟩
  | 40 => ⟨S1024x512, .f32⟩
  | 41 => ⟨S1024x512, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x512, .f32⟩
  | 52 => ⟨S1024x512, .f32⟩
  | 53 => ⟨S1024x512, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S1024x1024, .f32⟩
  | 60 => ⟨S1024x1024, .f32⟩
  | 61 => ⟨S1024x1024, .f32⟩
  | 62 => ⟨S1024x1024, .f32⟩
  | 63 => ⟨S1024x512, .f32⟩
  | 64 => ⟨S1024x512, .f32⟩
  | 65 => ⟨S512x1024, .f32⟩
  | 66 => ⟨S1024x1024, .f32⟩
  | 67 => ⟨S1024x1024, .f32⟩
  | 68 => ⟨S1024x512, .f32⟩
  | 69 => ⟨S1024x512, .f32⟩
  | 70 => ⟨S1024x512, .f32⟩
  | 71 => ⟨S_, .f32⟩
  | 72 => ⟨S1024x512, .f32⟩
  | 73 => ⟨S1024x512, .f32⟩
  | 74 => ⟨S1024x512, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S1024x1024, .f32⟩
  | 81 => ⟨S1024x1024, .f32⟩
  | 82 => ⟨S1024x1024, .f32⟩
  | 83 => ⟨S_, .f32⟩
  | 84 => ⟨S1024x512, .f32⟩
  | 85 => ⟨S1024x512, .f32⟩
  | 86 => ⟨S1024x512, .f32⟩
  | 87 => ⟨S1024x1024, .f32⟩
  | 88 => ⟨S1024x1024, .f32⟩
  | 89 => ⟨S1024x1024, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x512, .f32⟩
  | 97 => ⟨S1024x512, .f32⟩
  | 98 => ⟨S512x1024, .f32⟩
  | 99 => ⟨S1024x1024, .f32⟩
  | 100 => ⟨S1024x1024, .f32⟩
  | 101 => ⟨S1024x512, .f32⟩
  | 102 => ⟨S1024x512, .f32⟩
  | 103 => ⟨S1024x512, .f32⟩
  | 104 => ⟨S_, .f32⟩
  | 105 => ⟨S1024x512, .f32⟩
  | 106 => ⟨S1024x512, .f32⟩
  | 107 => ⟨S1024x512, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x512, .f32⟩
  | 118 => ⟨S1024x512, .f32⟩
  | 119 => ⟨S1024x512, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S1024x1024, .f32⟩

abbrev hbmTy0_2 (i : Nat) : BufTy := match i % 128 with
  | 0 => ⟨S1024x1024, .f32⟩
  | 1 => ⟨S1024x512, .f32⟩
  | 2 => ⟨S1024x512, .f32⟩
  | 3 => ⟨S512x1024, .f32⟩
  | 4 => ⟨S1024x1024, .f32⟩
  | 5 => ⟨S1024x1024, .f32⟩
  | 6 => ⟨S1024x512, .f32⟩
  | 7 => ⟨S1024x512, .f32⟩
  | 8 => ⟨S1024x512, .f32⟩
  | 9 => ⟨S_, .f32⟩
  | 10 => ⟨S1024x512, .f32⟩
  | 11 => ⟨S1024x512, .f32⟩
  | 12 => ⟨S1024x512, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x512, .f32⟩
  | 23 => ⟨S1024x512, .f32⟩
  | 24 => ⟨S1024x512, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x512, .f32⟩
  | 35 => ⟨S1024x512, .f32⟩
  | 36 => ⟨S512x1024, .f32⟩
  | 37 => ⟨S1024x1024, .f32⟩
  | 38 => ⟨S1024x1024, .f32⟩
  | 39 => ⟨S1024x512, .f32⟩
  | 40 => ⟨S1024x512, .f32⟩
  | 41 => ⟨S1024x512, .f32⟩
  | 42 => ⟨S_, .f32⟩
  | 43 => ⟨S1024x512, .f32⟩
  | 44 => ⟨S1024x512, .f32⟩
  | 45 => ⟨S1024x512, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x512, .f32⟩
  | 56 => ⟨S1024x512, .f32⟩
  | 57 => ⟨S1024x512, .f32⟩
  | 58 => ⟨S1024x1024, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x512, .f32⟩
  | 68 => ⟨S1024x512, .f32⟩
  | 69 => ⟨S512x1024, .f32⟩
  | 70 => ⟨S1024x1024, .f32⟩
  | 71 => ⟨S1024x1024, .f32⟩
  | 72 => ⟨S1024x512, .f32⟩
  | 73 => ⟨S1024x512, .f32⟩
  | 74 => ⟨S1024x512, .f32⟩
  | 75 => ⟨S_, .f32⟩
  | 76 => ⟨S1024x512, .f32⟩
  | 77 => ⟨S1024x512, .f32⟩
  | 78 => ⟨S1024x512, .f32⟩
  | 79 => ⟨S_, .f32⟩
  | 80 => ⟨S1024x1024, .f32⟩
  | 81 => ⟨S1024x1024, .f32⟩
  | 82 => ⟨S1024x1024, .f32⟩
  | 83 => ⟨S_, .f32⟩
  | 84 => ⟨S1024x1024, .f32⟩
  | 85 => ⟨S1024x1024, .f32⟩
  | 86 => ⟨S1024x1024, .f32⟩
  | 87 => ⟨S_, .f32⟩
  | 88 => ⟨S1024x512, .f32⟩
  | 89 => ⟨S1024x512, .f32⟩
  | 90 => ⟨S1024x512, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x512, .f32⟩
  | 101 => ⟨S1024x512, .f32⟩
  | 102 => ⟨S512x1024, .f32⟩
  | 103 => ⟨S1024x1024, .f32⟩
  | 104 => ⟨S1024x1024, .f32⟩
  | 105 => ⟨S1024x512, .f32⟩
  | 106 => ⟨S1024x512, .f32⟩
  | 107 => ⟨S1024x512, .f32⟩
  | 108 => ⟨S_, .f32⟩
  | 109 => ⟨S1024x512, .f32⟩
  | 110 => ⟨S1024x512, .f32⟩
  | 111 => ⟨S1024x512, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x512, .f32⟩
  | 122 => ⟨S1024x512, .f32⟩
  | 123 => ⟨S1024x512, .f32⟩
  | 124 => ⟨S1024x1024, .f32⟩
  | 125 => ⟨S1024x1024, .f32⟩
  | 126 => ⟨S1024x1024, .f32⟩
  | 127 => ⟨S1024x1024, .f32⟩
  | _ => ⟨S1024x1024, .f32⟩

abbrev hbmTy0_3 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x512, .f32⟩
  | 6 => ⟨S1024x512, .f32⟩
  | 7 => ⟨S512x1024, .f32⟩
  | 8 => ⟨S1024x1024, .f32⟩
  | 9 => ⟨S1024x1024, .f32⟩
  | 10 => ⟨S1024x512, .f32⟩
  | 11 => ⟨S1024x512, .f32⟩
  | 12 => ⟨S1024x512, .f32⟩
  | 13 => ⟨S_, .f32⟩
  | 14 => ⟨S1024x512, .f32⟩
  | 15 => ⟨S1024x512, .f32⟩
  | 16 => ⟨S1024x512, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x512, .f32⟩
  | 27 => ⟨S1024x512, .f32⟩
  | 28 => ⟨S1024x512, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x512, .f32⟩
  | 39 => ⟨S1024x512, .f32⟩
  | 40 => ⟨S512x1024, .f32⟩
  | 41 => ⟨S1024x1024, .f32⟩
  | 42 => ⟨S1024x1024, .f32⟩
  | 43 => ⟨S1024x512, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x512, .f32⟩
  | 60 => ⟨S1024x512, .f32⟩
  | 61 => ⟨S1024x512, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x1024, .f32⟩
  | 68 => ⟨S1024x1024, .f32⟩
  | 69 => ⟨S1024x1024, .f32⟩
  | 70 => ⟨S1024x1024, .f32⟩
  | 71 => ⟨S1024x512, .f32⟩
  | 72 => ⟨S1024x512, .f32⟩
  | 73 => ⟨S512x1024, .f32⟩
  | 74 => ⟨S1024x1024, .f32⟩
  | 75 => ⟨S1024x1024, .f32⟩
  | 76 => ⟨S1024x512, .f32⟩
  | 77 => ⟨S1024x512, .f32⟩
  | 78 => ⟨S1024x512, .f32⟩
  | 79 => ⟨S_, .f32⟩
  | 80 => ⟨S1024x512, .f32⟩
  | 81 => ⟨S1024x512, .f32⟩
  | 82 => ⟨S1024x512, .f32⟩
  | 83 => ⟨S_, .f32⟩
  | 84 => ⟨S1024x1024, .f32⟩
  | 85 => ⟨S1024x1024, .f32⟩
  | 86 => ⟨S1024x1024, .f32⟩
  | 87 => ⟨S_, .f32⟩
  | 88 => ⟨S1024x1024, .f32⟩
  | 89 => ⟨S1024x1024, .f32⟩
  | 90 => ⟨S1024x1024, .f32⟩
  | 91 => ⟨S_, .f32⟩
  | 92 => ⟨S1024x512, .f32⟩
  | 93 => ⟨S1024x512, .f32⟩
  | 94 => ⟨S1024x512, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x512, .f32⟩
  | 105 => ⟨S1024x512, .f32⟩
  | 106 => ⟨S512x1024, .f32⟩
  | 107 => ⟨S1024x1024, .f32⟩
  | 108 => ⟨S1024x1024, .f32⟩
  | 109 => ⟨S1024x512, .f32⟩
  | 110 => ⟨S1024x512, .f32⟩
  | 111 => ⟨S1024x512, .f32⟩
  | 112 => ⟨S_, .f32⟩
  | 113 => ⟨S1024x512, .f32⟩
  | 114 => ⟨S1024x512, .f32⟩
  | 115 => ⟨S1024x512, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x512, .f32⟩
  | 126 => ⟨S1024x512, .f32⟩
  | 127 => ⟨S1024x512, .f32⟩
  | _ => ⟨S1024x1024, .f32⟩

abbrev hbmTy0_4 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1024x1024, .f32⟩
  | 8 => ⟨S1024x1024, .f32⟩
  | 9 => ⟨S1024x512, .f32⟩
  | 10 => ⟨S1024x512, .f32⟩
  | 11 => ⟨S512x1024, .f32⟩
  | 12 => ⟨S1024x1024, .f32⟩
  | 13 => ⟨S1024x1024, .f32⟩
  | 14 => ⟨S1024x512, .f32⟩
  | 15 => ⟨S1024x512, .f32⟩
  | 16 => ⟨S1024x512, .f32⟩
  | 17 => ⟨S_, .f32⟩
  | 18 => ⟨S1024x512, .f32⟩
  | 19 => ⟨S1024x512, .f32⟩
  | 20 => ⟨S1024x512, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x512, .f32⟩
  | 31 => ⟨S1024x512, .f32⟩
  | 32 => ⟨S1024x512, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x512, .f32⟩
  | 43 => ⟨S1024x512, .f32⟩
  | 44 => ⟨S512x1024, .f32⟩
  | 45 => ⟨S1024x1024, .f32⟩
  | 46 => ⟨S1024x1024, .f32⟩
  | 47 => ⟨S1024x512, .f32⟩
  | 48 => ⟨S1024x512, .f32⟩
  | 49 => ⟨S1024x512, .f32⟩
  | 50 => ⟨S_, .f32⟩
  | 51 => ⟨S1024x512, .f32⟩
  | 52 => ⟨S1024x512, .f32⟩
  | 53 => ⟨S1024x512, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S_, .f32⟩
  | 63 => ⟨S1024x512, .f32⟩
  | 64 => ⟨S1024x512, .f32⟩
  | 65 => ⟨S1024x512, .f32⟩
  | 66 => ⟨S1024x1024, .f32⟩
  | 67 => ⟨S1024x1024, .f32⟩
  | 68 => ⟨S1024x1024, .f32⟩
  | 69 => ⟨S1024x1024, .f32⟩
  | 70 => ⟨S1024x1024, .f32⟩
  | 71 => ⟨S1024x1024, .f32⟩
  | 72 => ⟨S1024x1024, .f32⟩
  | 73 => ⟨S1024x1024, .f32⟩
  | 74 => ⟨S1024x1024, .f32⟩
  | 75 => ⟨S1024x512, .f32⟩
  | 76 => ⟨S1024x512, .f32⟩
  | 77 => ⟨S512x1024, .f32⟩
  | 78 => ⟨S1024x1024, .f32⟩
  | 79 => ⟨S1024x1024, .f32⟩
  | 80 => ⟨S1024x512, .f32⟩
  | 81 => ⟨S1024x512, .f32⟩
  | 82 => ⟨S1024x512, .f32⟩
  | 83 => ⟨S_, .f32⟩
  | 84 => ⟨S1024x512, .f32⟩
  | 85 => ⟨S1024x512, .f32⟩
  | 86 => ⟨S1024x512, .f32⟩
  | 87 => ⟨S_, .f32⟩
  | 88 => ⟨S1024x1024, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S1024x1024, .f32⟩
  | 95 => ⟨S_, .f32⟩
  | 96 => ⟨S1024x512, .f32⟩
  | 97 => ⟨S1024x512, .f32⟩
  | 98 => ⟨S1024x512, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x1024, .f32⟩
  | 105 => ⟨S1024x1024, .f32⟩
  | 106 => ⟨S1024x1024, .f32⟩
  | 107 => ⟨S1024x1024, .f32⟩
  | 108 => ⟨S1024x512, .f32⟩
  | 109 => ⟨S1024x512, .f32⟩
  | 110 => ⟨S512x1024, .f32⟩
  | 111 => ⟨S1024x1024, .f32⟩
  | 112 => ⟨S1024x1024, .f32⟩
  | 113 => ⟨S1024x512, .f32⟩
  | 114 => ⟨S1024x512, .f32⟩
  | 115 => ⟨S1024x512, .f32⟩
  | 116 => ⟨S_, .f32⟩
  | 117 => ⟨S1024x512, .f32⟩
  | 118 => ⟨S1024x512, .f32⟩
  | 119 => ⟨S1024x512, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S1024x1024, .f32⟩
  | _ => ⟨S1024x1024, .f32⟩

abbrev hbmTy0_5 (i : Nat) : BufTy := match i % 128 with
  | 0 => ⟨S_, .f32⟩
  | 1 => ⟨S1024x512, .f32⟩
  | 2 => ⟨S1024x512, .f32⟩
  | 3 => ⟨S1024x512, .f32⟩
  | 4 => ⟨S1024x1024, .f32⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x512, .f32⟩
  | 14 => ⟨S1024x512, .f32⟩
  | 15 => ⟨S512x1024, .f32⟩
  | 16 => ⟨S1024x1024, .f32⟩
  | 17 => ⟨S1024x1024, .f32⟩
  | 18 => ⟨S1024x512, .f32⟩
  | 19 => ⟨S1024x512, .f32⟩
  | 20 => ⟨S1024x512, .f32⟩
  | 21 => ⟨S_, .f32⟩
  | 22 => ⟨S1024x512, .f32⟩
  | 23 => ⟨S1024x512, .f32⟩
  | 24 => ⟨S1024x512, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S1024x1024, .f32⟩
  | 33 => ⟨S_, .f32⟩
  | 34 => ⟨S1024x512, .f32⟩
  | 35 => ⟨S1024x512, .f32⟩
  | 36 => ⟨S1024x512, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .f32⟩
  | 44 => ⟨S1024x1024, .f32⟩
  | 45 => ⟨S1024x1024, .f32⟩
  | 46 => ⟨S1024x512, .f32⟩
  | 47 => ⟨S1024x512, .f32⟩
  | 48 => ⟨S1024x512, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1024x1024, .f32⟩
  | 58 => ⟨S1024x512, .f32⟩
  | 59 => ⟨S1024x512, .f32⟩
  | 60 => ⟨S1024x512, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x512, .f32⟩
  | 70 => ⟨S_, .f32⟩
  | 71 => ⟨S1024x512, .f32⟩
  | 72 => ⟨S1024x512, .f32⟩
  | 73 => ⟨S1024x512, .f32⟩
  | 74 => ⟨S1024x512, .f32⟩
  | 75 => ⟨S_, .f32⟩
  | 76 => ⟨S_, .f32⟩
  | 77 => ⟨S_, .f32⟩
  | 78 => ⟨S_, .f32⟩
  | 79 => ⟨S1048576, .f32⟩
  | 80 => ⟨S1048576, .f32⟩
  | 81 => ⟨S524288, .f32⟩
  | 82 => ⟨S1, .f32⟩
  | 83 => ⟨S2621441, .f32⟩
  | _ => ⟨S1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_3 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_7 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_11 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_12 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_13 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_15 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_16 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_17 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_18 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_19 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_cst_20 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_cst_21 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_cst_22 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_23 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_cst_24 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_25 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_cst_26 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_cst_27 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_cst_28 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_cst_29 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_cst_30 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_cst_31 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_cst_32 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_cst_33 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_34 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_cst_35 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_cst_36 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_cst_37 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_cst_38 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_cst_39 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_cst_40 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_cst_41 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_cst_42 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_cst_43 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_cst_44 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_cst_45 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_cst_46 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_cst_47 : Ref sig .tc := ⟨.hbm, 430, rfl⟩
abbrev main_v377 : Ref sig .tc := ⟨.hbm, 431, rfl⟩
abbrev main_v378 : Ref sig .tc := ⟨.hbm, 432, rfl⟩
abbrev main_v379 : Ref sig .tc := ⟨.hbm, 433, rfl⟩
abbrev main_cst_48 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_cst_49 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_cst_50 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_cst_51 : Ref sig .tc := ⟨.hbm, 463, rfl⟩
abbrev main_v406 : Ref sig .tc := ⟨.hbm, 464, rfl⟩
abbrev main_v407 : Ref sig .tc := ⟨.hbm, 465, rfl⟩
abbrev main_v408 : Ref sig .tc := ⟨.hbm, 466, rfl⟩
abbrev main_cst_52 : Ref sig .tc := ⟨.hbm, 467, rfl⟩
abbrev main_v409 : Ref sig .tc := ⟨.hbm, 468, rfl⟩
abbrev main_v410 : Ref sig .tc := ⟨.hbm, 469, rfl⟩
abbrev main_v411 : Ref sig .tc := ⟨.hbm, 470, rfl⟩
abbrev main_cst_53 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_cst_54 : Ref sig .tc := ⟨.hbm, 475, rfl⟩
abbrev main_v415 : Ref sig .tc := ⟨.hbm, 476, rfl⟩
abbrev main_v416 : Ref sig .tc := ⟨.hbm, 477, rfl⟩
abbrev main_v417 : Ref sig .tc := ⟨.hbm, 478, rfl⟩
abbrev main_v418 : Ref sig .tc := ⟨.hbm, 479, rfl⟩
abbrev main_v419 : Ref sig .tc := ⟨.hbm, 480, rfl⟩
abbrev main_v420 : Ref sig .tc := ⟨.hbm, 481, rfl⟩
abbrev main_v421 : Ref sig .tc := ⟨.hbm, 482, rfl⟩
abbrev main_v422 : Ref sig .tc := ⟨.hbm, 483, rfl⟩
abbrev main_v423 : Ref sig .tc := ⟨.hbm, 484, rfl⟩
abbrev main_v424 : Ref sig .tc := ⟨.hbm, 485, rfl⟩
abbrev main_v425 : Ref sig .tc := ⟨.hbm, 486, rfl⟩
abbrev main_v426 : Ref sig .tc := ⟨.hbm, 487, rfl⟩
abbrev main_v427 : Ref sig .tc := ⟨.hbm, 488, rfl⟩
abbrev main_v428 : Ref sig .tc := ⟨.hbm, 489, rfl⟩
abbrev main_v429 : Ref sig .tc := ⟨.hbm, 490, rfl⟩
abbrev main_v430 : Ref sig .tc := ⟨.hbm, 491, rfl⟩
abbrev main_v431 : Ref sig .tc := ⟨.hbm, 492, rfl⟩
abbrev main_v432 : Ref sig .tc := ⟨.hbm, 493, rfl⟩
abbrev main_v433 : Ref sig .tc := ⟨.hbm, 494, rfl⟩
abbrev main_v434 : Ref sig .tc := ⟨.hbm, 495, rfl⟩
abbrev main_cst_55 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_cst_56 : Ref sig .tc := ⟨.hbm, 500, rfl⟩
abbrev main_v438 : Ref sig .tc := ⟨.hbm, 501, rfl⟩
abbrev main_v439 : Ref sig .tc := ⟨.hbm, 502, rfl⟩
abbrev main_v440 : Ref sig .tc := ⟨.hbm, 503, rfl⟩
abbrev main_cst_57 : Ref sig .tc := ⟨.hbm, 504, rfl⟩
abbrev main_v441 : Ref sig .tc := ⟨.hbm, 505, rfl⟩
abbrev main_v442 : Ref sig .tc := ⟨.hbm, 506, rfl⟩
abbrev main_v443 : Ref sig .tc := ⟨.hbm, 507, rfl⟩
abbrev main_cst_58 : Ref sig .tc := ⟨.hbm, 508, rfl⟩
abbrev main_v444 : Ref sig .tc := ⟨.hbm, 509, rfl⟩
abbrev main_v445 : Ref sig .tc := ⟨.hbm, 510, rfl⟩
abbrev main_v446 : Ref sig .tc := ⟨.hbm, 511, rfl⟩
abbrev main_v447 : Ref sig .tc := ⟨.hbm, 512, rfl⟩
abbrev main_v448 : Ref sig .tc := ⟨.hbm, 513, rfl⟩
abbrev main_v449 : Ref sig .tc := ⟨.hbm, 514, rfl⟩
abbrev main_v450 : Ref sig .tc := ⟨.hbm, 515, rfl⟩
abbrev main_v451 : Ref sig .tc := ⟨.hbm, 516, rfl⟩
abbrev main_v452 : Ref sig .tc := ⟨.hbm, 517, rfl⟩
abbrev main_v453 : Ref sig .tc := ⟨.hbm, 518, rfl⟩
abbrev main_v454 : Ref sig .tc := ⟨.hbm, 519, rfl⟩
abbrev main_v455 : Ref sig .tc := ⟨.hbm, 520, rfl⟩
abbrev main_v456 : Ref sig .tc := ⟨.hbm, 521, rfl⟩
abbrev main_v457 : Ref sig .tc := ⟨.hbm, 522, rfl⟩
abbrev main_v458 : Ref sig .tc := ⟨.hbm, 523, rfl⟩
abbrev main_v459 : Ref sig .tc := ⟨.hbm, 524, rfl⟩
abbrev main_v460 : Ref sig .tc := ⟨.hbm, 525, rfl⟩
abbrev main_v461 : Ref sig .tc := ⟨.hbm, 526, rfl⟩
abbrev main_v462 : Ref sig .tc := ⟨.hbm, 527, rfl⟩
abbrev main_v463 : Ref sig .tc := ⟨.hbm, 528, rfl⟩
abbrev main_cst_59 : Ref sig .tc := ⟨.hbm, 529, rfl⟩
abbrev main_v464 : Ref sig .tc := ⟨.hbm, 530, rfl⟩
abbrev main_v465 : Ref sig .tc := ⟨.hbm, 531, rfl⟩
abbrev main_v466 : Ref sig .tc := ⟨.hbm, 532, rfl⟩
abbrev main_cst_60 : Ref sig .tc := ⟨.hbm, 533, rfl⟩
abbrev main_v467 : Ref sig .tc := ⟨.hbm, 534, rfl⟩
abbrev main_v468 : Ref sig .tc := ⟨.hbm, 535, rfl⟩
abbrev main_v469 : Ref sig .tc := ⟨.hbm, 536, rfl⟩
abbrev main_cst_61 : Ref sig .tc := ⟨.hbm, 537, rfl⟩
abbrev main_v470 : Ref sig .tc := ⟨.hbm, 538, rfl⟩
abbrev main_v471 : Ref sig .tc := ⟨.hbm, 539, rfl⟩
abbrev main_v472 : Ref sig .tc := ⟨.hbm, 540, rfl⟩
abbrev main_cst_62 : Ref sig .tc := ⟨.hbm, 541, rfl⟩
abbrev main_v473 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_v478 : Ref sig .tc := ⟨.hbm, 547, rfl⟩
abbrev main_v479 : Ref sig .tc := ⟨.hbm, 548, rfl⟩
abbrev main_v480 : Ref sig .tc := ⟨.hbm, 549, rfl⟩
abbrev main_v481 : Ref sig .tc := ⟨.hbm, 550, rfl⟩
abbrev main_v482 : Ref sig .tc := ⟨.hbm, 551, rfl⟩
abbrev main_v483 : Ref sig .tc := ⟨.hbm, 552, rfl⟩
abbrev main_v484 : Ref sig .tc := ⟨.hbm, 553, rfl⟩
abbrev main_v485 : Ref sig .tc := ⟨.hbm, 554, rfl⟩
abbrev main_v486 : Ref sig .tc := ⟨.hbm, 555, rfl⟩
abbrev main_v487 : Ref sig .tc := ⟨.hbm, 556, rfl⟩
abbrev main_v488 : Ref sig .tc := ⟨.hbm, 557, rfl⟩
abbrev main_v489 : Ref sig .tc := ⟨.hbm, 558, rfl⟩
abbrev main_v490 : Ref sig .tc := ⟨.hbm, 559, rfl⟩
abbrev main_v491 : Ref sig .tc := ⟨.hbm, 560, rfl⟩
abbrev main_v492 : Ref sig .tc := ⟨.hbm, 561, rfl⟩
abbrev main_cst_63 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_cst_64 : Ref sig .tc := ⟨.hbm, 566, rfl⟩
abbrev main_v496 : Ref sig .tc := ⟨.hbm, 567, rfl⟩
abbrev main_v497 : Ref sig .tc := ⟨.hbm, 568, rfl⟩
abbrev main_v498 : Ref sig .tc := ⟨.hbm, 569, rfl⟩
abbrev main_cst_65 : Ref sig .tc := ⟨.hbm, 570, rfl⟩
abbrev main_v499 : Ref sig .tc := ⟨.hbm, 571, rfl⟩
abbrev main_v500 : Ref sig .tc := ⟨.hbm, 572, rfl⟩
abbrev main_v501 : Ref sig .tc := ⟨.hbm, 573, rfl⟩
abbrev main_cst_66 : Ref sig .tc := ⟨.hbm, 574, rfl⟩
abbrev main_v502 : Ref sig .tc := ⟨.hbm, 575, rfl⟩
abbrev main_v503 : Ref sig .tc := ⟨.hbm, 576, rfl⟩
abbrev main_v504 : Ref sig .tc := ⟨.hbm, 577, rfl⟩
abbrev main_v505 : Ref sig .tc := ⟨.hbm, 578, rfl⟩
abbrev main_v506 : Ref sig .tc := ⟨.hbm, 579, rfl⟩
abbrev main_v507 : Ref sig .tc := ⟨.hbm, 580, rfl⟩
abbrev main_v508 : Ref sig .tc := ⟨.hbm, 581, rfl⟩
abbrev main_v509 : Ref sig .tc := ⟨.hbm, 582, rfl⟩
abbrev main_v510 : Ref sig .tc := ⟨.hbm, 583, rfl⟩
abbrev main_v511 : Ref sig .tc := ⟨.hbm, 584, rfl⟩
abbrev main_v512 : Ref sig .tc := ⟨.hbm, 585, rfl⟩
abbrev main_v513 : Ref sig .tc := ⟨.hbm, 586, rfl⟩
abbrev main_v514 : Ref sig .tc := ⟨.hbm, 587, rfl⟩
abbrev main_v515 : Ref sig .tc := ⟨.hbm, 588, rfl⟩
abbrev main_v516 : Ref sig .tc := ⟨.hbm, 589, rfl⟩
abbrev main_v517 : Ref sig .tc := ⟨.hbm, 590, rfl⟩
abbrev main_v518 : Ref sig .tc := ⟨.hbm, 591, rfl⟩
abbrev main_v519 : Ref sig .tc := ⟨.hbm, 592, rfl⟩
abbrev main_v520 : Ref sig .tc := ⟨.hbm, 593, rfl⟩
abbrev main_v521 : Ref sig .tc := ⟨.hbm, 594, rfl⟩
abbrev main_cst_67 : Ref sig .tc := ⟨.hbm, 595, rfl⟩
abbrev main_v522 : Ref sig .tc := ⟨.hbm, 596, rfl⟩
abbrev main_v523 : Ref sig .tc := ⟨.hbm, 597, rfl⟩
abbrev main_v524 : Ref sig .tc := ⟨.hbm, 598, rfl⟩
abbrev main_cst_68 : Ref sig .tc := ⟨.hbm, 599, rfl⟩
abbrev main_v525 : Ref sig .tc := ⟨.hbm, 600, rfl⟩
abbrev main_v526 : Ref sig .tc := ⟨.hbm, 601, rfl⟩
abbrev main_v527 : Ref sig .tc := ⟨.hbm, 602, rfl⟩
abbrev main_cst_69 : Ref sig .tc := ⟨.hbm, 603, rfl⟩
abbrev main_v528 : Ref sig .tc := ⟨.hbm, 604, rfl⟩
abbrev main_v529 : Ref sig .tc := ⟨.hbm, 605, rfl⟩
abbrev main_v530 : Ref sig .tc := ⟨.hbm, 606, rfl⟩
abbrev main_cst_70 : Ref sig .tc := ⟨.hbm, 607, rfl⟩
abbrev main_v531 : Ref sig .tc := ⟨.hbm, 608, rfl⟩
abbrev main_v532 : Ref sig .tc := ⟨.hbm, 609, rfl⟩
abbrev main_v533 : Ref sig .tc := ⟨.hbm, 610, rfl⟩
abbrev main_v534 : Ref sig .tc := ⟨.hbm, 611, rfl⟩
abbrev main_v535 : Ref sig .tc := ⟨.hbm, 612, rfl⟩
abbrev main_v536 : Ref sig .tc := ⟨.hbm, 613, rfl⟩
abbrev main_v537 : Ref sig .tc := ⟨.hbm, 614, rfl⟩
abbrev main_v538 : Ref sig .tc := ⟨.hbm, 615, rfl⟩
abbrev main_v539 : Ref sig .tc := ⟨.hbm, 616, rfl⟩
abbrev main_v540 : Ref sig .tc := ⟨.hbm, 617, rfl⟩
abbrev main_v541 : Ref sig .tc := ⟨.hbm, 618, rfl⟩
abbrev main_v542 : Ref sig .tc := ⟨.hbm, 619, rfl⟩
abbrev main_v543 : Ref sig .tc := ⟨.hbm, 620, rfl⟩
abbrev main_v544 : Ref sig .tc := ⟨.hbm, 621, rfl⟩
abbrev main_v545 : Ref sig .tc := ⟨.hbm, 622, rfl⟩
abbrev main_v546 : Ref sig .tc := ⟨.hbm, 623, rfl⟩
abbrev main_v547 : Ref sig .tc := ⟨.hbm, 624, rfl⟩
abbrev main_v548 : Ref sig .tc := ⟨.hbm, 625, rfl⟩
abbrev main_v549 : Ref sig .tc := ⟨.hbm, 626, rfl⟩
abbrev main_v550 : Ref sig .tc := ⟨.hbm, 627, rfl⟩
abbrev main_cst_71 : Ref sig .tc := ⟨.hbm, 628, rfl⟩
abbrev main_v551 : Ref sig .tc := ⟨.hbm, 629, rfl⟩
abbrev main_v552 : Ref sig .tc := ⟨.hbm, 630, rfl⟩
abbrev main_v553 : Ref sig .tc := ⟨.hbm, 631, rfl⟩
abbrev main_cst_72 : Ref sig .tc := ⟨.hbm, 632, rfl⟩
abbrev main_v554 : Ref sig .tc := ⟨.hbm, 633, rfl⟩
abbrev main_v555 : Ref sig .tc := ⟨.hbm, 634, rfl⟩
abbrev main_v556 : Ref sig .tc := ⟨.hbm, 635, rfl⟩
abbrev main_cst_73 : Ref sig .tc := ⟨.hbm, 636, rfl⟩
abbrev main_v557 : Ref sig .tc := ⟨.hbm, 637, rfl⟩
abbrev main_v558 : Ref sig .tc := ⟨.hbm, 638, rfl⟩
abbrev main_v559 : Ref sig .tc := ⟨.hbm, 639, rfl⟩
abbrev main_cst_74 : Ref sig .tc := ⟨.hbm, 640, rfl⟩
abbrev main_v560 : Ref sig .tc := ⟨.hbm, 641, rfl⟩
abbrev main_v561 : Ref sig .tc := ⟨.hbm, 642, rfl⟩
abbrev main_v562 : Ref sig .tc := ⟨.hbm, 643, rfl⟩
abbrev main_v563 : Ref sig .tc := ⟨.hbm, 644, rfl⟩
abbrev main_v564 : Ref sig .tc := ⟨.hbm, 645, rfl⟩
abbrev main_v565 : Ref sig .tc := ⟨.hbm, 646, rfl⟩
abbrev main_v566 : Ref sig .tc := ⟨.hbm, 647, rfl⟩
abbrev main_v567 : Ref sig .tc := ⟨.hbm, 648, rfl⟩
abbrev main_v568 : Ref sig .tc := ⟨.hbm, 649, rfl⟩
abbrev main_v569 : Ref sig .tc := ⟨.hbm, 650, rfl⟩
abbrev main_v570 : Ref sig .tc := ⟨.hbm, 651, rfl⟩
abbrev main_v571 : Ref sig .tc := ⟨.hbm, 652, rfl⟩
abbrev main_v572 : Ref sig .tc := ⟨.hbm, 653, rfl⟩
abbrev main_v573 : Ref sig .tc := ⟨.hbm, 654, rfl⟩
abbrev main_v574 : Ref sig .tc := ⟨.hbm, 655, rfl⟩
abbrev main_v575 : Ref sig .tc := ⟨.hbm, 656, rfl⟩
abbrev main_v576 : Ref sig .tc := ⟨.hbm, 657, rfl⟩
abbrev main_v577 : Ref sig .tc := ⟨.hbm, 658, rfl⟩
abbrev main_v578 : Ref sig .tc := ⟨.hbm, 659, rfl⟩
abbrev main_v579 : Ref sig .tc := ⟨.hbm, 660, rfl⟩
abbrev main_cst_75 : Ref sig .tc := ⟨.hbm, 661, rfl⟩
abbrev main_v580 : Ref sig .tc := ⟨.hbm, 662, rfl⟩
abbrev main_v581 : Ref sig .tc := ⟨.hbm, 663, rfl⟩
abbrev main_v582 : Ref sig .tc := ⟨.hbm, 664, rfl⟩
abbrev main_cst_76 : Ref sig .tc := ⟨.hbm, 665, rfl⟩
abbrev main_v583 : Ref sig .tc := ⟨.hbm, 666, rfl⟩
abbrev main_v584 : Ref sig .tc := ⟨.hbm, 667, rfl⟩
abbrev main_v585 : Ref sig .tc := ⟨.hbm, 668, rfl⟩
abbrev main_cst_77 : Ref sig .tc := ⟨.hbm, 669, rfl⟩
abbrev main_v586 : Ref sig .tc := ⟨.hbm, 670, rfl⟩
abbrev main_v587 : Ref sig .tc := ⟨.hbm, 671, rfl⟩
abbrev main_v588 : Ref sig .tc := ⟨.hbm, 672, rfl⟩
abbrev main_cst_78 : Ref sig .tc := ⟨.hbm, 673, rfl⟩
abbrev main_v589 : Ref sig .tc := ⟨.hbm, 674, rfl⟩
abbrev main_v590 : Ref sig .tc := ⟨.hbm, 675, rfl⟩
abbrev main_v591 : Ref sig .tc := ⟨.hbm, 676, rfl⟩
abbrev main_v592 : Ref sig .tc := ⟨.hbm, 677, rfl⟩
abbrev main_v593 : Ref sig .tc := ⟨.hbm, 678, rfl⟩
abbrev main_v594 : Ref sig .tc := ⟨.hbm, 679, rfl⟩
abbrev main_v595 : Ref sig .tc := ⟨.hbm, 680, rfl⟩
abbrev main_v596 : Ref sig .tc := ⟨.hbm, 681, rfl⟩
abbrev main_v597 : Ref sig .tc := ⟨.hbm, 682, rfl⟩
abbrev main_v598 : Ref sig .tc := ⟨.hbm, 683, rfl⟩
abbrev main_v599 : Ref sig .tc := ⟨.hbm, 684, rfl⟩
abbrev main_v600 : Ref sig .tc := ⟨.hbm, 685, rfl⟩
abbrev main_v601 : Ref sig .tc := ⟨.hbm, 686, rfl⟩
abbrev main_v602 : Ref sig .tc := ⟨.hbm, 687, rfl⟩
abbrev main_v603 : Ref sig .tc := ⟨.hbm, 688, rfl⟩
abbrev main_v604 : Ref sig .tc := ⟨.hbm, 689, rfl⟩
abbrev main_v605 : Ref sig .tc := ⟨.hbm, 690, rfl⟩
abbrev main_v606 : Ref sig .tc := ⟨.hbm, 691, rfl⟩
abbrev main_v607 : Ref sig .tc := ⟨.hbm, 692, rfl⟩
abbrev main_v608 : Ref sig .tc := ⟨.hbm, 693, rfl⟩
abbrev main_v609 : Ref sig .tc := ⟨.hbm, 694, rfl⟩
abbrev main_v610 : Ref sig .tc := ⟨.hbm, 695, rfl⟩
abbrev main_v611 : Ref sig .tc := ⟨.hbm, 696, rfl⟩
abbrev main_v612 : Ref sig .tc := ⟨.hbm, 697, rfl⟩
abbrev main_v613 : Ref sig .tc := ⟨.hbm, 698, rfl⟩
abbrev main_v614 : Ref sig .tc := ⟨.hbm, 699, rfl⟩
abbrev main_v615 : Ref sig .tc := ⟨.hbm, 700, rfl⟩
abbrev main_v616 : Ref sig .tc := ⟨.hbm, 701, rfl⟩
abbrev main_cst_79 : Ref sig .tc := ⟨.hbm, 702, rfl⟩
abbrev main_v617 : Ref sig .tc := ⟨.hbm, 703, rfl⟩
abbrev main_v618 : Ref sig .tc := ⟨.hbm, 704, rfl⟩
abbrev main_v619 : Ref sig .tc := ⟨.hbm, 705, rfl⟩
abbrev main_cst_80 : Ref sig .tc := ⟨.hbm, 706, rfl⟩
abbrev main_v620 : Ref sig .tc := ⟨.hbm, 707, rfl⟩
abbrev main_v621 : Ref sig .tc := ⟨.hbm, 708, rfl⟩
abbrev main_v622 : Ref sig .tc := ⟨.hbm, 709, rfl⟩
abbrev main_cst_81 : Ref sig .tc := ⟨.hbm, 710, rfl⟩
abbrev main_v623 : Ref sig .tc := ⟨.hbm, 711, rfl⟩
abbrev main_v624 : Ref sig .tc := ⟨.hbm, 712, rfl⟩
abbrev main_v625 : Ref sig .tc := ⟨.hbm, 713, rfl⟩
abbrev main_v626 : Ref sig .tc := ⟨.hbm, 714, rfl⟩
abbrev main_cst_82 : Ref sig .tc := ⟨.hbm, 715, rfl⟩
abbrev main_v627 : Ref sig .tc := ⟨.hbm, 716, rfl⟩
abbrev main_cst_83 : Ref sig .tc := ⟨.hbm, 717, rfl⟩
abbrev main_v628 : Ref sig .tc := ⟨.hbm, 718, rfl⟩
abbrev main_v629 : Ref sig .tc := ⟨.hbm, 719, rfl⟩
abbrev main_v630 : Ref sig .tc := ⟨.hbm, 720, rfl⟩
abbrev main_v631 : Ref sig .tc := ⟨.hbm, 721, rfl⟩
abbrev main_v632 : Ref sig .tc := ⟨.hbm, 722, rfl⟩
abbrev main_v633 : Ref sig .tc := ⟨.hbm, 723, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S1024x512_S512x1024_1_0 : S1024x512.Transposes [1, 0] S512x1024
  bcast_S_S1024x512 : S_.BroadcastsInDim S1024x512 (![] : Fin 0 → Fin S1024x512.rank)
  bcast_S_S1024x1024 : S_.BroadcastsInDim S1024x1024 (![] : Fin 0 → Fin S1024x1024.rank)
  reducesTo_S1024x512_S_d0_1 : S1024x512.ReducesTo [0, 1] S_
  h_S_ : 0 < S_.numel
  shapeCasts_S1024x1024_S1048576 : S1024x1024.ShapeCasts S1048576
  shapeCasts_S1024x512_S524288 : S1024x512.ShapeCasts S524288
  bcast_S_S1 : S_.BroadcastsInDim S1 (![] : Fin 0 → Fin S1.rank)
  concatenates_S1048576_S1048576_S524288_S1_S2621441_d0 : Shape.Concatenates [S1048576, S1048576, S524288, S1] S2621441 0
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

class Facts : Prop extends Facts₀ where

variable [Facts]
-- ==== Proof.KBody0.lean ====
/- The frame side of the word-level kernel program, region 0 of @main (custom_call 0, the forward kernel, no grid):
   what each output window's staging buffer holds after the body as a function of the input windows' blocks, the body's
   triple, the pipeline's proof data at a PARAMETER `V` (the TensorCore's buffer contents when the region is entered)
   and the body obligation. The body reads its four input windows whole, reads (and drops) each output buffer, and
   stores each output whole; so every output buffer ends as one covering store of a payload of the inputs. -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place: unfetched, the block index has not moved. The
    windows are uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written through the rectangle that is the whole buffer -/

abbrev r0_a : Rect S1024x1024 := Rect.unit (s := S1024x1024) ![0, 0] S1024x1024.size inb_S1024x1024_S1024x1024_0_0
abbrev r0_b : Rect S1024x512 := Rect.unit (s := S1024x512) ![0, 0] S1024x512.size inb_S1024x512_S1024x512_0_0

/-! ## What the body leaves in each output window's buffer -/

/-- Window 4's staging buffer after the body: one store, of the first product `x0 · x1`. -/
def out0_4 (x0 : Vec F S1024x1024 .f32) (x1 : Vec F S1024x1024 .f32) : Vec F S1024x1024 .f32 :=
  View.canon [⟨r0_a, k0_pay1 (View.ld x0 r0_a) (View.ld x1 r0_a)⟩]
/-- Window 5's staging buffer after the body: one store, of `(x0 · x1) · x2`. -/
def out0_5 (x0 : Vec F S1024x1024 .f32) (x1 : Vec F S1024x1024 .f32) (x2 : Vec F S1024x1024 .f32) : Vec F S1024x1024 .f32 :=
  View.canon [⟨r0_a, k0_pay2 (View.ld x0 r0_a) (View.ld x1 r0_a) (View.ld x2 r0_a)⟩]
/-- Window 6's staging buffer after the body: one store, of `((x0 · x1) · x2) · x3`. -/
def out0_6 (x0 : Vec F S1024x1024 .f32) (x1 : Vec F S1024x1024 .f32) (x2 : Vec F S1024x1024 .f32) (x3 : Vec F S1024x512 .f32) : Vec F S1024x512 .f32 :=
  View.canon [⟨r0_b, k0_pay3 (View.ld x0 r0_a) (View.ld x1 r0_a) (View.ld x2 r0_a) (View.ld x3 r0_b)⟩]

/-- A store through the whole-buffer rectangle tiles the buffer (one block, checked by evaluation), so it covers it. -/
theorem cover0_a (p0 : Vec F S1024x1024 .f32) (y : S1024x1024.Idx) :
    ∃ pc ∈ ([⟨r0_a, p0⟩] : List (View.Piece (Elt F) S1024x1024 .f32)), y ∈ pc.1.set :=
  View.cover_of_tiled [⟨r0_a, p0⟩] S1024x1024.size (by rfl) y
theorem cover0_b (p0 : Vec F S1024x512 .f32) (y : S1024x512.Idx) :
    ∃ pc ∈ ([⟨r0_b, p0⟩] : List (View.Piece (Elt F) S1024x512 .f32)), y ∈ pc.1.set :=
  View.cover_of_tiled [⟨r0_b, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x512 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1024x512 .f32) (harg6 : arg6.IsWhole)
    (x0 : Vec F S1024x1024 .f32) (x1 : Vec F S1024x1024 .f32) (x2 : Vec F S1024x1024 .f32) (x3 : Vec F S1024x512 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out0_4 x0 x1) ∗ owns (c : Thread nD τ) arg5 fullShare (out0_5 x0 x1 x2)
            ∗ owns (c : Thread nD τ) arg6 fullShare (out0_6 x0 x1 x2 x3)) -∗ K ⟨⟩))
      ⊢ wp frame (wpE (defs₀ (F := F)) Variants.none c none) E (cc0__forward_kernel arg0 harg0 arg1 harg1 arg2 harg2 arg3 harg3 arg4 harg4 arg5 harg5 arg6 harg6) K := by
  simp only [cc0__forward_kernel_eq_skeleton]; unfold cc0__forward_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_a _)
  isplitl [H5]
  · iexists _; isplitr
    swap; · iexact H5
    ipureintro
    exact View.read_writes_eq_canon _ _ _ (cover0_a _)
  iexists _; isplitr
  swap; · iexact H6
  ipureintro
  exact View.read_writes_eq_canon _ _ _ (cover0_b _)

/-! ## The pipeline's proof data -/

/-- The proof data of pipeline 0 on core `c`: the arrays as the region finds them (`V`); after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KBody1.lean ====
/- The frame side of the word-level kernel program, region 1 of @main (custom_call 1, the relaxation kernel, a grid of
   4 points over the leading axis): what each output window's staging buffer holds after the body as a function of the
   input windows' blocks, the body's triple, the pipeline's proof data at a PARAMETER `V` (the TensorCore's buffer
   contents when the region is entered) and the body obligation. The body reads its six input windows whole, runs ONE
   counted loop of 20 trips that carries three register vectors and touches no memory, reads (and drops) each output
   buffer and stores the loop's three results whole. The loop is therefore a pure fold of its yield over the trips
   (`loop1`), and each output buffer ends as one covering store of a component of that fold. -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched (windows 4 and 5 after the first point),
    the block index has not moved. The windows are uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written through the rectangle that is the whole buffer -/

abbrev r1_a : Rect S1024x1024 := Rect.unit (s := S1024x1024) ![0, 0] S1024x1024.size inb_S1024x1024_S1024x1024_0_0
abbrev r1_b : Rect S1024x512 := Rect.unit (s := S1024x512) ![0, 0] S1024x512.size inb_S1024x512_S1024x512_0_0
abbrev r1_c : Rect S256x1024 := Rect.unit (s := S256x1024) ![0, 0] S256x1024.size inb_S256x1024_S256x1024_0_0
abbrev r1_d : Rect S256x512 := Rect.unit (s := S256x512) ![0, 0] S256x512.size inb_S256x512_S256x512_0_0

/-! ## The counted loop as a fold -/

/-- The loop's result: the fold, over its 20 trips, of the region's yield
    `(a, b, z) ↦ (k1_pay8 …, k1_pay9 …, k1_pay10 …)` from the three vectors loaded before it
    `(k1_pay1 v0, k1_pay2 v2, k1_pay3 v4)`; `v0`, `v6`, `v7`, `v8` are the loaded values the region reads. The region
    issues no memory operation, so running the loop IS this fold. -/
def loop1 (v0 : Vec F S256x1024 .f32) (v2 : Vec F S256x1024 .f32) (v4 : Vec F S256x512 .f32) (v6 : Vec F S256x512 .f32)
    (v7 : Vec F S1024x1024 .f32) (v8 : Vec F S1024x512 .f32) : FVec F S256x1024 .f32 × FVec F S256x1024 .f32 × FVec F S256x512 .f32 :=
  Scf.fold (fun (k : Fin k1_t1_loop.trips) (acc : FVec F S256x1024 .f32 × FVec F S256x1024 .f32 × FVec F S256x512 .f32) =>
      (k1_pay8 v0 v6 v7 v8 k acc.1 acc.2.1 acc.2.2, k1_pay9 v6 v7 v8 k acc.1 acc.2.1 acc.2.2, k1_pay10 v6 v8 acc.2.1 acc.2.2))
    (k1_pay1 v0, k1_pay2 v2, k1_pay3 v4)

/-! ## What the body leaves in each output window's buffer

The inputs `x0 … x5` are windows 0 … 5 in order; the loop's `v0, v2, v4, v6, v7, v8` are the loads of windows
1, 2, 3, 0, 4, 5. -/

/-- Window 6's staging buffer after the body: one store, of the fold's first component. -/
def out1_6 (x0 : Vec F S256x512 .f32) (x1 : Vec F S256x1024 .f32) (x2 : Vec F S256x1024 .f32) (x3 : Vec F S256x512 .f32)
    (x4 : Vec F S1024x1024 .f32) (x5 : Vec F S1024x512 .f32) : Vec F S256x1024 .f32 :=
  View.canon [⟨r1_c, (loop1 (View.ld x1 r1_c) (View.ld x2 r1_c) (View.ld x3 r1_d) (View.ld x0 r1_d) (View.ld x4 r1_a) (View.ld x5 r1_b)).1⟩]
/-- Window 7's staging buffer after the body: one store, of the fold's second component. -/
def out1_7 (x0 : Vec F S256x512 .f32) (x1 : Vec F S256x1024 .f32) (x2 : Vec F S256x1024 .f32) (x3 : Vec F S256x512 .f32)
    (x4 : Vec F S1024x1024 .f32) (x5 : Vec F S1024x512 .f32) : Vec F S256x1024 .f32 :=
  View.canon [⟨r1_c, (loop1 (View.ld x1 r1_c) (View.ld x2 r1_c) (View.ld x3 r1_d) (View.ld x0 r1_d) (View.ld x4 r1_a) (View.ld x5 r1_b)).2.1⟩]
/-- Window 8's staging buffer after the body: one store, of the fold's third component. -/
def out1_8 (x0 : Vec F S256x512 .f32) (x1 : Vec F S256x1024 .f32) (x2 : Vec F S256x1024 .f32) (x3 : Vec F S256x512 .f32)
    (x4 : Vec F S1024x1024 .f32) (x5 : Vec F S1024x512 .f32) : Vec F S256x512 .f32 :=
  View.canon [⟨r1_d, (loop1 (View.ld x1 r1_c) (View.ld x2 r1_c) (View.ld x3 r1_d) (View.ld x0 r1_d) (View.ld x4 r1_a) (View.ld x5 r1_b)).2.2⟩]

/-- A store through the whole-buffer rectangle tiles the buffer (one block, checked by evaluation), so it covers it. -/
theorem cover1_c (p0 : Vec F S256x1024 .f32) (y : S256x1024.Idx) :
    ∃ pc ∈ ([⟨r1_c, p0⟩] : List (View.Piece (Elt F) S256x1024 .f32)), y ∈ pc.1.set :=
  View.cover_of_tiled [⟨r1_c, p0⟩] S256x1024.size (by rfl) y
theorem cover1_d (p0 : Vec F S256x512 .f32) (y : S256x512.Idx) :
    ∃ pc ∈ ([⟨r1_d, p0⟩] : List (View.Piece (Elt F) S256x512 .f32)), y ∈ pc.1.set :=
  View.cover_of_tiled [⟨r1_d, p0⟩] S256x512.size (by rfl) y

/-! ## The body's triple -/

set_option maxHeartbeats 1000000 in
/-- The kernel body on whole staging memrefs, the inputs' at read contents `xW` and the outputs' at anything, runs to
    the continuation holding the inputs' as they were and each output's at `out1_W` of the inputs'. The loop is stepped
    as its fold. -/
theorem sound_kernel1 (c : Dev nD) (E : Set ℕ) (i : grid1.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S1024x1024 .f32) (harg5 : arg5.IsWhole) (arg6 : Memref sig .tc .vmem S1024x512 .f32) (harg6 : arg6.IsWhole)
    (arg7 : Memref sig .tc .vmem S256x1024 .f32) (harg7 : arg7.IsWhole) (arg8 : Memref sig .tc .vmem S256x1024 .f32) (harg8 : arg8.IsWhole)
    (arg9 : Memref sig .tc .vmem S256x512 .f32) (harg9 : arg9.IsWhole)
    (x0 : Vec F S256x512 .f32) (x1 : Vec F S256x1024 .f32) (x2 : Vec F S256x1024 .f32) (x3 : Vec F S256x512 .f32)
    (x4 : Vec F S1024x1024 .f32) (x5 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)
            ∗ owns (c : Thread nD τ) arg9 fullShare (out1_8 x0 x1 x2 x3 x4 x5)) -∗ K ⟨⟩))
      ⊢ wp frame (wpE (defs₀ (F := F)) Variants.none c none) E
          (cc1__relax_kernel i arg1 harg1 arg2 harg2 arg3 harg3 arg4 harg4 arg5 harg5 arg6 harg6 arg7 harg7 arg8 harg8 arg9 harg9) K := by
  simp only [cc1__relax_kernel_eq_skeleton]; unfold cc1__relax_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_c _)
  isplitl [H7]
  · iexists _; isplitr
    swap; · iexact H7
    ipureintro
    exact View.read_writes_eq_canon _ _ _ (cover1_c _)
  iexists _; isplitr
  swap; · iexact H8
  ipureintro
  exact View.read_writes_eq_canon _ _ _ (cover1_d _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies at the point's
    coordinates; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KBody2.lean ====
/- The frame side of the word-level kernel program, region 2 of @main (custom_call 2, the first weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place: unfetched, the block index has not moved. The
    windows are uncut and never idle. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written through the rectangle that is the whole buffer -/

abbrev r2_a : Rect S1024x1024 := Rect.unit (s := S1024x1024) ![0, 0] S1024x1024.size inb_S1024x1024_S1024x1024_0_0

/-! ## What the body leaves in the output window's buffer -/

/-- Window 3's staging buffer after the body: one store, of the payload `k2_pay1`: `x0ᵀ · (x1 − x2)` divided by the step constant. -/
def out2_3 (x0 : Vec F S1024x1024 .f32) (x1 : Vec F S1024x1024 .f32) (x2 : Vec F S1024x1024 .f32) : Vec F S1024x1024 .f32 :=
  View.canon [⟨r2_a, k2_pay1 (View.ld x0 r2_a) (View.ld x1 r2_a) (View.ld x2 r2_a)⟩]

/-- A store through the whole-buffer rectangle tiles the buffer (one block, checked by evaluation), so it covers it. -/
theorem cover2_3 (p0 : Vec F S1024x1024 .f32) (y : S1024x1024.Idx) :
    ∃ pc ∈ ([⟨r2_a, p0⟩] : List (View.Piece (Elt F) S1024x1024 .f32)), y ∈ pc.1.set :=
  View.cover_of_tiled [⟨r2_a, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (x2 : Vec F S1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__wgrad0_kernel arg0 harg0 arg1 harg1 arg2 harg2 arg3 harg3) K := by
  simp only [cc2__wgrad0_kernel_eq_skeleton]; unfold cc2__wgrad0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body each input's
    buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KBody3.lean ====
/- The frame side of the word-level kernel program, region 3 of @main (custom_call 3, the second weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place: unfetched, the block index has not moved. The
    windows are uncut and never idle. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written through the rectangle that is the whole buffer -/

abbrev r3_a : Rect S1024x1024 := Rect.unit (s := S1024x1024) ![0, 0] S1024x1024.size inb_S1024x1024_S1024x1024_0_0

/-! ## What the body leaves in the output window's buffer -/

/-- Window 3's staging buffer after the body: one store, of the payload `k3_pay1`: `x0ᵀ · (x0 · x1 − x2)` divided by the step constant. -/
def out3_3 (x0 : Vec F S1024x1024 .f32) (x1 : Vec F S1024x1024 .f32) (x2 : Vec F S1024x1024 .f32) : Vec F S1024x1024 .f32 :=
  View.canon [⟨r3_a, k3_pay1 (View.ld x0 r3_a) (View.ld x1 r3_a) (View.ld x2 r3_a)⟩]

/-- A store through the whole-buffer rectangle tiles the buffer (one block, checked by evaluation), so it covers it. -/
theorem cover3_3 (p0 : Vec F S1024x1024 .f32) (y : S1024x1024.Idx) :
    ∃ pc ∈ ([⟨r3_a, p0⟩] : List (View.Piece (Elt F) S1024x1024 .f32)), y ∈ pc.1.set :=
  View.cover_of_tiled [⟨r3_a, p0⟩] S1024x1024.size (by rfl) y

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (x2 : Vec F S1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__wgrad1_kernel arg0 harg0 arg1 harg1 arg2 harg2 arg3 harg3) K := by
  simp only [cc3__wgrad1_kernel_eq_skeleton]; unfold cc3__wgrad1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body each input's
    buffer at its block and the output's at `out3_3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KBody4.lean ====
/- The frame side of the word-level kernel program, region 4 of @main (custom_call 4, the third weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is `V`'s and whose body leaves the block in place: unfetched, the block index has not moved. The
    windows are uncut and never idle. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written through the rectangle that is the whole buffer -/

abbrev r4_a : Rect S1024x1024 := Rect.unit (s := S1024x1024) ![0, 0] S1024x1024.size inb_S1024x1024_S1024x1024_0_0
abbrev r4_b : Rect S1024x512 := Rect.unit (s := S1024x512) ![0, 0] S1024x512.size inb_S1024x512_S1024x512_0_0

/-! ## What the body leaves in the output window's buffer -/

/-- Window 3's staging buffer after the body: one store, of the payload `k4_pay1`: `x0ᵀ · (x0 · x1 − x2)` divided by the step constant. -/
def out4_3 (x0 : Vec F S1024x1024 .f32) (x1 : Vec F S1024x512 .f32) (x2 : Vec F S1024x512 .f32) : Vec F S1024x512 .f32 :=
  View.canon [⟨r4_b, k4_pay1 (View.ld x0 r4_a) (View.ld x1 r4_b) (View.ld x2 r4_b)⟩]

/-- A store through the whole-buffer rectangle tiles the buffer (one block, checked by evaluation), so it covers it. -/
theorem cover4_3 (p0 : Vec F S1024x512 .f32) (y : S1024x512.Idx) :
    ∃ pc ∈ ([⟨r4_b, p0⟩] : List (View.Piece (Elt F) S1024x512 .f32)), y ∈ pc.1.set :=
  View.cover_of_tiled [⟨r4_b, p0⟩] S1024x512.size (by rfl) y

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ)
    (arg0 : Memref sig .tc .vmem S1024x1024 .f32) (harg0 : arg0.IsWhole) (arg1 : Memref sig .tc .vmem S1024x512 .f32) (harg1 : arg1.IsWhole)
    (arg2 : Memref sig .tc .vmem S1024x512 .f32) (harg2 : arg2.IsWhole) (arg3 : Memref sig .tc .vmem S1024x512 .f32) (harg3 : arg3.IsWhole)
    (x0 : Vec F S1024x1024 .f32) (x1 : Vec F S1024x512 .f32) (x2 : Vec F S1024x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__wgrad2_kernel arg0 harg0 arg1 harg1 arg2 harg2 arg3 harg3) K := by
  simp only [cc4__wgrad2_kernel_eq_skeleton]; unfold cc4__wgrad2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body each input's
    buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.KBodies.lean ====
/- The five regions' frame halves of the word-level kernel program, one module per region, gathered. -/
import proofs.«123206_j75110388073098_2_alg».proof.Proof.KBody0
import proofs.«123206_j75110388073098_2_alg».proof.Proof.KBody1
import proofs.«123206_j75110388073098_2_alg».proof.Proof.KBody2
import proofs.«123206_j75110388073098_2_alg».proof.Proof.KBody3
import proofs.«123206_j75110388073098_2_alg».proof.Proof.KBody4
-- ==== Proof.KFrame.lean ====
/- The frame side of the word-level kernel program, the run: @main is region 0, a stretch of 6 host operations,
   regions 1, 2, 3, 4 and a stretch of 5 host operations. The TensorCore's buffer contents at every boundary are a fold
   from the launch memory (`W0 … W7`: a host stretch applies its operations; a region leaves its arrays at what its
   write-backs leave and every other buffer alone); every region's proof data are the class-A data of its module at the
   region's entry contents; the launch is the several-regions launch over one segment per item of @main, and its
   post names every unscoped buffer's final contents (`run_main`), from which the frame claim follows because no item
   writes an argument array (`frame`). -/
import proofs.«123206_j75110388073098_2_alg».proof.Proof.Gen.Kernel.Launch
import proofs.«123206_j75110388073098_2_alg».proof.Proof.Gen.Kernel.Skeleton
import proofs.«123206_j75110388073098_2_alg».proof.Proof.Gen.Kernel.Points
import proofs.«123206_j75110388073098_2_alg».proof.Proof.Gen.Kernel.Loops
import proofs.«123206_j75110388073098_2_alg».proof.Proof.KBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (region 0's entry: @main begins with it). -/
abbrev W0 : Dev nD → Valuation τ sig (Elt F) := fun c b => (s₀ m ρ).mem ((c : Dev nD), b)
/-- The same read at the TensorCore's references (what region 0's proof data take). -/
abbrev VW0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VW1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
/-- The same read at the TensorCore's references (what region 1's proof data take). -/
abbrev VW2 : (c : Dev nD) → (b : Ref sig .tc) → Buf (Elt F) ((c : Thread nD τ).loc b) := fun c b => W2 m ρ c b

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (VW2 m ρ) c).arrAt w cfg1.N
theorem W3_arr (c : Dev nD) (w : Fin cfg1.W) :
    W3 m ρ c (Proc.devRef .tc (Pipeline.arrRef spec1 w)) = (dat1 (VW2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VW3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (VW2 m ρ) c).arrAt w cfg1.N = VW3 m ρ c (Pipeline.arrRef spec1 w) :=
  (W3_arr m ρ c w).symm
theorem hrest1 (c : Dev nD) : ∀ b, b ∉ Finset.univ.image (Pipeline.arrRef spec1) → VW3 m ρ c b = VW2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (VW3 m ρ) c).arrAt w cfg2.N
theorem W4_arr (c : Dev nD) (w : Fin cfg2.W) :
    W4 m ρ c (Proc.devRef .tc (Pipeline.arrRef spec2 w)) = (dat2 (VW3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev VW4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (VW3 m ρ) c).arrAt w cfg2.N = VW4 m ρ c (Pipeline.arrRef spec2 w) :=
  (W4_arr m ρ c w).symm
theorem hrest2 (c : Dev nD) : ∀ b, b ∉ Finset.univ.image (Pipeline.arrRef spec2) → VW4 m ρ c b = VW3 m ρ c b :=
  fun b hb => W4_of_ne m ρ c b fun w e => hb (Finset.mem_image.mpr ⟨w, Finset.mem_univ _, e⟩)

/-- At region 3's exit: its arrays at what the pipeline leaves (the inputs as entered, each output's write-backs
    folded), every other buffer as entered. -/
def W5 (c : Dev nD) : Valuation τ sig (Elt F) :=
  Pipeline.withArrays spec3 c (W4 m ρ c) fun w => (dat3 (VW4 m ρ) c).arrAt w cfg3.N
theorem W5_arr (c : Dev nD) (w : Fin cfg3.W) :
    W5 m ρ c (Proc.devRef .tc (Pipeline.arrRef spec3 w)) = (dat3 (VW4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev VW5 : (c : Dev nD) → (b : Ref sig .tc) → Buf (Elt F) ((c : Thread nD τ).loc b) := fun c b => W5 m ρ c b
/-- At region 3's exit each of its arrays holds what the pipeline leaves and every other buffer what it held at entry. -/
theorem hF3 (c : Dev nD) (w : Fin cfg3.W) : (dat3 (VW4 m ρ) c).arrAt w cfg3.N = VW5 m ρ c (Pipeline.arrRef spec3 w) :=
  (W5_arr m ρ c w).symm
theorem hrest3 (c : Dev nD) : ∀ b, b ∉ Finset.univ.image (Pipeline.arrRef spec3) → VW5 m ρ c b = VW4 m ρ c b :=
  fun b hb => W5_of_ne m ρ c b fun w e => hb (Finset.mem_image.mpr ⟨w, Finset.mem_univ _, e⟩)

/-- At region 4's exit: its arrays at what the pipeline leaves (the inputs as entered, each output's write-backs
    folded), every other buffer as entered. -/
def W6 (c : Dev nD) : Valuation τ sig (Elt F) :=
  Pipeline.withArrays spec4 c (W5 m ρ c) fun w => (dat4 (VW5 m ρ) c).arrAt w cfg4.N
theorem W6_arr (c : Dev nD) (w : Fin cfg4.W) :
    W6 m ρ c (Proc.devRef .tc (Pipeline.arrRef spec4 w)) = (dat4 (VW5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev VW6 : (c : Dev nD) → (b : Ref sig .tc) → Buf (Elt F) ((c : Thread nD τ).loc b) := fun c b => W6 m ρ c b
/-- At region 4's exit each of its arrays holds what the pipeline leaves and every other buffer what it held at entry. -/
theorem hF4 (c : Dev nD) (w : Fin cfg4.W) : (dat4 (VW5 m ρ) c).arrAt w cfg4.N = VW6 m ρ c (Pipeline.arrRef spec4 w) :=
  (W6_arr m ρ c w).symm
theorem hrest4 (c : Dev nD) : ∀ b, b ∉ Finset.univ.image (Pipeline.arrRef spec4) → VW6 m ρ c b = VW5 m ρ c b :=
  fun b hb => W6_of_ne m ρ c b fun w e => hb (Finset.mem_image.mpr ⟨w, Finset.mem_univ _, e⟩)

/-- After the last host stretch: the contents @main ends with. -/
abbrev W7 : Dev nD → Valuation τ sig (Elt F) := fun c => StableHlo.after hostOps5 (W6 m ρ c)

/-! ## What the host stretches write -/

/-- Every operation of the first stretch writes one of these six buffers. -/
theorem hostOps1_wr : (hostOps1 : List (HloOp τ sig (Elt F))).Forall fun op =>
    op.writes ⊆ (([main_v1, main_v2, main_cst, main_v3, main_cst_0, main_v4] : List (Ref sig .tc)).map (Proc.devRef (τ := τ) .tc)).toFinset := by
  simp only [List.Forall, StableHlo.nullary_writes, StableHlo.binary_writes, Finset.singleton_subset_iff, List.mem_toFinset]
  refine ⟨?_, ?_, ?_, ?_, ?_, ?_⟩ <;> exact List.mem_map_of_mem (by decide)
/-- Every operation of the last stretch writes one of these five buffers. -/
theorem hostOps5_wr : (hostOps5 : List (HloOp τ sig (Elt F))).Forall fun op =>
    op.writes ⊆ (([main_v9, main_v10, main_v11, main_v12, main_v13] : List (Ref sig .tc)).map (Proc.devRef (τ := τ) .tc)).toFinset := by
  simp only [List.Forall, StableHlo.reshape_writes, StableHlo.nary_writes, Finset.singleton_subset_iff, List.mem_toFinset]
  refine ⟨?_, ?_, ?_, ?_, ?_⟩ <;> exact List.mem_map_of_mem (by decide)
/-- A buffer the first stretch does not write is as region 0 left it. -/
theorem W2_of (c : Dev nD) (b : Ref sig .tc) (h : b ∉ ([main_v1, main_v2, main_cst, main_v3, main_cst_0, main_v4] : List (Ref sig .tc))) :
    W2 m ρ c (Proc.devRef .tc b) = W1 m ρ c (Proc.devRef .tc b) :=
  StableHlo.after_of_writes_sub hostOps1 _ hostOps1_wr h
/-- A buffer the last stretch does not write is as region 4 left it. -/
theorem W7_of (c : Dev nD) (b : Ref sig .tc) (h : b ∉ ([main_v9, main_v10, main_v11, main_v12, main_v13] : List (Ref sig .tc))) :
    W7 m ρ c (Proc.devRef .tc b) = W6 m ρ c (Proc.devRef .tc b) :=
  StableHlo.after_of_writes_sub hostOps5 _ hostOps5_wr h

/-! ## The arguments end as launched: no host operation writes one, and a region reads it through an input window
    (whose array the pipeline leaves as entered) or does not touch it, so the fold at an argument's buffer walks back
    to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 0).trans (((dat2 (VW3 m ρ) c).arrAt_in 0 rfl _).trans (A_eq2 (VW3 m ρ) c 0))
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (VW0 m ρ) c).arrAt_in 0 rfl _).trans (A_eq0 (VW0 m ρ) c 0))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (VW2 m ρ) c).arrAt_in 0 rfl _).trans (A_eq1 (VW2 m ρ) c 0))
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (VW0 m ρ) c).arrAt_in 1 rfl _).trans (A_eq0 (VW0 m ρ) c 1))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := (W5_arr m ρ c 1).trans (((dat3 (VW4 m ρ) c).arrAt_in 1 rfl _).trans (A_eq3 (VW4 m ρ) c 1))
    _ = W3 m ρ c (Proc.devRef .tc main_arg3) := W4_of_ne m ρ c main_arg3 (by decide)
    _ = W2 m ρ c (Proc.devRef .tc main_arg3) := (W3_arr m ρ c 4).trans (((dat1 (VW2 m ρ) c).arrAt_in 4 rfl _).trans (A_eq1 (VW2 m ρ) c 4))
    _ = W1 m ρ c (Proc.devRef .tc main_arg3) := W2_of m ρ c main_arg3 (by decide)
    _ = W0 m ρ c (Proc.devRef .tc main_arg3) := (W1_arr m ρ c 2).trans (((dat0 (VW0 m ρ) c).arrAt_in 2 rfl _).trans (A_eq0 (VW0 m ρ) c 2))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := (W6_arr m ρ c 1).trans (((dat4 (VW5 m ρ) c).arrAt_in 1 rfl _).trans (A_eq4 (VW5 m ρ) c 1))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 5).trans (((dat1 (VW2 m ρ) c).arrAt_in 5 rfl _).trans (A_eq1 (VW2 m ρ) c 5))
    _ = W1 m ρ c (Proc.devRef .tc main_arg4) := W2_of m ρ c main_arg4 (by decide)
    _ = W0 m ρ c (Proc.devRef .tc main_arg4) := (W1_arr m ρ c 3).trans (((dat0 (VW0 m ρ) c).arrAt_in 3 rfl _).trans (A_eq0 (VW0 m ρ) c 3))
    _ = m ((c : Thread nD τ).loc main_arg4) := rfl

/-! # The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (VW0 m ρ) c
  | ⟨1, _⟩ => fun c => dat1 (VW2 m ρ) c
  | ⟨2, _⟩ => fun c => dat2 (VW3 m ρ) c
  | ⟨3, _⟩ => fun c => dat3 (VW4 m ρ) c
  | ⟨4, _⟩ => fun c => dat4 (VW5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at the stretch's fold over `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps1_nofresh : (hostOps1 : List (HloOp τ sig (Elt F))).Forall fun op => op.fresh = ∅ := by
  simp only [List.Forall]; repeat' constructor
/-- No operation of the last stretch allocates a buffer. -/
theorem hostOps5_nofresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! # The regions as segments -/

-- a library lemma stated over a pinned configuration unifies with the printed one only when unification may unfold
-- plain definitions in a metavariable's type
set_option backward.isDefEq.respectTransparency.types false in
/-- REGION 0 over the thread state: entered from every unscoped buffer at `W0`, left at `W1`. Its arrays
    are split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 1 over the thread state: entered from every unscoped buffer at `W2`, left at `W3`. Its arrays
    are split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VW2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW2 m ρ c) (VW3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 2 over the thread state: entered from every unscoped buffer at `W3`, left at `W4`. Its arrays
    are split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VW3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW3 m ρ c) (VW4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 3 over the thread state: entered from every unscoped buffer at `W4`, left at `W5`. Its arrays
    are split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (VW4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VW4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VW4 m ρ c) (VW5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 4 over the thread state: entered from every unscoped buffer at `W5`, left at `W6`. Its arrays
    are split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VW5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (VW5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VW5 m ρ c) (VW6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 7 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_nofresh (W1 m ρ)),
    .region (reg1 m ρ),
    .region (reg2 m ρ),
    .region (reg3 m ρ),
    .region (reg4 m ρ),
    .host (hseg hostOps5 hostOps5_sub hostOps5_nofresh (W6 m ρ)) ]
/-- @main IS the run of the segments: its chain of items, then the segments' run against that chain by definitional
    unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each unscoped buffer of each core holds the
    fold's last value `W7`: the several-regions launch over the segments, the last thread state read against the final
    state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the argument arrays end as launched — `run_main` read at the five arguments, each walking back through
    the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_main m ρ)

/-- info: 'Cert.Kernel.Hand.frame' depends on axioms: [propext, Classical.choice, Quot.sound] -/
#guard_msgs in #print axioms frame

end Cert.Kernel.Hand

end
-- ==== Proof.KIBody0.lean ====
/- The frame side of the idealized kernel program, region 0 of @main (custom_call 0, the forward kernel, no grid):
   what each output window's staging buffer holds after the body as a function of the input windows' blocks, the body's
   triple, the pipeline's proof data at a PARAMETER `V` (the TensorCore's buffer contents when the region is entered)
   and the body obligation. The body reads its four input windows whole, reads (and drops) each output buffer, and
   stores each output whole; so every output buffer ends as one covering store of a payload of the inputs. -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place: unfetched, the block index has not moved. The
    windows are uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written through the rectangle that is the whole buffer -/

abbrev r0_a : Rect S1024x1024 := Rect.unit (s := S1024x1024) ![0, 0] S1024x1024.size inb_S1024x1024_S1024x1024_0_0
abbrev r0_b : Rect S1024x512 := Rect.unit (s := S1024x512) ![0, 0] S1024x512.size inb_S1024x512_S1024x512_0_0

/-! ## What the body leaves in each output window's buffer -/

/-- Window 4's staging buffer after the body: one store, of the first product `x0 · x1`. -/
def out0_4 (x0 : Vec F S1024x1024 .f32) (x1 : Vec F S1024x1024 .f32) : Vec F S1024x1024 .f32 :=
  View.canon [⟨r0_a, k0_pay1 (View.ld x0 r0_a) (View.ld x1 r0_a)⟩]
/-- Window 5's staging buffer after the body: one store, of `(x0 · x1) · x2`. -/
def out0_5 (x0 : Vec F S1024x1024 .f32) (x1 : Vec F S1024x1024 .f32) (x2 : Vec F S1024x1024 .f32) : Vec F S1024x1024 .f32 :=
  View.canon [⟨r0_a, k0_pay2 (View.ld x0 r0_a) (View.ld x1 r0_a) (View.ld x2 r0_a)⟩]
/-- Window 6's staging buffer after the body: one store, of `((x0 · x1) · x2) · x3`. -/
def out0_6 (x0 : Vec F S1024x1024 .f32) (x1 : Vec F S1024x1024 .f32) (x2 : Vec F S1024x1024 .f32) (x3 : Vec F S1024x512 .f32) : Vec F S1024x512 .f32 :=
  View.canon [⟨r0_b, k0_pay3 (View.ld x0 r0_a) (View.ld x1 r0_a) (View.ld x2 r0_a) (View.ld x3 r0_b)⟩]

/-- A store through the whole-buffer rectangle tiles the buffer (one block, checked by evaluation), so it covers it. -/
theorem cover0_a (p0 : Vec F S1024x1024 .f32) (y : S1024x1024.Idx) :
    ∃ pc ∈ ([⟨r0_a, p0⟩] : List (View.Piece (Elt F) S1024x1024 .f32)), y ∈ pc.1.set :=
  View.cover_of_tiled [⟨r0_a, p0⟩] S1024x1024.size (by rfl) y
theorem cover0_b (p0 : Vec F S1024x512 .f32) (y : S1024x512.Idx) :
    ∃ pc ∈ ([⟨r0_b, p0⟩] : List (View.Piece (Elt F) S1024x512 .f32)), y ∈ pc.1.set :=
  View.cover_of_tiled [⟨r0_b, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel0 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x512 .f32) (harg3 : arg3.IsWhole)
    (arg4 : Memref sig .tc .vmem S1024x1024 .f32) (harg4 : arg4.IsWhole) (arg5 : Memref sig .tc .vmem S1024x1024 .f32) (harg5 : arg5.IsWhole)
    (arg6 : Memref sig .tc .vmem S1024x512 .f32) (harg6 : arg6.IsWhole)
    (x0 : Vec F S1024x1024 .f32) (x1 : Vec F S1024x1024 .f32) (x2 : Vec F S1024x1024 .f32) (x3 : Vec F S1024x512 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out0_4 x0 x1) ∗ owns (c : Thread nD τ) arg5 fullShare (out0_5 x0 x1 x2)
            ∗ owns (c : Thread nD τ) arg6 fullShare (out0_6 x0 x1 x2 x3)) -∗ K ⟨⟩))
      ⊢ wp frame (wpE (defs₀ (F := F)) Variants.none c none) E (cc0__forward_kernel arg0 harg0 arg1 harg1 arg2 harg2 arg3 harg3 arg4 harg4 arg5 harg5 arg6 harg6) K := by
  simp only [cc0__forward_kernel_eq_skeleton]; unfold cc0__forward_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_a _)
  isplitl [H5]
  · iexists _; isplitr
    swap; · iexact H5
    ipureintro
    exact View.read_writes_eq_canon _ _ _ (cover0_a _)
  iexists _; isplitr
  swap; · iexact H6
  ipureintro
  exact View.read_writes_eq_canon _ _ _ (cover0_b _)

/-! ## The pipeline's proof data -/

/-- The proof data of pipeline 0 on core `c`: the arrays as the region finds them (`V`); after the body each input's
    buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIBody1.lean ====
/- The frame side of the idealized kernel program, region 1 of @main (custom_call 1, the relaxation kernel, a grid of
   4 points over the leading axis): what each output window's staging buffer holds after the body as a function of the
   input windows' blocks, the body's triple, the pipeline's proof data at a PARAMETER `V` (the TensorCore's buffer
   contents when the region is entered) and the body obligation. The body reads its six input windows whole, runs ONE
   counted loop of 20 trips that carries three register vectors and touches no memory, reads (and drops) each output
   buffer and stores the loop's three results whole. The loop is therefore a pure fold of its yield over the trips
   (`loop1`), and each output buffer ends as one covering store of a component of that fold. -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched (windows 4 and 5 after the first point),
    the block index has not moved. The windows are uncut and never idle. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written through the rectangle that is the whole buffer -/

abbrev r1_a : Rect S1024x1024 := Rect.unit (s := S1024x1024) ![0, 0] S1024x1024.size inb_S1024x1024_S1024x1024_0_0
abbrev r1_b : Rect S1024x512 := Rect.unit (s := S1024x512) ![0, 0] S1024x512.size inb_S1024x512_S1024x512_0_0
abbrev r1_c : Rect S256x1024 := Rect.unit (s := S256x1024) ![0, 0] S256x1024.size inb_S256x1024_S256x1024_0_0
abbrev r1_d : Rect S256x512 := Rect.unit (s := S256x512) ![0, 0] S256x512.size inb_S256x512_S256x512_0_0

/-! ## The counted loop as a fold -/

/-- The loop's result: the fold, over its 20 trips, of the region's yield
    `(a, b, z) ↦ (k1_pay8 …, k1_pay9 …, k1_pay10 …)` from the three vectors loaded before it
    `(k1_pay1 v0, k1_pay2 v2, k1_pay3 v4)`; `v0`, `v6`, `v7`, `v8` are the loaded values the region reads. The region
    issues no memory operation, so running the loop IS this fold. -/
def loop1 (v0 : Vec F S256x1024 .f32) (v2 : Vec F S256x1024 .f32) (v4 : Vec F S256x512 .f32) (v6 : Vec F S256x512 .f32)
    (v7 : Vec F S1024x1024 .f32) (v8 : Vec F S1024x512 .f32) : FVec F S256x1024 .f32 × FVec F S256x1024 .f32 × FVec F S256x512 .f32 :=
  Scf.fold (fun (k : Fin k1_t1_loop.trips) (acc : FVec F S256x1024 .f32 × FVec F S256x1024 .f32 × FVec F S256x512 .f32) =>
      (k1_pay8 v0 v6 v7 v8 k acc.1 acc.2.1 acc.2.2, k1_pay9 v6 v7 v8 k acc.1 acc.2.1 acc.2.2, k1_pay10 v6 v8 acc.2.1 acc.2.2))
    (k1_pay1 v0, k1_pay2 v2, k1_pay3 v4)

/-! ## What the body leaves in each output window's buffer

The inputs `x0 … x5` are windows 0 … 5 in order; the loop's `v0, v2, v4, v6, v7, v8` are the loads of windows
1, 2, 3, 0, 4, 5. -/

/-- Window 6's staging buffer after the body: one store, of the fold's first component. -/
def out1_6 (x0 : Vec F S256x512 .f32) (x1 : Vec F S256x1024 .f32) (x2 : Vec F S256x1024 .f32) (x3 : Vec F S256x512 .f32)
    (x4 : Vec F S1024x1024 .f32) (x5 : Vec F S1024x512 .f32) : Vec F S256x1024 .f32 :=
  View.canon [⟨r1_c, (loop1 (View.ld x1 r1_c) (View.ld x2 r1_c) (View.ld x3 r1_d) (View.ld x0 r1_d) (View.ld x4 r1_a) (View.ld x5 r1_b)).1⟩]
/-- Window 7's staging buffer after the body: one store, of the fold's second component. -/
def out1_7 (x0 : Vec F S256x512 .f32) (x1 : Vec F S256x1024 .f32) (x2 : Vec F S256x1024 .f32) (x3 : Vec F S256x512 .f32)
    (x4 : Vec F S1024x1024 .f32) (x5 : Vec F S1024x512 .f32) : Vec F S256x1024 .f32 :=
  View.canon [⟨r1_c, (loop1 (View.ld x1 r1_c) (View.ld x2 r1_c) (View.ld x3 r1_d) (View.ld x0 r1_d) (View.ld x4 r1_a) (View.ld x5 r1_b)).2.1⟩]
/-- Window 8's staging buffer after the body: one store, of the fold's third component. -/
def out1_8 (x0 : Vec F S256x512 .f32) (x1 : Vec F S256x1024 .f32) (x2 : Vec F S256x1024 .f32) (x3 : Vec F S256x512 .f32)
    (x4 : Vec F S1024x1024 .f32) (x5 : Vec F S1024x512 .f32) : Vec F S256x512 .f32 :=
  View.canon [⟨r1_d, (loop1 (View.ld x1 r1_c) (View.ld x2 r1_c) (View.ld x3 r1_d) (View.ld x0 r1_d) (View.ld x4 r1_a) (View.ld x5 r1_b)).2.2⟩]

/-- A store through the whole-buffer rectangle tiles the buffer (one block, checked by evaluation), so it covers it. -/
theorem cover1_c (p0 : Vec F S256x1024 .f32) (y : S256x1024.Idx) :
    ∃ pc ∈ ([⟨r1_c, p0⟩] : List (View.Piece (Elt F) S256x1024 .f32)), y ∈ pc.1.set :=
  View.cover_of_tiled [⟨r1_c, p0⟩] S256x1024.size (by rfl) y
theorem cover1_d (p0 : Vec F S256x512 .f32) (y : S256x512.Idx) :
    ∃ pc ∈ ([⟨r1_d, p0⟩] : List (View.Piece (Elt F) S256x512 .f32)), y ∈ pc.1.set :=
  View.cover_of_tiled [⟨r1_d, p0⟩] S256x512.size (by rfl) y

/-! ## The body's triple -/

set_option maxHeartbeats 1000000 in
/-- The kernel body on whole staging memrefs, the inputs' at read contents `xW` and the outputs' at anything, runs to
    the continuation holding the inputs' as they were and each output's at `out1_W` of the inputs'. The loop is stepped
    as its fold. -/
theorem sound_kernel1 (c : Dev nD) (E : Set ℕ) (i : grid1.Coords)
    (arg1 : Memref sig .tc .vmem S256x512 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S1024x1024 .f32) (harg5 : arg5.IsWhole) (arg6 : Memref sig .tc .vmem S1024x512 .f32) (harg6 : arg6.IsWhole)
    (arg7 : Memref sig .tc .vmem S256x1024 .f32) (harg7 : arg7.IsWhole) (arg8 : Memref sig .tc .vmem S256x1024 .f32) (harg8 : arg8.IsWhole)
    (arg9 : Memref sig .tc .vmem S256x512 .f32) (harg9 : arg9.IsWhole)
    (x0 : Vec F S256x512 .f32) (x1 : Vec F S256x1024 .f32) (x2 : Vec F S256x1024 .f32) (x3 : Vec F S256x512 .f32)
    (x4 : Vec F S1024x1024 .f32) (x5 : Vec F S1024x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)
            ∗ owns (c : Thread nD τ) arg9 fullShare (out1_8 x0 x1 x2 x3 x4 x5)) -∗ K ⟨⟩))
      ⊢ wp frame (wpE (defs₀ (F := F)) Variants.none c none) E
          (cc1__relax_kernel i arg1 harg1 arg2 harg2 arg3 harg3 arg4 harg4 arg5 harg5 arg6 harg6 arg7 harg7 arg8 harg8 arg9 harg9) K := by
  simp only [cc1__relax_kernel_eq_skeleton]; unfold cc1__relax_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_c _)
  isplitl [H7]
  · iexists _; isplitr
    swap; · iexact H7
    ipureintro
    exact View.read_writes_eq_canon _ _ _ (cover1_c _)
  iexists _; isplitr
  swap; · iexact H8
  ipureintro
  exact View.read_writes_eq_canon _ _ _ (cover1_d _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies at the point's
    coordinates; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIBody2.lean ====
/- The frame side of the idealized kernel program, region 2 of @main (custom_call 2, the first weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place: unfetched, the block index has not moved. The
    windows are uncut and never idle. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written through the rectangle that is the whole buffer -/

abbrev r2_a : Rect S1024x1024 := Rect.unit (s := S1024x1024) ![0, 0] S1024x1024.size inb_S1024x1024_S1024x1024_0_0

/-! ## What the body leaves in the output window's buffer -/

/-- Window 3's staging buffer after the body: one store, of the payload `k2_pay1`: `x0ᵀ · (x1 − x2)` divided by the step constant. -/
def out2_3 (x0 : Vec F S1024x1024 .f32) (x1 : Vec F S1024x1024 .f32) (x2 : Vec F S1024x1024 .f32) : Vec F S1024x1024 .f32 :=
  View.canon [⟨r2_a, k2_pay1 (View.ld x0 r2_a) (View.ld x1 r2_a) (View.ld x2 r2_a)⟩]

/-- A store through the whole-buffer rectangle tiles the buffer (one block, checked by evaluation), so it covers it. -/
theorem cover2_3 (p0 : Vec F S1024x1024 .f32) (y : S1024x1024.Idx) :
    ∃ pc ∈ ([⟨r2_a, p0⟩] : List (View.Piece (Elt F) S1024x1024 .f32)), y ∈ pc.1.set :=
  View.cover_of_tiled [⟨r2_a, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (x2 : Vec F S1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__wgrad0_kernel arg0 harg0 arg1 harg1 arg2 harg2 arg3 harg3) K := by
  simp only [cc2__wgrad0_kernel_eq_skeleton]; unfold cc2__wgrad0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body each input's
    buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KIBody3.lean ====
/- The frame side of the idealized kernel program, region 3 of @main (custom_call 3, the second weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place: unfetched, the block index has not moved. The
    windows are uncut and never idle. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read and written through the rectangle that is the whole buffer -/

abbrev r3_a : Rect S1024x1024 := Rect.unit (s := S1024x1024) ![0, 0] S1024x1024.size inb_S1024x1024_S1024x1024_0_0

/-! ## What the body leaves in the output window's buffer -/

/-- Window 3's staging buffer after the body: one store, of the payload `k3_pay1`: `x0ᵀ · (x0 · x1 − x2)` divided by the step constant. -/
def out3_3 (x0 : Vec F S1024x1024 .f32) (x1 : Vec F S1024x1024 .f32) (x2 : Vec F S1024x1024 .f32) : Vec F S1024x1024 .f32 :=
  View.canon [⟨r3_a, k3_pay1 (View.ld x0 r3_a) (View.ld x1 r3_a) (View.ld x2 r3_a)⟩]

/-- A store through the whole-buffer rectangle tiles the buffer (one block, checked by evaluation), so it covers it. -/
theorem cover3_3 (p0 : Vec F S1024x1024 .f32) (y : S1024x1024.Idx) :
    ∃ pc ∈ ([⟨r3_a, p0⟩] : List (View.Piece (Elt F) S1024x1024 .f32)), y ∈ pc.1.set :=
  View.cover_of_tiled [⟨r3_a, p0⟩] S1024x1024.size (by rfl) y

/-! ## The body's triple -/

set_option maxHeartbeats 1000000 in
/-- The kernel body on whole staging memrefs, the inputs' at read contents `xW` and the output's at anything, runs to
    the continuation holding the inputs' as they were and the output's at `out3_3` of the inputs'. -/
theorem sound_kernel3 (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (x2 : Vec F S1024x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__wgrad1_kernel arg0 harg0 arg1 harg1 arg2 harg2 arg3 harg3) K := by
  simp only [cc3__wgrad1_kernel_eq_skeleton]; unfold cc3__wgrad1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body each input's
    buffer at its block and the output's at `out3_3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KIBody4.lean ====
/- The frame side of the idealized kernel program, region 4 of @main (custom_call 4, the third weight gradient, no grid):
   what the output window's staging buffer holds after the body as a function of the input windows' blocks, the body's
   triple, the pipeline's proof data at a PARAMETER `V` (the TensorCore's buffer contents when the region is entered)
   and the body obligation. The body reads its three input windows whole, reads (and drops) the output buffer, and
   stores the output whole; so the output buffer ends as one covering store of a payload of the inputs. -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof data
    whose array is `V`'s and whose body leaves the block in place: unfetched, the block index has not moved. The
    windows are uncut and never idle. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written through the rectangle that is the whole buffer -/

abbrev r4_a : Rect S1024x1024 := Rect.unit (s := S1024x1024) ![0, 0] S1024x1024.size inb_S1024x1024_S1024x1024_0_0
abbrev r4_b : Rect S1024x512 := Rect.unit (s := S1024x512) ![0, 0] S1024x512.size inb_S1024x512_S1024x512_0_0

/-! ## What the body leaves in the output window's buffer -/

/-- Window 3's staging buffer after the body: one store, of the payload `k4_pay1`: `x0ᵀ · (x0 · x1 − x2)` divided by the step constant. -/
def out4_3 (x0 : Vec F S1024x1024 .f32) (x1 : Vec F S1024x512 .f32) (x2 : Vec F S1024x512 .f32) : Vec F S1024x512 .f32 :=
  View.canon [⟨r4_b, k4_pay1 (View.ld x0 r4_a) (View.ld x1 r4_b) (View.ld x2 r4_b)⟩]

/-- A store through the whole-buffer rectangle tiles the buffer (one block, checked by evaluation), so it covers it. -/
theorem cover4_3 (p0 : Vec F S1024x512 .f32) (y : S1024x512.Idx) :
    ∃ pc ∈ ([⟨r4_b, p0⟩] : List (View.Piece (Elt F) S1024x512 .f32)), y ∈ pc.1.set :=
  View.cover_of_tiled [⟨r4_b, p0⟩] S1024x512.size (by rfl) y

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ)
    (arg0 : Memref sig .tc .vmem S1024x1024 .f32) (harg0 : arg0.IsWhole) (arg1 : Memref sig .tc .vmem S1024x512 .f32) (harg1 : arg1.IsWhole)
    (arg2 : Memref sig .tc .vmem S1024x512 .f32) (harg2 : arg2.IsWhole) (arg3 : Memref sig .tc .vmem S1024x512 .f32) (harg3 : arg3.IsWhole)
    (x0 : Vec F S1024x1024 .f32) (x1 : Vec F S1024x512 .f32) (x2 : Vec F S1024x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__wgrad2_kernel arg0 harg0 arg1 harg1 arg2 harg2 arg3 harg3) K := by
  simp only [cc4__wgrad2_kernel_eq_skeleton]; unfold cc4__wgrad2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body each input's
    buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KIBodies.lean ====
/- The five regions' frame halves of the idealized kernel program, one module per region, gathered. -/
import proofs.«123206_j75110388073098_2_alg».proof.Proof.KIBody0
import proofs.«123206_j75110388073098_2_alg».proof.Proof.KIBody1
import proofs.«123206_j75110388073098_2_alg».proof.Proof.KIBody2
import proofs.«123206_j75110388073098_2_alg».proof.Proof.KIBody3
import proofs.«123206_j75110388073098_2_alg».proof.Proof.KIBody4
-- ==== Proof.KIFrame.lean ====
/- The frame side of the idealized kernel program, the run: @main is region 0, a stretch of 6 host operations,
   regions 1, 2, 3, 4 and a stretch of 5 host operations. The TensorCore's buffer contents at every boundary are a fold
   from the launch memory (`W0 … W7`: a host stretch applies its operations; a region leaves its arrays at what its
   write-backs leave and every other buffer alone); every region's proof data are the class-A data of its module at the
   region's entry contents; the launch is the several-regions launch over one segment per item of @main, and its
   post names every unscoped buffer's final contents (`run_main`), from which the frame claim follows because no item
   writes an argument array (`frame`). -/
import proofs.«123206_j75110388073098_2_alg».proof.Proof.Gen.KernelIdeal.Launch
import proofs.«123206_j75110388073098_2_alg».proof.Proof.Gen.KernelIdeal.Skeleton
import proofs.«123206_j75110388073098_2_alg».proof.Proof.Gen.KernelIdeal.Points
import proofs.«123206_j75110388073098_2_alg».proof.Proof.Gen.KernelIdeal.Loops
import proofs.«123206_j75110388073098_2_alg».proof.Proof.KIBodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (region 0's entry: @main begins with it). -/
abbrev W0 : Dev nD → Valuation τ sig (Elt F) := fun c b => (s₀ m ρ).mem ((c : Dev nD), b)
/-- The same read at the TensorCore's references (what region 0's proof data take). -/
abbrev VW0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (VW0 m ρ) c).arrAt w cfg0.N
theorem W1_arr (c : Dev nD) (w : Fin cfg0.W) :
    W1 m ρ c (Proc.devRef .tc (Pipeline.arrRef spec0 w)) = (dat0 (VW0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VW1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (VW0 m ρ) c).arrAt w cfg0.N = VW1 m ρ c (Pipeline.arrRef spec0 w) :=
  (W1_arr m ρ c w).symm
theorem hrest0 (c : Dev nD) : ∀ b, b ∉ Finset.univ.image (Pipeline.arrRef spec0) → VW1 m ρ c b = VW0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
/-- The same read at the TensorCore's references (what region 1's proof data take). -/
abbrev VW2 : (c : Dev nD) → (b : Ref sig .tc) → Buf (Elt F) ((c : Thread nD τ).loc b) := fun c b => W2 m ρ c b

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (VW2 m ρ) c).arrAt w cfg1.N
theorem W3_arr (c : Dev nD) (w : Fin cfg1.W) :
    W3 m ρ c (Proc.devRef .tc (Pipeline.arrRef spec1 w)) = (dat1 (VW2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VW3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (VW2 m ρ) c).arrAt w cfg1.N = VW3 m ρ c (Pipeline.arrRef spec1 w) :=
  (W3_arr m ρ c w).symm
theorem hrest1 (c : Dev nD) : ∀ b, b ∉ Finset.univ.image (Pipeline.arrRef spec1) → VW3 m ρ c b = VW2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (VW3 m ρ) c).arrAt w cfg2.N
theorem W4_arr (c : Dev nD) (w : Fin cfg2.W) :
    W4 m ρ c (Proc.devRef .tc (Pipeline.arrRef spec2 w)) = (dat2 (VW3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev VW4 : (c : Dev nD) → (b : Ref sig .tc) → Buf (Elt F) ((c : Thread nD τ).loc b) := fun c b => W4 m ρ c b
/-- At region 2's exit each of its arrays holds what the pipeline leaves and every other buffer what it held at entry. -/
theorem hF2 (c : Dev nD) (w : Fin cfg2.W) : (dat2 (VW3 m ρ) c).arrAt w cfg2.N = VW4 m ρ c (Pipeline.arrRef spec2 w) :=
  (W4_arr m ρ c w).symm
theorem hrest2 (c : Dev nD) : ∀ b, b ∉ Finset.univ.image (Pipeline.arrRef spec2) → VW4 m ρ c b = VW3 m ρ c b :=
  fun b hb => W4_of_ne m ρ c b fun w e => hb (Finset.mem_image.mpr ⟨w, Finset.mem_univ _, e⟩)

/-- At region 3's exit: its arrays at what the pipeline leaves (the inputs as entered, each output's write-backs
    folded), every other buffer as entered. -/
def W5 (c : Dev nD) : Valuation τ sig (Elt F) :=
  Pipeline.withArrays spec3 c (W4 m ρ c) fun w => (dat3 (VW4 m ρ) c).arrAt w cfg3.N
theorem W5_arr (c : Dev nD) (w : Fin cfg3.W) :
    W5 m ρ c (Proc.devRef .tc (Pipeline.arrRef spec3 w)) = (dat3 (VW4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references. -/
abbrev VW5 : (c : Dev nD) → (b : Ref sig .tc) → Buf (Elt F) ((c : Thread nD τ).loc b) := fun c b => W5 m ρ c b
/-- At region 3's exit each of its arrays holds what the pipeline leaves and every other buffer what it held at entry. -/
theorem hF3 (c : Dev nD) (w : Fin cfg3.W) : (dat3 (VW4 m ρ) c).arrAt w cfg3.N = VW5 m ρ c (Pipeline.arrRef spec3 w) :=
  (W5_arr m ρ c w).symm
theorem hrest3 (c : Dev nD) : ∀ b, b ∉ Finset.univ.image (Pipeline.arrRef spec3) → VW5 m ρ c b = VW4 m ρ c b :=
  fun b hb => W5_of_ne m ρ c b fun w e => hb (Finset.mem_image.mpr ⟨w, Finset.mem_univ _, e⟩)

/-- At region 4's exit: its arrays at what the pipeline leaves (the inputs as entered, each output's write-backs
    folded), every other buffer as entered. -/
def W6 (c : Dev nD) : Valuation τ sig (Elt F) :=
  Pipeline.withArrays spec4 c (W5 m ρ c) fun w => (dat4 (VW5 m ρ) c).arrAt w cfg4.N
theorem W6_arr (c : Dev nD) (w : Fin cfg4.W) :
    W6 m ρ c (Proc.devRef .tc (Pipeline.arrRef spec4 w)) = (dat4 (VW5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references. -/
abbrev VW6 : (c : Dev nD) → (b : Ref sig .tc) → Buf (Elt F) ((c : Thread nD τ).loc b) := fun c b => W6 m ρ c b
/-- At region 4's exit each of its arrays holds what the pipeline leaves and every other buffer what it held at entry. -/
theorem hF4 (c : Dev nD) (w : Fin cfg4.W) : (dat4 (VW5 m ρ) c).arrAt w cfg4.N = VW6 m ρ c (Pipeline.arrRef spec4 w) :=
  (W6_arr m ρ c w).symm
theorem hrest4 (c : Dev nD) : ∀ b, b ∉ Finset.univ.image (Pipeline.arrRef spec4) → VW6 m ρ c b = VW5 m ρ c b :=
  fun b hb => W6_of_ne m ρ c b fun w e => hb (Finset.mem_image.mpr ⟨w, Finset.mem_univ _, e⟩)

/-- After the last host stretch: the contents @main ends with. -/
abbrev W7 : Dev nD → Valuation τ sig (Elt F) := fun c => StableHlo.after hostOps5 (W6 m ρ c)

/-! ## What the host stretches write -/

/-- Every operation of the first stretch writes one of these six buffers. -/
theorem hostOps1_wr : (hostOps1 : List (HloOp τ sig (Elt F))).Forall fun op =>
    op.writes ⊆ (([main_v1, main_v2, main_cst, main_v3, main_cst_0, main_v4] : List (Ref sig .tc)).map (Proc.devRef (τ := τ) .tc)).toFinset := by
  simp only [List.Forall, StableHlo.nullary_writes, StableHlo.binary_writes, Finset.singleton_subset_iff, List.mem_toFinset]
  refine ⟨?_, ?_, ?_, ?_, ?_, ?_⟩ <;> exact List.mem_map_of_mem (by decide)
/-- Every operation of the last stretch writes one of these five buffers. -/
theorem hostOps5_wr : (hostOps5 : List (HloOp τ sig (Elt F))).Forall fun op =>
    op.writes ⊆ (([main_v9, main_v10, main_v11, main_v12, main_v13] : List (Ref sig .tc)).map (Proc.devRef (τ := τ) .tc)).toFinset := by
  simp only [List.Forall, StableHlo.reshape_writes, StableHlo.nary_writes, Finset.singleton_subset_iff, List.mem_toFinset]
  refine ⟨?_, ?_, ?_, ?_, ?_⟩ <;> exact List.mem_map_of_mem (by decide)
/-- A buffer the first stretch does not write is as region 0 left it. -/
theorem W2_of (c : Dev nD) (b : Ref sig .tc) (h : b ∉ ([main_v1, main_v2, main_cst, main_v3, main_cst_0, main_v4] : List (Ref sig .tc))) :
    W2 m ρ c (Proc.devRef .tc b) = W1 m ρ c (Proc.devRef .tc b) :=
  StableHlo.after_of_writes_sub hostOps1 _ hostOps1_wr h
/-- A buffer the last stretch does not write is as region 4 left it. -/
theorem W7_of (c : Dev nD) (b : Ref sig .tc) (h : b ∉ ([main_v9, main_v10, main_v11, main_v12, main_v13] : List (Ref sig .tc))) :
    W7 m ρ c (Proc.devRef .tc b) = W6 m ρ c (Proc.devRef .tc b) :=
  StableHlo.after_of_writes_sub hostOps5 _ hostOps5_wr h

/-! ## The arguments end as launched: no host operation writes one, and a region reads it through an input window
    (whose array the pipeline leaves as entered) or does not touch it, so the fold at an argument's buffer walks back
    to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := (W4_arr m ρ c 0).trans (((dat2 (VW3 m ρ) c).arrAt_in 0 rfl _).trans (A_eq2 (VW3 m ρ) c 0))
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (VW0 m ρ) c).arrAt_in 0 rfl _).trans (A_eq0 (VW0 m ρ) c 0))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := (W3_arr m ρ c 0).trans (((dat1 (VW2 m ρ) c).arrAt_in 0 rfl _).trans (A_eq1 (VW2 m ρ) c 0))
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 1).trans (((dat0 (VW0 m ρ) c).arrAt_in 1 rfl _).trans (A_eq0 (VW0 m ρ) c 1))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := (W5_arr m ρ c 1).trans (((dat3 (VW4 m ρ) c).arrAt_in 1 rfl _).trans (A_eq3 (VW4 m ρ) c 1))
    _ = W3 m ρ c (Proc.devRef .tc main_arg3) := W4_of_ne m ρ c main_arg3 (by decide)
    _ = W2 m ρ c (Proc.devRef .tc main_arg3) := (W3_arr m ρ c 4).trans (((dat1 (VW2 m ρ) c).arrAt_in 4 rfl _).trans (A_eq1 (VW2 m ρ) c 4))
    _ = W1 m ρ c (Proc.devRef .tc main_arg3) := W2_of m ρ c main_arg3 (by decide)
    _ = W0 m ρ c (Proc.devRef .tc main_arg3) := (W1_arr m ρ c 2).trans (((dat0 (VW0 m ρ) c).arrAt_in 2 rfl _).trans (A_eq0 (VW0 m ρ) c 2))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := (W6_arr m ρ c 1).trans (((dat4 (VW5 m ρ) c).arrAt_in 1 rfl _).trans (A_eq4 (VW5 m ρ) c 1))
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := (W3_arr m ρ c 5).trans (((dat1 (VW2 m ρ) c).arrAt_in 5 rfl _).trans (A_eq1 (VW2 m ρ) c 5))
    _ = W1 m ρ c (Proc.devRef .tc main_arg4) := W2_of m ρ c main_arg4 (by decide)
    _ = W0 m ρ c (Proc.devRef .tc main_arg4) := (W1_arr m ρ c 3).trans (((dat0 (VW0 m ρ) c).arrAt_in 3 rfl _).trans (A_eq0 (VW0 m ρ) c 3))
    _ = m ((c : Thread nD τ).loc main_arg4) := rfl

/-! # The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (VW0 m ρ) c
  | ⟨1, _⟩ => fun c => dat1 (VW2 m ρ) c
  | ⟨2, _⟩ => fun c => dat2 (VW3 m ρ) c
  | ⟨3, _⟩ => fun c => dat3 (VW4 m ρ) c
  | ⟨4, _⟩ => fun c => dat4 (VW5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at the stretch's fold over `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps1_nofresh : (hostOps1 : List (HloOp τ sig (Elt F))).Forall fun op => op.fresh = ∅ := by
  simp only [List.Forall]; repeat' constructor
/-- No operation of the last stretch allocates a buffer. -/
theorem hostOps5_nofresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! # The regions as segments -/

-- a library lemma stated over a pinned configuration unifies with the printed one only when unification may unfold
-- plain definitions in a metavariable's type
set_option backward.isDefEq.respectTransparency.types false in
/-- REGION 0 over the thread state: entered from every unscoped buffer at `W0`, left at `W1`. Its arrays
    are split out of the unscoped buffers and put back at the exit contents; the generator register goes into the
    class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VW0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VW0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VW0 m ρ c) (VW1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 1 over the thread state: entered from every unscoped buffer at `W2`, left at `W3`. Its arrays
    are split out of the unscoped buffers and put back at the exit contents; the generator register goes into the
    class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VW2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VW2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VW2 m ρ c) (VW3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 2 over the thread state: entered from every unscoped buffer at `W3`, left at `W4`. Its arrays
    are split out of the unscoped buffers and put back at the exit contents; the generator register goes into the
    class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (VW3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VW3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VW3 m ρ c) (VW4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 3 over the thread state: entered from every unscoped buffer at `W4`, left at `W5`. Its arrays
    are split out of the unscoped buffers and put back at the exit contents; the generator register goes into the
    class invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (VW4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VW4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VW4 m ρ c) (VW5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 4 over the thread state: entered from every unscoped buffer at `W5`, left at `W6`. Its arrays
    are split out of the unscoped buffers and put back at the exit contents; the generator register goes into the
    class invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VW5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (VW5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VW5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (VW5 m ρ c) (VW6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 7 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_nofresh (W1 m ρ)),
    .region (reg1 m ρ),
    .region (reg2 m ρ),
    .region (reg3 m ρ),
    .region (reg4 m ρ),
    .host (hseg hostOps5 hostOps5_sub hostOps5_nofresh (W6 m ρ)) ]
/-- @main IS the run of the segments: its chain of items, then the segments' run against that chain by definitional
    unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each unscoped buffer of each core holds the
    fold's last value `W7`: the several-regions launch over the segments, the last thread state read against the final
    state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: the argument arrays end as launched — `run_main` read at the five arguments, each walking back through
    the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_main m ρ)

/-- info: 'Cert.KernelIdeal.Hand.frame' depends on axioms: [propext, Classical.choice, Quot.sound] -/
#guard_msgs in #print axioms frame

end Cert.KernelIdeal.Hand

end
-- ==== Proof.KArr0.lean ====
/-
  The forward kernel's three result arrays, whole.

  The forward kernel has one grid point and every window is its whole array, so the block a window stages is the array
  itself and what the one point writes back is the whole result: `x·W₀`, `(x·W₀)·W₁` and `((x·W₀)·W₁)·W₂` of the
  arrays the region finds.
-/
import proofs.«123206_j75110388073098_2_alg».proof.Proof.KIBody0
import Idealize.ShloMosaic.Lib.Pipeline.Value
import Idealize.ShloMosaic.Lib.ValueIdx

set_option maxRecDepth 16384

noncomputable section

namespace Cert.KArr

open Idealize.ShloMosaic Idealize.ShloMosaic.TcCoe Idealize.ShloMosaic.ValueIdx Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- No window of the forward kernel moves: every block index is 0. -/
theorem idx0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

/-! ## A block is its array -/

theorem emb0_0 (t : Fin cfg0.N) (j : S1024x1024.Idx) : ((cfg0.win 0).blk t).view.emb j = j := by
  obtain ⟨⟨e0, e1⟩, -, -, -, -, -, -⟩ := idx0 t
  funext a; apply Fin.ext
  match a with
  | ⟨0, _⟩ => show win0_0.index t (0 : Fin 2) * 1024 + 1 * (j 0).val = (j 0).val; omega
  | ⟨1, _⟩ => show win0_0.index t (1 : Fin 2) * 1024 + 1 * (j 1).val = (j 1).val; omega

theorem emb0_1 (t : Fin cfg0.N) (j : S1024x1024.Idx) : ((cfg0.win 1).blk t).view.emb j = j := by
  obtain ⟨-, ⟨e0, e1⟩, -, -, -, -, -⟩ := idx0 t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem emb0_2 (t : Fin cfg0.N) (j : S1024x1024.Idx) : ((cfg0.win 2).blk t).view.emb j = j := by
  obtain ⟨-, -, ⟨e0, e1⟩, -, -, -, -⟩ := idx0 t
  funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = (j 1).val; omega

theorem emb0_3 (t : Fin cfg0.N) (j : S1024x512.Idx) : ((cfg0.win 3).blk t).view.emb j = j := by
  obtain ⟨-, -, -, ⟨e0, e1⟩, -, -, -⟩ := idx0 t
  funext a; apply Fin.ext
  match a with
  | ⟨0, _⟩ => show win0_3.index t (0 : Fin 2) * 1024 + 1 * (j 0).val = (j 0).val; omega
  | ⟨1, _⟩ => show win0_3.index t (1 : Fin 2) * 512 + 1 * (j 1).val = (j 1).val; omega

theorem emb0_4 (t : Fin cfg0.N) (j : S1024x1024.Idx) : ((cfg0.win 4).blk t).view.emb j = j := by
  obtain ⟨-, -, -, -, ⟨e0, e1⟩, -, -⟩ := idx0 t
  funext a; apply Fin.ext
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem emb0_5 (t : Fin cfg0.N) (j : S1024x1024.Idx) : ((cfg0.win 5).blk t).view.emb j = j := by
  obtain ⟨-, -, -, -, -, ⟨e0, e1⟩, -⟩ := idx0 t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem emb0_6 (t : Fin cfg0.N) (j : S1024x512.Idx) : ((cfg0.win 6).blk t).view.emb j = j := by
  obtain ⟨-, -, -, -, -, -, ⟨e0, e1⟩⟩ := idx0 t
  funext a; apply Fin.ext
  match a with
  | ⟨0, _⟩ => show win0_6.index t (0 : Fin 2) * 1024 + 1 * (j 0).val = (j 0).val; omega
  | ⟨1, _⟩ => show win0_6.index t (1 : Fin 2) * 512 + 1 * (j 1).val = (j 1).val; omega

theorem iblk0_0 (c : Dev nD) (t : Fin cfg0.N) : (iblk0 V c 0 t : S1024x1024.Idx → Elt Ideal .f32) = V c main_arg0 := by
  funext j
  show V c main_arg0 (((cfg0.win 0).blk t).view.emb j) = V c main_arg0 j
  rw [emb0_0]

theorem iblk0_1 (c : Dev nD) (t : Fin cfg0.N) : (iblk0 V c 1 t : S1024x1024.Idx → Elt Ideal .f32) = V c main_arg2 := by
  funext j
  show V c main_arg2 (((cfg0.win 1).blk t).view.emb j) = V c main_arg2 j
  rw [emb0_1]

theorem iblk0_2 (c : Dev nD) (t : Fin cfg0.N) : (iblk0 V c 2 t : S1024x1024.Idx → Elt Ideal .f32) = V c main_arg3 := by
  funext j
  show V c main_arg3 (((cfg0.win 2).blk t).view.emb j) = V c main_arg3 j
  rw [emb0_2]

theorem iblk0_3 (c : Dev nD) (t : Fin cfg0.N) : (iblk0 V c 3 t : S1024x512.Idx → Elt Ideal .f32) = V c main_arg4 := by
  funext j
  show V c main_arg4 (((cfg0.win 3).blk t).view.emb j) = V c main_arg4 j
  rw [emb0_3]

/-! ## What the point writes back, and the arrays after the region -/

/-- The first product, of the arrays as found. -/
abbrev G0_4 (c : Dev nD) : S1024x1024.Idx → Elt Ideal .f32 := k0_pay1 (V c main_arg0) (V c main_arg2)
/-- The second. -/
abbrev G0_5 (c : Dev nD) : S1024x1024.Idx → Elt Ideal .f32 := k0_pay2 (V c main_arg0) (V c main_arg2) (V c main_arg3)
/-- The third. -/
abbrev G0_6 (c : Dev nD) : S1024x512.Idx → Elt Ideal .f32 := k0_pay3 (V c main_arg0) (V c main_arg2) (V c main_arg3) (V c main_arg4)

theorem flushed0_4 (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hz]
  simp only [View.ld_unit_zero (S := S1024x1024) hz]
  rw [iblk0_0 V c t, iblk0_1 V c t]
  funext j
  show G0_4 V c j = G0_4 V c (((cfg0.win 4).blk t).view.emb j)
  rw [emb0_4]

theorem flushed0_5 (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz]
  simp only [View.ld_unit_zero (S := S1024x1024) hz]
  rw [iblk0_0 V c t, iblk0_1 V c t, iblk0_2 V c t]
  funext j
  show G0_5 V c j = G0_5 V c (((cfg0.win 5).blk t).view.emb j)
  rw [emb0_5]

theorem flushed0_6 (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz]
  simp only [View.ld_unit_zero (S := S1024x1024) hz, View.ld_unit_zero (S := S1024x512) hz]
  rw [iblk0_0 V c t, iblk0_1 V c t, iblk0_2 V c t, iblk0_3 V c t]
  funext j
  show G0_6 V c j = G0_6 V c (((cfg0.win 6).blk t).view.emb j)
  rw [emb0_6]

theorem cover0_4 (c : Dev nD) (i : S1024x1024.Idx) :
    ∃ t : Fin cfg0.N, (cfg0.win 4).flush t = true ∧ i ∈ ((cfg0.win 4).blk t).view.set := by
  refine ⟨t0_0, flush0_4 t0_0, ?_⟩
  show i ∈ ((View.whole main_v0_0).slice (win0_4.rect t0_0)).set
  rw [View.set_slice_whole, Rect.mem_set_unit]
  have hi0 : (i 0).val < 1024 := (i 0).isLt
  have hi1 : (i 1).val < 1024 := (i 1).isLt
  obtain ⟨-, -, -, -, ⟨e0, e1⟩, -, -⟩ := idx0 t0_0
  intro a
  match a with
  | ⟨0, _⟩ => show win0_4.index t0_0 (0 : Fin 2) * 1024 ≤ (i 0).val ∧ (i 0).val < win0_4.index t0_0 (0 : Fin 2) * 1024 + 1024; omega
  | ⟨1, _⟩ => show win0_4.index t0_0 (1 : Fin 2) * 1024 ≤ (i 1).val ∧ (i 1).val < win0_4.index t0_0 (1 : Fin 2) * 1024 + 1024; omega

theorem cover0_5 (c : Dev nD) (i : S1024x1024.Idx) :
    ∃ t : Fin cfg0.N, (cfg0.win 5).flush t = true ∧ i ∈ ((cfg0.win 5).blk t).view.set := by
  refine ⟨t0_0, flush0_5 t0_0, ?_⟩
  show i ∈ ((View.whole main_v0_1).slice (win0_5.rect t0_0)).set
  rw [View.set_slice_whole, Rect.mem_set_unit]
  have hi0 : (i 0).val < 1024 := (i 0).isLt
  have hi1 : (i 1).val < 1024 := (i 1).isLt
  obtain ⟨-, -, -, -, -, ⟨e0, e1⟩, -⟩ := idx0 t0_0
  intro a
  match a with
  | ⟨0, _⟩ => show win0_5.index t0_0 (0 : Fin 2) * 1024 ≤ (i 0).val ∧ (i 0).val < win0_5.index t0_0 (0 : Fin 2) * 1024 + 1024; omega
  | ⟨1, _⟩ => show win0_5.index t0_0 (1 : Fin 2) * 1024 ≤ (i 1).val ∧ (i 1).val < win0_5.index t0_0 (1 : Fin 2) * 1024 + 1024; omega

theorem cover0_6 (c : Dev nD) (i : S1024x512.Idx) :
    ∃ t : Fin cfg0.N, (cfg0.win 6).flush t = true ∧ i ∈ ((cfg0.win 6).blk t).view.set := by
  refine ⟨t0_0, flush0_6 t0_0, ?_⟩
  show i ∈ ((View.whole main_v0_2).slice (win0_6.rect t0_0)).set
  rw [View.set_slice_whole, Rect.mem_set_unit]
  have hi0 : (i 0).val < 1024 := (i 0).isLt
  have hi1 : (i 1).val < 512 := (i 1).isLt
  obtain ⟨-, -, -, -, -, -, ⟨e0, e1⟩⟩ := idx0 t0_0
  intro a
  match a with
  | ⟨0, _⟩ => show win0_6.index t0_0 (0 : Fin 2) * 1024 ≤ (i 0).val ∧ (i 0).val < win0_6.index t0_0 (0 : Fin 2) * 1024 + 1024; omega
  | ⟨1, _⟩ => show win0_6.index t0_0 (1 : Fin 2) * 512 ≤ (i 1).val ∧ (i 1).val < win0_6.index t0_0 (1 : Fin 2) * 512 + 512; omega

/-- The three result arrays after the region. -/
theorem final0_4 (c : Dev nD) : (dat0 V c).arrAt 4 cfg0.N = G0_4 V c :=
  (dat0 V c).arrAt_eq_of_cover 4 (G0_4 V c) (fun t _ => flushed0_4 V c t) (cover0_4 c)
theorem final0_5 (c : Dev nD) : (dat0 V c).arrAt 5 cfg0.N = G0_5 V c :=
  (dat0 V c).arrAt_eq_of_cover 5 (G0_5 V c) (fun t _ => flushed0_5 V c t) (cover0_5 c)
theorem final0_6 (c : Dev nD) : (dat0 V c).arrAt 6 cfg0.N = G0_6 V c :=
  (dat0 V c).arrAt_eq_of_cover 6 (G0_6 V c) (fun t _ => flushed0_6 V c t) (cover0_6 c)

end Cert.KArr

end
-- ==== Proof.Spec.lean ====
/-
  The mathematics both programs compute, stated on matrices of extended reals.

  A forward chain `s₁ = x·W₀`, `s₂ = s₁·W₁`, `s₃ = s₂·W₂`; twenty relaxation steps of the three states towards a
  weakly clamped fixed point, the first of them with the gradients coupled along the chain; and three weight-gradient
  contractions `sᵀ·(s·W − s')` divided by the clamping strength. Every operation of a relaxation step acts row by row on
  the states (a product `c·W` or `r·Wᵀ` at row `a` reads row `a` of its left operand alone), so a step commutes with
  picking out a block of rows: this is what lets the states be relaxed block by block.
-/
import Idealize.ShloMosaic.PureOps.Ideal
import Idealize.ShloMosaic.Lib.ValueIdx

noncomputable section

namespace Cert.Spec

open Idealize.ShloMosaic Idealize.ShloMosaic.ValueIdx

/-- An `m × n` matrix of extended reals. -/
abbrev Mat (m n : ℕ) : Type := Fin m → Fin n → EReal

/-- A rank-2 array read as a matrix. -/
def toM {m n : ℕ} {φ : FTy} (v : FVec Ideal ⟨2, ![m, n]⟩ φ) : Mat m n := fun a b => v (ix2 a b)

/-- Two rank-2 arrays with the same matrix are equal. -/
theorem toM_inj {m n : ℕ} {φ : FTy} {u v : FVec Ideal ⟨2, ![m, n]⟩ φ} (h : toM u = toM v) : u = v := by
  funext j
  rw [eq_ix2 j]
  exact congrFun (congrFun h (j 0)) (j 1)

/-- `A · B`. -/
def mm {m k n : ℕ} (A : Mat m k) (B : Mat k n) : Mat m n := fun a b => ∑ c : Fin k, A a c * B c b
/-- `A · Bᵀ`: both contracted on their last axis. -/
def mmT {m k n : ℕ} (A : Mat m k) (B : Mat n k) : Mat m n := fun a b => ∑ c : Fin k, A a c * B b c
/-- `Aᵀ · B`: both contracted on their first axis. -/
def mTm {k m n : ℕ} (A : Mat k m) (B : Mat k n) : Mat m n := fun a b => ∑ c : Fin k, A c a * B c b

/-- The clamping strength, the single-precision number nearest to one thousandth. -/
def beta : EReal := Ideal.ofBits .f32 0x3A83126F#32
/-- The state step size, one half. -/
def half : EReal := Ideal.ofBits .f32 0x3F000000#32

/-- The three relaxed states, `m` rows of each. -/
abbrev State (m : ℕ) : Type := Mat m 1024 × Mat m 1024 × Mat m 512

/-- One relaxation step on `m` rows. With residuals `r₁ = c₂ − c₁·W₁`, `r₂ = c₃ − c₂·W₂` the state gradients are
    `g₁ = (c₁ − s₁) − r₁·W₁ᵀ`, `g₂ = r₁ − r₂·W₂ᵀ`, `g₃ = r₂ + β·(c₃ − y)`; in the first step the gradients also flow
    down the chain (`g₂ += g₃·W₂ᵀ`, then `g₁ += g₂·W₁ᵀ`); each state moves by half its gradient. -/
def step {m : ℕ} (first : Bool) (W1 : Mat 1024 1024) (W2 : Mat 1024 512) (s1 : Mat m 1024) (y : Mat m 512)
    (c : State m) : State m :=
  let r1 : Mat m 1024 := fun a b => c.2.1 a b - mm c.1 W1 a b
  let r2 : Mat m 512 := fun a b => c.2.2 a b - mm c.2.1 W2 a b
  let g1 : Mat m 1024 := fun a b => (c.1 a b - s1 a b) - mmT r1 W1 a b
  let g2 : Mat m 1024 := fun a b => r1 a b - mmT r2 W2 a b
  let g3 : Mat m 512 := fun a b => r2 a b + beta * (c.2.2 a b - y a b)
  let g2' : Mat m 1024 := if first then fun a b => g2 a b + mmT g3 W2 a b else g2
  let g1' : Mat m 1024 := if first then fun a b => g1 a b + mmT g2' W1 a b else g1
  (fun a b => c.1 a b - half * g1' a b, fun a b => c.2.1 a b - half * g2' a b, fun a b => c.2.2 a b - half * g3 a b)

/-- Twenty steps: the coupled one, then nineteen plain ones. -/
def relax {m : ℕ} (W1 : Mat 1024 1024) (W2 : Mat 1024 512) (s1 : Mat m 1024) (y : Mat m 512) (init : State m) : State m :=
  (step false W1 W2 s1 y)^[19] (step true W1 W2 s1 y init)

/-- The rows of a matrix picked out by `f`. -/
def rows {m m' n : ℕ} (f : Fin m' → Fin m) (A : Mat m n) : Mat m' n := fun r => A (f r)
/-- The same for the three states. -/
def rowsS {m m' : ℕ} (f : Fin m' → Fin m) (c : State m) : State m' := (rows f c.1, rows f c.2.1, rows f c.2.2)

/-- A step on picked rows is the step's rows: every operation of a step is row-wise. -/
theorem step_rows {m m' : ℕ} (f : Fin m' → Fin m) (first : Bool) (W1 : Mat 1024 1024) (W2 : Mat 1024 512)
    (s1 : Mat m 1024) (y : Mat m 512) (c : State m) :
    step first W1 W2 (rows f s1) (rows f y) (rowsS f c) = rowsS f (step first W1 W2 s1 y c) := by
  cases first <;> rfl

/-- So is the whole relaxation. -/
theorem relax_rows {m m' : ℕ} (f : Fin m' → Fin m) (W1 : Mat 1024 1024) (W2 : Mat 1024 512)
    (s1 : Mat m 1024) (y : Mat m 512) (init : State m) :
    relax W1 W2 (rows f s1) (rows f y) (rowsS f init) = rowsS f (relax W1 W2 s1 y init) := by
  unfold relax
  rw [step_rows]
  have h : Function.Semiconj (rowsS f) (step false W1 W2 s1 y) (step false W1 W2 (rows f s1) (rows f y)) :=
    fun c => (step_rows f false W1 W2 s1 y c).symm
  exact ((h.iterate_right 19).eq _).symm

/-- The weight gradient of the first layer over the clamping strength: `xᵀ·(s₁ − c₁) / β`. -/
def ep0 (x s1 c1 : Mat 1024 1024) : Mat 1024 1024 :=
  fun a b => Ideal.div (mTm x (fun p q => s1 p q - c1 p q) a b) beta
/-- Of the second: `c₁ᵀ·(c₁·W₁ − c₂) / β`. -/
def ep1 (c1 W1 c2 : Mat 1024 1024) : Mat 1024 1024 :=
  fun a b => Ideal.div (mTm c1 (fun p q => mm c1 W1 p q - c2 p q) a b) beta
/-- Of the third: `c₂ᵀ·(c₂·W₂ − c₃) / β`. -/
def ep2 (c2 : Mat 1024 1024) (W2 c3 : Mat 1024 512) : Mat 1024 512 :=
  fun a b => Ideal.div (mTm c2 (fun p q => mm c2 W2 p q - c3 p q) a b) beta

/-- The forward chain. -/
def S1 (x W0 : Mat 1024 1024) : Mat 1024 1024 := mm x W0
def S2 (x W0 W1 : Mat 1024 1024) : Mat 1024 1024 := mm (S1 x W0) W1
def S3 (x W0 W1 : Mat 1024 1024) (W2 : Mat 1024 512) : Mat 1024 512 := mm (S2 x W0 W1) W2

/-- The relaxed states, from the inputs. -/
def Cur (x : Mat 1024 1024) (y : Mat 1024 512) (W0 W1 : Mat 1024 1024) (W2 : Mat 1024 512) : State 1024 :=
  relax W1 W2 (S1 x W0) y (S1 x W0, S2 x W0 W1, S3 x W0 W1 W2)

/-- The three results that are matrices, from the inputs. -/
def EP0 (x : Mat 1024 1024) (y : Mat 1024 512) (W0 W1 : Mat 1024 1024) (W2 : Mat 1024 512) : Mat 1024 1024 :=
  ep0 x (S1 x W0) (Cur x y W0 W1 W2).1
def EP1 (x : Mat 1024 1024) (y : Mat 1024 512) (W0 W1 : Mat 1024 1024) (W2 : Mat 1024 512) : Mat 1024 1024 :=
  ep1 (Cur x y W0 W1 W2).1 W1 (Cur x y W0 W1 W2).2.1
def EP2 (x : Mat 1024 1024) (y : Mat 1024 512) (W0 W1 : Mat 1024 1024) (W2 : Mat 1024 512) : Mat 1024 512 :=
  ep2 (Cur x y W0 W1 W2).2.1 W2 (Cur x y W0 W1 W2).2.2

end Cert.Spec

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibDotLastAxis.lean ====
/-
  A matrix product contracted over the LAST axis of both operands, read at an entry, on the extended reals.

  For an `m × k` matrix `A` and an `n × k` matrix `B` (the right operand given with the contracted axis last, as a weight
  matrix stored row by row), the product with dimension numbers "contract axis 1 with axis 1" has, at `(p, j)`, the value
  `∑ c, A (p, c) · B (j, c)`. On the extended reals a kernel's matrix unit accumulating into a zero tile and the host's
  product are this same sum: there is no rounding and no order of accumulation to tell them apart.
-/
import Idealize.ShloMosaic.PureOps.Ideal
import Idealize.ShloMosaic.PureOps.Ideal.Laws
import Idealize.ShloMosaic.Lib.ValueIdx

noncomputable section

namespace Cert.LibDotLastAxis

open Idealize.ShloMosaic Idealize.ShloMosaic.ValueIdx

/-- The matrix unit's product into a zero tile, both operands contracted on their last axis, at `(p, j)`. -/
theorem matmulT_zero_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 p j)
      = ∑ c : Fin k, A (ix2 p c) * B (ix2 j c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The host's product with the same dimension numbers, at `(p, j)`. -/
theorem dotGeneralT_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    Host.dotGeneral (F := Ideal) (⟨[1], [1], [0], [0], [], [], w⟩ : DotDims ⟨2, ![m, k]⟩ ⟨2, ![n, k]⟩ ⟨2, ![m, n]⟩) prec A B (ix2 p j)
      = ∑ c : Fin k, A (ix2 p c) * B (ix2 j c) :=
  (Ideal.dotGeneral_apply _ prec .single A B (ix2 p j)).trans
    ((Ideal.matmul_constant_zero_apply _ none A B (ix2 p j)).symm.trans (matmulT_zero_apply w none A B p j))

end Cert.LibDotLastAxis

end
-- ==== Proof.LibDotFirstAxis.lean ====
/-
  A matrix product contracted over the FIRST axis of both operands, read at an entry, on the extended reals.

  For a `k × m` matrix `A` and a `k × n` matrix `B` the product with dimension numbers "contract axis 0 with axis 0"
  (the transpose of `A` times `B`) has, at `(p, j)`, the value `∑ c, A (c, p) · B (c, j)`. On the extended reals a
  kernel's matrix unit accumulating into a zero tile computes exactly this sum.
-/
import Idealize.ShloMosaic.PureOps.Ideal
import Idealize.ShloMosaic.PureOps.Ideal.Laws
import Idealize.ShloMosaic.Lib.ValueIdx

noncomputable section

namespace Cert.LibDotFirstAxis

open Idealize.ShloMosaic Idealize.ShloMosaic.ValueIdx

/-- The matrix unit's product into a zero tile, both operands contracted on their first axis, at `(p, j)`. -/
theorem matmulTa_zero_apply {m k n : ℕ} {φ₁ φ₂ : FTy}
    (w : DotDims.WF ⟨2, ![k, m]⟩ ⟨2, ![k, n]⟩ ⟨2, ![m, n]⟩ [0] [0] [1] [1] [] []) (prec : Option ContractPrecision)
    (A : FVec Ideal ⟨2, ![k, m]⟩ φ₁) (B : FVec Ideal ⟨2, ![k, n]⟩ φ₂) (p : Fin m) (j : Fin n) :
    FloatOps.matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 p j)
      = ∑ c : Fin k, A (ix2 c p) * B (ix2 c j) := by
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 p j)
      ((contrEquiv1 _ k rfl rfl).symm c) = ix2 c p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibDotFirstAxis

end
-- ==== Proof.KStep.lean ====
/-
  The relaxation kernel's arithmetic, read as matrices of extended reals.

  One trip of the kernel's loop takes the three state tiles (256 rows of each state) to the tiles of the next states;
  read entry by entry, its three results are the three components of the specification's relaxation step on those
  256 rows, the coupled one exactly at the first trip. The matrix unit's products into a zero tile are plain sums on the
  extended reals: `c·W` contracts the rows of `c` with the columns of `W`, `r·Wᵀ` contracts the rows of both.
-/
import proofs.«123206_j75110388073098_2_alg».proof.Proof.Gen.KernelIdeal.Skeleton
import proofs.«123206_j75110388073098_2_alg».proof.Proof.Spec
import proofs.«123206_j75110388073098_2_alg».proof.Proof.LibPlainDot
import proofs.«123206_j75110388073098_2_alg».proof.Proof.LibDotLastAxis
import proofs.«123206_j75110388073098_2_alg».proof.Proof.LibDotFirstAxis

noncomputable section

namespace Cert.KValue

open Idealize.ShloMosaic Idealize.ShloMosaic.ValueIdx Cert.KernelIdeal Cert.KernelIdeal.Gen Cert.Spec

/-! ## The parts of a step, by name -/

section Parts
variable {m : ℕ} (first : Bool) (W1 : Mat 1024 1024) (W2 : Mat 1024 512) (s1 : Mat m 1024) (y : Mat m 512) (c : State m)

/-- `r₁ = c₂ − c₁·W₁`. -/
def R1 : Mat m 1024 := fun a b => c.2.1 a b - mm c.1 W1 a b
/-- `r₂ = c₃ − c₂·W₂`. -/
def R2 : Mat m 512 := fun a b => c.2.2 a b - mm c.2.1 W2 a b
/-- `g₃ = r₂ + β·(c₃ − y)`. -/
def G3 : Mat m 512 := fun a b => R2 W2 c a b + beta * (c.2.2 a b - y a b)
/-- `g₂ = r₁ − r₂·W₂ᵀ`. -/
def G2 : Mat m 1024 := fun a b => R1 W1 c a b - mmT (R2 W2 c) W2 a b
/-- `g₂`, with `g₃·W₂ᵀ` added in the first step. -/
def G2' : Mat m 1024 := if first then fun a b => G2 W1 W2 c a b + mmT (G3 W2 y c) W2 a b else G2 W1 W2 c
/-- `g₁ = (c₁ − s₁) − r₁·W₁ᵀ`. -/
def G1 : Mat m 1024 := fun a b => (c.1 a b - s1 a b) - mmT (R1 W1 c) W1 a b
/-- `g₁`, with `g₂·W₁ᵀ` added in the first step. -/
def G1' : Mat m 1024 := if first then fun a b => G1 W1 s1 c a b + mmT (G2' first W1 W2 y c) W1 a b else G1 W1 s1 c

/-- The step, over its named parts. -/
theorem step_eq : step first W1 W2 s1 y c
    = (fun a b => c.1 a b - half * G1' first W1 W2 s1 y c a b, fun a b => c.2.1 a b - half * G2' first W1 W2 y c a b,
       fun a b => c.2.2 a b - half * G3 W2 y c a b) := by
  cases first <;> rfl
end Parts

/-! ## The first-trip test -/

/-- The loop's test "the induction variable is 0", for a trip count below `2³²`, selects on the trip number. -/
theorem select_first {α : Type} (k : ℕ) (hk : k < 2 ^ 32) (A B : α) :
    Scalar.select (Scalar.cmpi .eq (Scf.iv 0#32 1#32 k) 0#32) A B = if k = 0 then A else B := by
  have h1 : Scf.iv 0#32 1#32 k = BitVec.ofNat 32 k := by simp [Scf.iv]
  rw [h1]
  show (if BitVec.ofBool (BitVec.ofNat 32 k == 0#32) = 1#1 then A else B) = if k = 0 then A else B
  by_cases hk0 : k = 0
  · subst hk0; rfl
  · have hne : BitVec.ofNat 32 k ≠ 0#32 := by
      intro h
      apply hk0
      have h2 := congrArg BitVec.toNat h
      simp only [BitVec.toNat_ofNat, BitVec.toNat_zero] at h2
      rw [Nat.mod_eq_of_lt hk] at h2
      exact h2
    have hb : (BitVec.ofNat 32 k == 0#32) = false := beq_eq_false_iff_ne.mpr hne
    rw [hb, if_neg hk0]
    exact if_neg (by decide)

/-! ## The payloads -/

/-- A 256-row tile of a 1024-column state, as a matrix. -/
abbrev tA (v : FVec Ideal S256x1024 .f32) : Mat 256 1024 := toM (m := 256) (n := 1024) (φ := .f32) v
/-- A 256-row tile of the 512-column state, as a matrix. -/
abbrev tB (v : FVec Ideal S256x512 .f32) : Mat 256 512 := toM (m := 256) (n := 512) (φ := .f32) v
/-- A 1024 × 1024 array as a matrix. -/
abbrev tW1 (v : FVec Ideal S1024x1024 .f32) : Mat 1024 1024 := toM (m := 1024) (n := 1024) (φ := .f32) v
/-- A 1024 × 512 array as a matrix. -/
abbrev tW2 (v : FVec Ideal S1024x512 .f32) : Mat 1024 512 := toM (m := 1024) (n := 512) (φ := .f32) v

section Pay
variable (v0 : FVec Ideal S256x1024 .f32) (v6 : FVec Ideal S256x512 .f32) (v7 : FVec Ideal S1024x1024 .f32)
  (v8 : FVec Ideal S1024x512 .f32) (a11 a12 : FVec Ideal S256x1024 .f32) (a13 : FVec Ideal S256x512 .f32)

/-- The three state tiles as matrices. -/
abbrev st : State 256 := (tA a11, tA a12, tB a13)

/-- The residual `c₂ − c₁·W₁`. -/
theorem pay4_toM : tA (k1_pay4 v7 a11 a12) = R1 (tW1 v7) (st a11 a12 a13) := by
  funext a b
  exact congrArg (fun z => a12 (ix2 a b) - z) (Cert.LibPlainDot.matmul_plain_zero_apply (some .fp32) a11 v7 a b)

/-- The residual `c₃ − c₂·W₂`. -/
theorem pay5_toM : tB (k1_pay5 v8 a12 a13) = R2 (tW2 v8) (st a11 a12 a13) := by
  funext a b
  exact congrArg (fun z => a13 (ix2 a b) - z) (Cert.LibPlainDot.matmul_plain_zero_apply (some .fp32) a12 v8 a b)

/-- The last state's gradient. -/
theorem pay6_toM : tB (k1_pay6 v6 v8 a12 a13) = G3 (tW2 v8) (tB v6) (st a11 a12 a13) := by
  funext a b
  exact congrArg (fun z => z + beta * (a13 (ix2 a b) - v6 (ix2 a b))) (congrFun (congrFun (pay5_toM v8 a11 a12 a13) a) b)

/-- The second state's gradient, coupled at the first trip. -/
theorem pay7_toM (k : Fin k1_t1_loop.trips) :
    tA (k1_pay7 v6 v7 v8 k a11 a12 a13) = G2' (decide (k.val = 0)) (tW1 v7) (tW2 v8) (tB v6) (st a11 a12 a13) := by
  have hk : k.val < 2 ^ 32 := lt_of_lt_of_le k.isLt (by decide)
  have e22 : tA (subf (k1_pay4 v7 a11 a12) (matmul dot_S256x512_S1024x512_S256x1024_1_1_0_0_n_n none (k1_pay5 v8 a12 a13) v8
        (constant S256x1024 .f32 0x00000000#32))) = G2 (tW1 v7) (tW2 v8) (st a11 a12 a13) := by
    funext a b
    refine congrArg₂ (fun u w => u - w) (congrFun (congrFun (pay4_toM v7 a11 a12 a13) a) b) ?_
    refine (Cert.LibDotLastAxis.matmulT_zero_apply _ none (k1_pay5 v8 a12 a13) v8 a b).trans ?_
    exact Finset.sum_congr rfl fun c _ => congrArg (· * v8 (ix2 b c)) (congrFun (congrFun (pay5_toM v8 a11 a12 a13) a) c)
  have e28 : tA (matmul dot_S256x512_S1024x512_S256x1024_1_1_0_0_n_n none (k1_pay6 v6 v8 a12 a13) v8
        (constant S256x1024 .f32 0x00000000#32)) = mmT (G3 (tW2 v8) (tB v6) (st a11 a12 a13)) (tW2 v8) := by
    funext a b
    refine (Cert.LibDotLastAxis.matmulT_zero_apply _ none (k1_pay6 v6 v8 a12 a13) v8 a b).trans ?_
    exact Finset.sum_congr rfl fun c _ => congrArg (· * v8 (ix2 b c)) (congrFun (congrFun (pay6_toM v6 v8 a11 a12 a13) a) c)
  unfold k1_pay7
  dsimp only
  rw [select_first k.val hk]
  unfold G2'
  by_cases h0 : k.val = 0
  · rw [if_pos h0, decide_eq_true h0, if_pos rfl]
    funext a b
    exact congrArg₂ (fun u w => u + w) (congrFun (congrFun e22 a) b) (congrFun (congrFun e28 a) b)
  · rw [if_neg h0, decide_eq_false h0, if_neg Bool.false_ne_true]
    exact e22

/-- The first state after the trip. -/
theorem pay8_toM (k : Fin k1_t1_loop.trips) :
    tA (k1_pay8 v0 v6 v7 v8 k a11 a12 a13)
      = fun a b => tA a11 a b - half * G1' (decide (k.val = 0)) (tW1 v7) (tW2 v8) (tA v0) (tB v6) (st a11 a12 a13) a b := by
  have hk : k.val < 2 ^ 32 := lt_of_lt_of_le k.isLt (by decide)
  have e20 : tA (subf (subf a11 (k1_pay1 v0)) (matmul dot_S256x1024_S1024x1024_S256x1024_1_1_0_0_n_n none (k1_pay4 v7 a11 a12) v7
        (constant S256x1024 .f32 0x00000000#32))) = G1 (tW1 v7) (tA v0) (st a11 a12 a13) := by
    funext a b
    refine congrArg₂ (fun u w => u - w) ?_ ?_
    · exact congrArg (fun z => a11 (ix2 a b) - z) (congrFun (shapeCast_self v0 shapeCasts_S256x1024_S256x1024) (ix2 a b))
    · refine (Cert.LibDotLastAxis.matmulT_zero_apply _ none (k1_pay4 v7 a11 a12) v7 a b).trans ?_
      exact Finset.sum_congr rfl fun c _ => congrArg (· * v7 (ix2 b c)) (congrFun (congrFun (pay4_toM v7 a11 a12 a13) a) c)
  have e31 : tA (matmul dot_S256x1024_S1024x1024_S256x1024_1_1_0_0_n_n none (k1_pay7 v6 v7 v8 k a11 a12 a13) v7
        (constant S256x1024 .f32 0x00000000#32))
      = mmT (G2' (decide (k.val = 0)) (tW1 v7) (tW2 v8) (tB v6) (st a11 a12 a13)) (tW1 v7) := by
    funext a b
    refine (Cert.LibDotLastAxis.matmulT_zero_apply _ none (k1_pay7 v6 v7 v8 k a11 a12 a13) v7 a b).trans ?_
    exact Finset.sum_congr rfl fun c _ => congrArg (· * v7 (ix2 b c)) (congrFun (congrFun (pay7_toM v6 v7 v8 a11 a12 a13 k) a) c)
  unfold k1_pay8
  dsimp only
  rw [select_first k.val hk]
  unfold G1'
  by_cases h0 : k.val = 0
  · rw [decide_eq_true h0] at e31 ⊢
    rw [if_pos h0, if_pos rfl]
    funext a b
    exact congrArg (fun z => a11 (ix2 a b) - half * z)
      (congrArg₂ (fun u w => u + w) (congrFun (congrFun e20 a) b) (congrFun (congrFun e31 a) b))
  · rw [if_neg h0, decide_eq_false h0, if_neg Bool.false_ne_true]
    funext a b
    exact congrArg (fun z => a11 (ix2 a b) - half * z) (congrFun (congrFun e20 a) b)

/-- The second state after the trip. -/
theorem pay9_toM (k : Fin k1_t1_loop.trips) :
    tA (k1_pay9 v6 v7 v8 k a11 a12 a13)
      = fun a b => tA a12 a b - half * G2' (decide (k.val = 0)) (tW1 v7) (tW2 v8) (tB v6) (st a11 a12 a13) a b := by
  funext a b
  exact congrArg (fun z => a12 (ix2 a b) - half * z) (congrFun (congrFun (pay7_toM v6 v7 v8 a11 a12 a13 k) a) b)

/-- The third state after the trip. -/
theorem pay10_toM :
    tB (k1_pay10 v6 v8 a12 a13) = fun a b => tB a13 a b - half * G3 (tW2 v8) (tB v6) (st a11 a12 a13) a b := by
  funext a b
  exact congrArg (fun z => a13 (ix2 a b) - half * z) (congrFun (congrFun (pay6_toM v6 v8 a11 a12 a13) a) b)

/-- One trip of the loop is one step of the specification on the tile's 256 rows, the coupled step at trip 0. -/
theorem trip_toM (k : Fin k1_t1_loop.trips) :
    ((tA (k1_pay8 v0 v6 v7 v8 k a11 a12 a13), tA (k1_pay9 v6 v7 v8 k a11 a12 a13), tB (k1_pay10 v6 v8 a12 a13)) : State 256)
      = step (decide (k.val = 0)) (tW1 v7) (tW2 v8) (tA v0) (tB v6) (st a11 a12 a13) := by
  rw [step_eq, pay8_toM, pay9_toM, pay10_toM v6 v8 a11 a12 a13]

end Pay

end Cert.KValue

end
-- ==== Proof.LibFoldFirst.lean ====
/-
  A fold over the trips of a counted loop whose first trip differs from the rest.

  If a map `T` of the carried value turns the first trip into `f₀` and every later trip into `f`, the fold over
  `n > 0` trips is `f` iterated `n − 1` times after `f₀`.
-/
import Mathlib

namespace Cert.LibFoldFirst

/-- A fold whose every step is `f` under `T` is `f` iterated. -/
theorem foldl_const_step {σ σ' ι : Type} (T : σ → σ') (g : ι → σ → σ) (f : σ' → σ')
    (h : ∀ k acc, T (g k acc) = f (T acc)) :
    ∀ (l : List ι) (a : σ), T (l.foldl (fun acc k => g k acc) a) = f^[l.length] (T a)
  | [], _ => rfl
  | k :: l, a => by
    rw [List.foldl_cons, foldl_const_step T g f h l, h, List.length_cons, Function.iterate_succ_apply]

/-- The fold over `n > 0` trips, the first trip `f₀` and the others `f` under `T`. -/
theorem foldl_finRange_first {σ σ' : Type} {n : ℕ} (hn : 0 < n) (T : σ → σ') (g : Fin n → σ → σ) (f0 f : σ' → σ')
    (h0 : ∀ (k : Fin n) (acc : σ), k.val = 0 → T (g k acc) = f0 (T acc))
    (h1 : ∀ (k : Fin n) (acc : σ), k.val ≠ 0 → T (g k acc) = f (T acc)) (init : σ) :
    T ((List.finRange n).foldl (fun acc k => g k acc) init) = f^[n - 1] (f0 (T init)) := by
  obtain ⟨m, rfl⟩ : ∃ m, n = m + 1 := ⟨n - 1, by omega⟩
  rw [List.finRange_succ, List.foldl_cons, List.foldl_map,
    foldl_const_step T (fun (k : Fin m) acc => g k.succ acc) f (fun k acc => h1 k.succ acc (by simp)),
    h0 0 init rfl, List.length_finRange]
  rfl

end Cert.LibFoldFirst
-- ==== Proof.KOther.lean ====
/-
  The kernels' other arithmetic, read as matrices of extended reals: the forward chain's three products, the twenty
  trips of the relaxation loop as the specification's relaxation of a tile's 256 rows, and the three weight-gradient
  contractions `sᵀ·(s·W − s')` divided by the clamping strength.
-/
import proofs.«123206_j75110388073098_2_alg».proof.Proof.KStep
import proofs.«123206_j75110388073098_2_alg».proof.Proof.LibFoldFirst
import Idealize.ShloMosaic.Lib.Pipeline.Value
import Idealize.ShloMosaic.Lib.Exec

noncomputable section

namespace Cert.KValue

open Idealize.ShloMosaic Idealize.ShloMosaic.ValueIdx Cert.KernelIdeal Cert.KernelIdeal.Gen Cert.Spec

/-! ## The forward chain -/

section Forward
variable (x w0 w1 : FVec Ideal S1024x1024 .f32) (w2 : FVec Ideal S1024x512 .f32)

/-- `s₁ = x·W₀`. -/
theorem k0_pay1_toM : tW1 (k0_pay1 x w0) = S1 (tW1 x) (tW1 w0) := by
  funext a b
  exact Cert.LibPlainDot.matmul_plain_zero_apply none x w0 a b

/-- `s₂ = s₁·W₁`. -/
theorem k0_pay2_toM : tW1 (k0_pay2 x w0 w1) = S2 (tW1 x) (tW1 w0) (tW1 w1) := by
  funext a b
  refine (Cert.LibPlainDot.matmul_plain_zero_apply none (k0_pay1 x w0) w1 a b).trans ?_
  exact Finset.sum_congr rfl fun c _ => congrArg (· * w1 (ix2 c b)) (congrFun (congrFun (k0_pay1_toM x w0) a) c)

/-- `s₃ = s₂·W₂`. -/
theorem k0_pay3_toM : tW2 (k0_pay3 x w0 w1 w2) = S3 (tW1 x) (tW1 w0) (tW1 w1) (tW2 w2) := by
  funext a b
  refine (Cert.LibPlainDot.matmul_plain_zero_apply none (k0_pay2 x w0 w1) w2 a b).trans ?_
  exact Finset.sum_congr rfl fun c _ => congrArg (· * w2 (ix2 c b)) (congrFun (congrFun (k0_pay2_toM x w0 w1) a) c)
end Forward

/-! ## The relaxation loop -/

section Loop
variable (v0 v2 : FVec Ideal S256x1024 .f32) (v4 v6 : FVec Ideal S256x512 .f32) (v7 : FVec Ideal S1024x1024 .f32)
  (v8 : FVec Ideal S1024x512 .f32)

/-- The carried triple of tiles as three matrices. -/
def tS (acc : FVec Ideal S256x1024 .f32 × FVec Ideal S256x1024 .f32 × FVec Ideal S256x512 .f32) : State 256 :=
  (tA acc.1, tA acc.2.1, tB acc.2.2)

/-- The loop makes twenty trips. -/
theorem trips_pos : 0 < k1_t1_loop.trips := by decide
theorem trips_pred : k1_t1_loop.trips - 1 = 19 := by decide

/-- The loop's fold, as matrices, is the specification's relaxation of the tile's rows: the coupled step at the first
    trip, the plain step at the nineteen others. -/
theorem fold_toM :
    tS (Scf.fold (fun (k : Fin k1_t1_loop.trips) (acc : FVec Ideal S256x1024 .f32 × FVec Ideal S256x1024 .f32 × FVec Ideal S256x512 .f32) =>
        (k1_pay8 v0 v6 v7 v8 k acc.1 acc.2.1 acc.2.2, k1_pay9 v6 v7 v8 k acc.1 acc.2.1 acc.2.2, k1_pay10 v6 v8 acc.2.1 acc.2.2))
      (k1_pay1 v0, k1_pay2 v2, k1_pay3 v4))
      = relax (tW1 v7) (tW2 v8) (tA v0) (tB v6) (tA v0, tA v2, tB v4) := by
  rw [Scf.fold_eq]
  rw [Cert.LibFoldFirst.foldl_finRange_first trips_pos tS _ (step true (tW1 v7) (tW2 v8) (tA v0) (tB v6))
    (step false (tW1 v7) (tW2 v8) (tA v0) (tB v6))
    (fun k acc h => by
      have e := trip_toM v0 v6 v7 v8 acc.1 acc.2.1 acc.2.2 k
      rw [decide_eq_true h] at e
      exact e)
    (fun k acc h => by
      have e := trip_toM v0 v6 v7 v8 acc.1 acc.2.1 acc.2.2 k
      rw [decide_eq_false h] at e
      exact e)]
  rw [trips_pred]
  have hinit : tS (k1_pay1 v0, k1_pay2 v2, k1_pay3 v4) = (tA v0, tA v2, tB v4) := by
    unfold tS k1_pay1 k1_pay2 k1_pay3
    dsimp only
    rw [shapeCast_self v0, shapeCast_self v2, shapeCast_self v4]
  rw [hinit]
  rfl
end Loop

/-! ## The weight gradients -/

section Grads
variable (x s1 c1 w1 c2 : FVec Ideal S1024x1024 .f32) (w2 c3 : FVec Ideal S1024x512 .f32)

/-- `xᵀ·(s₁ − c₁) / β`. -/
theorem k2_pay1_toM : tW1 (k2_pay1 x s1 c1) = ep0 (tW1 x) (tW1 s1) (tW1 c1) := by
  funext a b
  refine congrArg (fun z => Ideal.div z beta) ?_
  refine (Cert.LibDotFirstAxis.matmulTa_zero_apply _ none x _ a b).trans ?_
  refine Finset.sum_congr rfl fun c _ => congrArg (x (ix2 c a) * ·) ?_
  exact congrArg₂ (fun u w => u - w) (congrFun (shapeCast_self s1 shapeCasts_S1024x1024_S1024x1024) (ix2 c b))
    (congrFun (shapeCast_self c1 shapeCasts_S1024x1024_S1024x1024) (ix2 c b))

/-- `c₁ᵀ·(c₁·W₁ − c₂) / β`. -/
theorem k3_pay1_toM : tW1 (k3_pay1 c1 w1 c2) = ep1 (tW1 c1) (tW1 w1) (tW1 c2) := by
  funext a b
  refine congrArg (fun z => Ideal.div z beta) ?_
  refine (Cert.LibDotFirstAxis.matmulTa_zero_apply _ none _ _ a b).trans ?_
  refine Finset.sum_congr rfl fun c _ =>
    congrArg₂ (fun u w => u * w) (congrFun (shapeCast_self c1 shapeCasts_S1024x1024_S1024x1024) (ix2 c a)) ?_
  refine congrArg₂ (fun u w => u - w) ?_ (congrFun (shapeCast_self c2 shapeCasts_S1024x1024_S1024x1024) (ix2 c b))
  refine (Cert.LibPlainDot.matmul_plain_zero_apply (some .fp32) _ w1 c b).trans ?_
  exact Finset.sum_congr rfl fun d _ =>
    congrArg (· * w1 (ix2 d b)) (congrFun (shapeCast_self c1 shapeCasts_S1024x1024_S1024x1024) (ix2 c d))

/-- `c₂ᵀ·(c₂·W₂ − c₃) / β`. -/
theorem k4_pay1_toM : tW2 (k4_pay1 c2 w2 c3) = ep2 (tW1 c2) (tW2 w2) (tW2 c3) := by
  funext a b
  refine congrArg (fun z => Ideal.div z beta) ?_
  refine (Cert.LibDotFirstAxis.matmulTa_zero_apply _ none _ _ a b).trans ?_
  refine Finset.sum_congr rfl fun c _ =>
    congrArg₂ (fun u w => u * w) (congrFun (shapeCast_self c2 shapeCasts_S1024x1024_S1024x1024) (ix2 c a)) ?_
  refine congrArg₂ (fun u w => u - w) ?_ (congrFun (shapeCast_self c3 shapeCasts_S1024x512_S1024x512) (ix2 c b))
  refine (Cert.LibPlainDot.matmul_plain_zero_apply (some .fp32) _ w2 c b).trans ?_
  exact Finset.sum_congr rfl fun d _ =>
    congrArg (· * w2 (ix2 d b)) (congrFun (shapeCast_self c2 shapeCasts_S1024x1024_S1024x1024) (ix2 c d))
end Grads

end Cert.KValue

end
-- ==== Proof.KArr1.lean ====
/-
  The relaxation kernel's three result arrays, whole.

  The kernel runs at four grid points; at point `t` the row-blocked windows stage rows `256·t … 256·t + 255` of their
  arrays and the two weight windows their whole arrays. What point `t` writes back is the twenty-trip fold of the tile's
  rows, which is the specification's relaxation of those rows; since a relaxation step acts row by row, that is rows
  `256·t …` of the relaxation of ALL the rows, and the four blocks cover the arrays. So each result array ends holding
  its component of the relaxation of the whole states.
-/
import proofs.«123206_j75110388073098_2_alg».proof.Proof.KIBody1
import proofs.«123206_j75110388073098_2_alg».proof.Proof.KOther
import Idealize.ShloMosaic.Lib.Pipeline.Value
import Idealize.ShloMosaic.Lib.ValueIdx

set_option maxRecDepth 16384

noncomputable section

namespace Cert.KArr

open Idealize.ShloMosaic Idealize.ShloMosaic.TcCoe Idealize.ShloMosaic.ValueIdx Cert.KernelIdeal Cert.KernelIdeal.Gen Cert.KernelIdeal.Hand
open Idealize.ShloMosaic.Pipeline (Dat)
open Cert.Spec Cert.KValue

variable (V : (c : Dev nD) → (b : Ref sig .tc) → Buf (Elt Ideal) ((c : Thread nD τ).loc b))

theorem hz1 : (![0, 0] : Fin 2 → Nat) = fun _ => 0 := funext fun a => by fin_cases a <;> rfl

/-- The block indices over the grid: the row-blocked windows are at block row `t`, the weight windows do not move. -/
theorem idx1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0) ∧ (win1_5.index t 0 = 0 ∧ win1_5.index t 1 = 0)
    ∧ (win1_6.index t 0 = t.val ∧ win1_6.index t 1 = 0) ∧ (win1_7.index t 0 = t.val ∧ win1_7.index t 1 = 0)
    ∧ (win1_8.index t 0 = t.val ∧ win1_8.index t 1 = 0) :=
  (by decide +kernel : ∀ t : Fin grid1.N, _)

theorem t_lt (t : Fin cfg1.N) : t.val < 4 := lt_of_lt_of_eq t.isLt N_1

/-- Row `p` of the tile at point `t` is row `256·t + p` of the array. -/
def rowOf (t : Fin cfg1.N) (p : Fin 256) : Fin 1024 := ⟨t.val * 256 + p.val, by have := t_lt t; have := p.isLt; omega⟩

/-! ## A block's entries in its array -/

theorem emb1_0 (t : Fin cfg1.N) (p : Fin 256) (q : Fin 512) :
    ((cfg1.win 0).blk t).view.emb (ix2 p q : S256x512.Idx) = (ix2 (rowOf t p) q : S1024x512.Idx) := by
  obtain ⟨⟨e0, e1⟩, -, -, -, -, -, -, -, -⟩ := idx1 t
  funext a; apply Fin.ext
  match a with
  | ⟨0, _⟩ => show win1_0.index t (0 : Fin 2) * 256 + 1 * p.val = t.val * 256 + p.val; omega
  | ⟨1, _⟩ => show win1_0.index t (1 : Fin 2) * 512 + 1 * q.val = q.val; omega

theorem emb1_1 (t : Fin cfg1.N) (p : Fin 256) (q : Fin 1024) :
    ((cfg1.win 1).blk t).view.emb (ix2 p q : S256x1024.Idx) = (ix2 (rowOf t p) q : S1024x1024.Idx) := by
  obtain ⟨-, ⟨e0, e1⟩, -, -, -, -, -, -, -⟩ := idx1 t
  funext a; apply Fin.ext
  match a with
  | ⟨0, _⟩ => show win1_1.index t (0 : Fin 2) * 256 + 1 * p.val = t.val * 256 + p.val; omega
  | ⟨1, _⟩ => show win1_1.index t (1 : Fin 2) * 1024 + 1 * q.val = q.val; omega

theorem emb1_2 (t : Fin cfg1.N) (p : Fin 256) (q : Fin 1024) :
    ((cfg1.win 2).blk t).view.emb (ix2 p q : S256x1024.Idx) = (ix2 (rowOf t p) q : S1024x1024.Idx) := by
  obtain ⟨-, -, ⟨e0, e1⟩, -, -, -, -, -, -⟩ := idx1 t
  funext a; apply Fin.ext
  match a with
  | ⟨0, _⟩ => show win1_2.index t (0 : Fin 2) * 256 + 1 * p.val = t.val * 256 + p.val; omega
  | ⟨1, _⟩ => show win1_2.index t (1 : Fin 2) * 1024 + 1 * q.val = q.val; omega

theorem emb1_3 (t : Fin cfg1.N) (p : Fin 256) (q : Fin 512) :
    ((cfg1.win 3).blk t).view.emb (ix2 p q : S256x512.Idx) = (ix2 (rowOf t p) q : S1024x512.Idx) := by
  obtain ⟨-, -, -, ⟨e0, e1⟩, -, -, -, -, -⟩ := idx1 t
  funext a; apply Fin.ext
  match a with
  | ⟨0, _⟩ => show win1_3.index t (0 : Fin 2) * 256 + 1 * p.val = t.val * 256 + p.val; omega
  | ⟨1, _⟩ => show win1_3.index t (1 : Fin 2) * 512 + 1 * q.val = q.val; omega

theorem emb1_4 (t : Fin cfg1.N) (j : S1024x1024.Idx) : ((cfg1.win 4).blk t).view.emb j = j := by
  obtain ⟨-, -, -, -, ⟨e0, e1⟩, -, -, -, -⟩ := idx1 t
  funext a; apply Fin.ext
  match a with
  | ⟨0, _⟩ => show win1_4.index t (0 : Fin 2) * 1024 + 1 * (j 0).val = (j 0).val; omega
  | ⟨1, _⟩ => show win1_4.index t (1 : Fin 2) * 1024 + 1 * (j 1).val = (j 1).val; omega

theorem emb1_5 (t : Fin cfg1.N) (j : S1024x512.Idx) : ((cfg1.win 5).blk t).view.emb j = j := by
  obtain ⟨-, -, -, -, -, ⟨e0, e1⟩, -, -, -⟩ := idx1 t
  funext a; apply Fin.ext
  match a with
  | ⟨0, _⟩ => show win1_5.index t (0 : Fin 2) * 1024 + 1 * (j 0).val = (j 0).val; omega
  | ⟨1, _⟩ => show win1_5.index t (1 : Fin 2) * 512 + 1 * (j 1).val = (j 1).val; omega

theorem emb1_6 (t : Fin cfg1.N) (p : Fin 256) (q : Fin 1024) :
    ((cfg1.win 6).blk t).view.emb (ix2 p q : S256x1024.Idx) = (ix2 (rowOf t p) q : S1024x1024.Idx) := by
  obtain ⟨-, -, -, -, -, -, ⟨e0, e1⟩, -, -⟩ := idx1 t
  funext a; apply Fin.ext
  match a with
  | ⟨0, _⟩ => show win1_6.index t (0 : Fin 2) * 256 + 1 * p.val = t.val * 256 + p.val; omega
  | ⟨1, _⟩ => show win1_6.index t (1 : Fin 2) * 1024 + 1 * q.val = q.val; omega

theorem emb1_7 (t : Fin cfg1.N) (p : Fin 256) (q : Fin 1024) :
    ((cfg1.win 7).blk t).view.emb (ix2 p q : S256x1024.Idx) = (ix2 (rowOf t p) q : S1024x1024.Idx) := by
  obtain ⟨-, -, -, -, -, -, -, ⟨e0, e1⟩, -⟩ := idx1 t
  funext a; apply Fin.ext
  match a with
  | ⟨0, _⟩ => show win1_7.index t (0 : Fin 2) * 256 + 1 * p.val = t.val * 256 + p.val; omega
  | ⟨1, _⟩ => show win1_7.index t (1 : Fin 2) * 1024 + 1 * q.val = q.val; omega

theorem emb1_8 (t : Fin cfg1.N) (p : Fin 256) (q : Fin 512) :
    ((cfg1.win 8).blk t).view.emb (ix2 p q : S256x512.Idx) = (ix2 (rowOf t p) q : S1024x512.Idx) := by
  obtain ⟨-, -, -, -, -, -, -, -, ⟨e0, e1⟩⟩ := idx1 t
  funext a; apply Fin.ext
  match a with
  | ⟨0, _⟩ => show win1_8.index t (0 : Fin 2) * 256 + 1 * p.val = t.val * 256 + p.val; omega
  | ⟨1, _⟩ => show win1_8.index t (1 : Fin 2) * 512 + 1 * q.val = q.val; omega

/-! ## The input blocks as matrices -/

/-- The array a window stages, as the region finds it, read as a matrix. -/
abbrev mY (c : Dev nD) : Mat 1024 512 := tW2 (V c main_arg1)
abbrev mS1 (c : Dev nD) : Mat 1024 1024 := tW1 (V c main_v0_0)
abbrev mS2 (c : Dev nD) : Mat 1024 1024 := tW1 (V c main_v0_1)
abbrev mS3 (c : Dev nD) : Mat 1024 512 := tW2 (V c main_v0_2)
abbrev mW1 (c : Dev nD) : Mat 1024 1024 := tW1 (V c main_arg3)
abbrev mW2 (c : Dev nD) : Mat 1024 512 := tW2 (V c main_arg4)

theorem blk1_0 (c : Dev nD) (t : Fin cfg1.N) : tB (iblk1 V c 0 t) = rows (rowOf t) (mY V c) := by
  funext p q
  show V c main_arg1 (((cfg1.win 0).blk t).view.emb (ix2 p q)) = V c main_arg1 (ix2 (rowOf t p) q)
  rw [emb1_0]
theorem blk1_1 (c : Dev nD) (t : Fin cfg1.N) : tA (iblk1 V c 1 t) = rows (rowOf t) (mS1 V c) := by
  funext p q
  show V c main_v0_0 (((cfg1.win 1).blk t).view.emb (ix2 p q)) = V c main_v0_0 (ix2 (rowOf t p) q)
  rw [emb1_1]
theorem blk1_2 (c : Dev nD) (t : Fin cfg1.N) : tA (iblk1 V c 2 t) = rows (rowOf t) (mS2 V c) := by
  funext p q
  show V c main_v0_1 (((cfg1.win 2).blk t).view.emb (ix2 p q)) = V c main_v0_1 (ix2 (rowOf t p) q)
  rw [emb1_2]
theorem blk1_3 (c : Dev nD) (t : Fin cfg1.N) : tB (iblk1 V c 3 t) = rows (rowOf t) (mS3 V c) := by
  funext p q
  show V c main_v0_2 (((cfg1.win 3).blk t).view.emb (ix2 p q)) = V c main_v0_2 (ix2 (rowOf t p) q)
  rw [emb1_3]
theorem blk1_4 (c : Dev nD) (t : Fin cfg1.N) : tW1 (iblk1 V c 4 t) = mW1 V c := by
  funext p q
  show V c main_arg3 (((cfg1.win 4).blk t).view.emb (ix2 p q)) = V c main_arg3 (ix2 p q)
  rw [emb1_4]
theorem blk1_5 (c : Dev nD) (t : Fin cfg1.N) : tW2 (iblk1 V c 5 t) = mW2 V c := by
  funext p q
  show V c main_arg4 (((cfg1.win 5).blk t).view.emb (ix2 p q)) = V c main_arg4 (ix2 p q)
  rw [emb1_5]

/-! ## What a point writes back -/

/-- The relaxation of all 1024 rows, from the arrays as the region finds them. -/
def relaxAll (c : Dev nD) : State 1024 :=
  relax (mW1 V c) (mW2 V c) (mS1 V c) (mY V c) (mS1 V c, mS2 V c, mS3 V c)

/-- The fold at point `t`, as matrices, is rows `256·t …` of the relaxation of all the rows. -/
theorem loop_rows (c : Dev nD) (t : Fin cfg1.N) :
    tS (loop1 (F := Ideal) (iblk1 V c 1 t) (iblk1 V c 2 t) (iblk1 V c 3 t) (iblk1 V c 0 t) (iblk1 V c 4 t) (iblk1 V c 5 t))
      = rowsS (rowOf t) (relaxAll V c) := by
  unfold loop1
  rw [fold_toM (iblk1 V c 1 t) (iblk1 V c 2 t) (iblk1 V c 3 t) (iblk1 V c 0 t) (iblk1 V c 4 t) (iblk1 V c 5 t),
    blk1_0, blk1_1, blk1_2, blk1_3, blk1_4, blk1_5]
  exact relax_rows (rowOf t) (mW1 V c) (mW2 V c) (mS1 V c) (mY V c) (mS1 V c, mS2 V c, mS3 V c)

/-- A matrix as a rank-2 array. -/
def ofM {m n : ℕ} (A : Mat m n) : (⟨2, ![m, n]⟩ : Shape).Idx → EReal := fun i => A (i 0) (i 1)
theorem ofM_ix2 {m n : ℕ} (A : Mat m n) (a : Fin m) (b : Fin n) : ofM A (ix2 a b) = A a b := rfl
theorem toM_ofM {m n : ℕ} (A : Mat m n) : toM (φ := .f32) (ofM A) = A := rfl

/-- The three result arrays: the components of the relaxation of all the rows, as arrays. -/
def G1_6 (c : Dev nD) : S1024x1024.Idx → Elt Ideal .f32 := ofM (relaxAll V c).1
def G1_7 (c : Dev nD) : S1024x1024.Idx → Elt Ideal .f32 := ofM (relaxAll V c).2.1
def G1_8 (c : Dev nD) : S1024x512.Idx → Elt Ideal .f32 := ofM (relaxAll V c).2.2

/-- The body's result buffer is the fold's component. -/
theorem out1_6_eq (x0 : Vec Ideal S256x512 .f32) (x1 x2 : Vec Ideal S256x1024 .f32) (x3 : Vec Ideal S256x512 .f32)
    (x4 : Vec Ideal S1024x1024 .f32) (x5 : Vec Ideal S1024x512 .f32) :
    out1_6 x0 x1 x2 x3 x4 x5 = (loop1 x1 x2 x3 x0 x4 x5).1 := by
  unfold out1_6
  rw [View.canon_unit_zero hz1]
  simp only [View.ld_unit_zero (S := S1024x1024) hz1, View.ld_unit_zero (S := S1024x512) hz1,
    View.ld_unit_zero (S := S256x1024) hz1, View.ld_unit_zero (S := S256x512) hz1]

/-- The result array at row `r`, column `q`. -/
theorem G1_6_apply (c : Dev nD) (r : Fin 1024) (q : Fin 1024) : G1_6 V c (ix2 r q) = (relaxAll V c).1 r q :=
  ofM_ix2 _ r q

theorem flushed1_6 (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6, out1_6_eq]
  funext j
  obtain ⟨p, q, rfl⟩ : ∃ (p : Fin 256) (q : Fin 1024), j = ix2 p q := ⟨j 0, j 1, eq_ix2 j⟩
  refine (?_ : _ = (relaxAll V c).1 (rowOf t p) q).trans
    ((congrArg (G1_6 V c) (emb1_6 t p q)).trans (G1_6_apply V c (rowOf t p) q)).symm
  exact congrFun (congrFun (congrArg (fun s : State 256 => s.1) (loop_rows V c t)) p) q

/-- The body's result buffer is the fold's component. -/
theorem out1_7_eq (x0 : Vec Ideal S256x512 .f32) (x1 x2 : Vec Ideal S256x1024 .f32) (x3 : Vec Ideal S256x512 .f32)
    (x4 : Vec Ideal S1024x1024 .f32) (x5 : Vec Ideal S1024x512 .f32) :
    out1_7 x0 x1 x2 x3 x4 x5 = (loop1 x1 x2 x3 x0 x4 x5).2.1 := by
  unfold out1_7
  rw [View.canon_unit_zero hz1]
  simp only [View.ld_unit_zero (S := S1024x1024) hz1, View.ld_unit_zero (S := S1024x512) hz1,
    View.ld_unit_zero (S := S256x1024) hz1, View.ld_unit_zero (S := S256x512) hz1]

/-- The result array at row `r`, column `q`. -/
theorem G1_7_apply (c : Dev nD) (r : Fin 1024) (q : Fin 1024) : G1_7 V c (ix2 r q) = (relaxAll V c).2.1 r q :=
  ofM_ix2 _ r q

theorem flushed1_7 (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7, out1_7_eq]
  funext j
  obtain ⟨p, q, rfl⟩ : ∃ (p : Fin 256) (q : Fin 1024), j = ix2 p q := ⟨j 0, j 1, eq_ix2 j⟩
  refine (?_ : _ = (relaxAll V c).2.1 (rowOf t p) q).trans
    ((congrArg (G1_7 V c) (emb1_7 t p q)).trans (G1_7_apply V c (rowOf t p) q)).symm
  exact congrFun (congrFun (congrArg (fun s : State 256 => s.2.1) (loop_rows V c t)) p) q

/-- The body's result buffer is the fold's component. -/
theorem out1_8_eq (x0 : Vec Ideal S256x512 .f32) (x1 x2 : Vec Ideal S256x1024 .f32) (x3 : Vec Ideal S256x512 .f32)
    (x4 : Vec Ideal S1024x1024 .f32) (x5 : Vec Ideal S1024x512 .f32) :
    out1_8 x0 x1 x2 x3 x4 x5 = (loop1 x1 x2 x3 x0 x4 x5).2.2 := by
  unfold out1_8
  rw [View.canon_unit_zero hz1]
  simp only [View.ld_unit_zero (S := S1024x1024) hz1, View.ld_unit_zero (S := S1024x512) hz1,
    View.ld_unit_zero (S := S256x1024) hz1, View.ld_unit_zero (S := S256x512) hz1]

/-- The result array at row `r`, column `q`. -/
theorem G1_8_apply (c : Dev nD) (r : Fin 1024) (q : Fin 512) : G1_8 V c (ix2 r q) = (relaxAll V c).2.2 r q :=
  ofM_ix2 _ r q

theorem flushed1_8 (c : Dev nD) (t : Fin cfg1.N) :
    (dat1 V c).flushed 8 t = ((cfg1.win 8).blk t).view.read (Elt Ideal) (G1_8 V c) := by
  show (cfg1.win 8).cut (grid1.coords t) ((dat1 V c).after 8 t) = _
  rw [after1_8, out1_8_eq]
  funext j
  obtain ⟨p, q, rfl⟩ : ∃ (p : Fin 256) (q : Fin 512), j = ix2 p q := ⟨j 0, j 1, eq_ix2 j⟩
  refine (?_ : _ = (relaxAll V c).2.2 (rowOf t p) q).trans
    ((congrArg (G1_8 V c) (emb1_8 t p q)).trans (G1_8_apply V c (rowOf t p) q)).symm
  exact congrFun (congrFun (congrArg (fun s : State 256 => s.2.2) (loop_rows V c t)) p) q

/-! ## The four blocks cover each array -/

theorem cover1_6 (c : Dev nD) (i : S1024x1024.Idx) :
    ∃ t : Fin cfg1.N, (cfg1.win 6).flush t = true ∧ i ∈ ((cfg1.win 6).blk t).view.set := by
  have hi0 : (i 0).val < 1024 := (i 0).isLt
  have hi1 : (i 1).val < 1024 := (i 1).isLt
  have hN : cfg1.N = 4 := N_1
  let t : Fin cfg1.N := ⟨(i 0).val / 256, by rw [hN]; omega⟩
  refine ⟨t, flush1_6 t, ?_⟩
  show i ∈ ((View.whole main_v5_0).slice (win1_6.rect t)).set
  rw [View.set_slice_whole, Rect.mem_set_unit]
  obtain ⟨-, -, -, -, -, -, ⟨e0, e1⟩, -, -⟩ := idx1 t
  have ht : t.val = (i 0).val / 256 := rfl
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 1024 ≤ (i 1).val ∧ (i 1).val < win1_6.index t (1 : Fin 2) * 1024 + 1024; omega

theorem cover1_7 (c : Dev nD) (i : S1024x1024.Idx) :
    ∃ t : Fin cfg1.N, (cfg1.win 7).flush t = true ∧ i ∈ ((cfg1.win 7).blk t).view.set := by
  have hi0 : (i 0).val < 1024 := (i 0).isLt
  have hi1 : (i 1).val < 1024 := (i 1).isLt
  have hN : cfg1.N = 4 := N_1
  let t : Fin cfg1.N := ⟨(i 0).val / 256, by rw [hN]; omega⟩
  refine ⟨t, flush1_7 t, ?_⟩
  show i ∈ ((View.whole main_v5_1).slice (win1_7.rect t)).set
  rw [View.set_slice_whole, Rect.mem_set_unit]
  obtain ⟨-, -, -, -, -, -, -, ⟨e0, e1⟩, -⟩ := idx1 t
  have ht : t.val = (i 0).val / 256 := rfl
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 1024 ≤ (i 1).val ∧ (i 1).val < win1_7.index t (1 : Fin 2) * 1024 + 1024; omega

theorem cover1_8 (c : Dev nD) (i : S1024x512.Idx) :
    ∃ t : Fin cfg1.N, (cfg1.win 8).flush t = true ∧ i ∈ ((cfg1.win 8).blk t).view.set := by
  have hi0 : (i 0).val < 1024 := (i 0).isLt
  have hi1 : (i 1).val < 512 := (i 1).isLt
  have hN : cfg1.N = 4 := N_1
  let t : Fin cfg1.N := ⟨(i 0).val / 256, by rw [hN]; omega⟩
  refine ⟨t, flush1_8 t, ?_⟩
  show i ∈ ((View.whole main_v5_2).slice (win1_8.rect t)).set
  rw [View.set_slice_whole, Rect.mem_set_unit]
  obtain ⟨-, -, -, -, -, -, -, -, ⟨e0, e1⟩⟩ := idx1 t
  have ht : t.val = (i 0).val / 256 := rfl
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 512 ≤ (i 1).val ∧ (i 1).val < win1_8.index t (1 : Fin 2) * 512 + 512; omega

/-- The three result arrays after the region. -/
theorem final1_6 (c : Dev nD) : (dat1 V c).arrAt 6 cfg1.N = G1_6 V c :=
  (dat1 V c).arrAt_eq_of_cover 6 (G1_6 V c) (fun t _ => flushed1_6 V c t) (cover1_6 c)
theorem final1_7 (c : Dev nD) : (dat1 V c).arrAt 7 cfg1.N = G1_7 V c :=
  (dat1 V c).arrAt_eq_of_cover 7 (G1_7 V c) (fun t _ => flushed1_7 V c t) (cover1_7 c)
theorem final1_8 (c : Dev nD) : (dat1 V c).arrAt 8 cfg1.N = G1_8 V c :=
  (dat1 V c).arrAt_eq_of_cover 8 (G1_8 V c) (fun t _ => flushed1_8 V c t) (cover1_8 c)

end Cert.KArr

end
-- ==== Proof.KArr2.lean ====
/-
  The first weight-gradient kernel's result array, whole: one grid point, every window its whole array, so what the
  point writes back is the kernel's arithmetic of the arrays the region finds.
-/
import proofs.«123206_j75110388073098_2_alg».proof.Proof.KIBody2
import Idealize.ShloMosaic.Lib.Pipeline.Value
import Idealize.ShloMosaic.Lib.ValueIdx

set_option maxRecDepth 16384

noncomputable section

namespace Cert.KArr

open Idealize.ShloMosaic Idealize.ShloMosaic.TcCoe Idealize.ShloMosaic.ValueIdx Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- No window of this kernel moves: every block index is 0. -/
theorem idx2 : ∀ t : Fin cfg2.N, (win2_0.index t 0 = 0 ∧ win2_0.index t 1 = 0) ∧ (win2_1.index t 0 = 0 ∧ win2_1.index t 1 = 0)
    ∧ (win2_2.index t 0 = 0 ∧ win2_2.index t 1 = 0) ∧ (win2_3.index t 0 = 0 ∧ win2_3.index t 1 = 0) :=
  (by decide +kernel : ∀ t : Fin grid2.N, _)

/-! ## A block is its array -/

theorem emb2_0 (t : Fin cfg2.N) (j : S1024x1024.Idx) : ((cfg2.win 0).blk t).view.emb j = j := by
  obtain ⟨⟨e0, e1⟩, -, -, -⟩ := idx2 t
  funext a; apply Fin.ext
  match a with
  | ⟨0, _⟩ => show win2_0.index t (0 : Fin 2) * 1024 + 1 * (j 0).val = (j 0).val; omega
  | ⟨1, _⟩ => show win2_0.index t (1 : Fin 2) * 1024 + 1 * (j 1).val = (j 1).val; omega

theorem emb2_1 (t : Fin cfg2.N) (j : S1024x1024.Idx) : ((cfg2.win 1).blk t).view.emb j = j := by
  obtain ⟨-, ⟨e0, e1⟩, -, -⟩ := idx2 t
  funext a; apply Fin.ext
  match a with
  | ⟨0, _⟩ => show win2_1.index t (0 : Fin 2) * 1024 + 1 * (j 0).val = (j 0).val; omega
  | ⟨1, _⟩ => show win2_1.index t (1 : Fin 2) * 1024 + 1 * (j 1).val = (j 1).val; omega

theorem emb2_2 (t : Fin cfg2.N) (j : S1024x1024.Idx) : ((cfg2.win 2).blk t).view.emb j = j := by
  obtain ⟨-, -, ⟨e0, e1⟩, -⟩ := idx2 t
  funext a; apply Fin.ext
  match a with
  | ⟨0, _⟩ => show win2_2.index t (0 : Fin 2) * 1024 + 1 * (j 0).val = (j 0).val; omega
  | ⟨1, _⟩ => show win2_2.index t (1 : Fin 2) * 1024 + 1 * (j 1).val = (j 1).val; omega

theorem emb2_3 (t : Fin cfg2.N) (j : S1024x1024.Idx) : ((cfg2.win 3).blk t).view.emb j = j := by
  obtain ⟨-, -, -, ⟨e0, e1⟩⟩ := idx2 t
  funext a; apply Fin.ext
  match a with
  | ⟨0, _⟩ => show win2_3.index t (0 : Fin 2) * 1024 + 1 * (j 0).val = (j 0).val; omega
  | ⟨1, _⟩ => show win2_3.index t (1 : Fin 2) * 1024 + 1 * (j 1).val = (j 1).val; omega

theorem iblk2_0 (c : Dev nD) (t : Fin cfg2.N) : (iblk2 V c 0 t : S1024x1024.Idx → Elt Ideal .f32) = V c main_arg0 := by
  funext j
  show V c main_arg0 (((cfg2.win 0).blk t).view.emb j) = V c main_arg0 j
  rw [emb2_0]

theorem iblk2_1 (c : Dev nD) (t : Fin cfg2.N) : (iblk2 V c 1 t : S1024x1024.Idx → Elt Ideal .f32) = V c main_v0_0 := by
  funext j
  show V c main_v0_0 (((cfg2.win 1).blk t).view.emb j) = V c main_v0_0 j
  rw [emb2_1]

theorem iblk2_2 (c : Dev nD) (t : Fin cfg2.N) : (iblk2 V c 2 t : S1024x1024.Idx → Elt Ideal .f32) = V c main_v5_0 := by
  funext j
  show V c main_v5_0 (((cfg2.win 2).blk t).view.emb j) = V c main_v5_0 j
  rw [emb2_2]

/-! ## What the point writes back, and the array after the region -/

/-- The kernel's result, of the arrays as found. -/
abbrev G2_3 (c : Dev nD) : S1024x1024.Idx → Elt Ideal .f32 := k2_pay1 (V c main_arg0) (V c main_v0_0) (V c main_v5_0)

theorem flushed2_3 (c : Dev nD) (t : Fin cfg2.N) :
    (dat2 V c).flushed 3 t = ((cfg2.win 3).blk t).view.read (Elt Ideal) (G2_3 V c) := by
  show (cfg2.win 3).cut (grid2.coords t) ((dat2 V c).after 3 t) = _
  rw [after2_3]
  unfold out2_3
  rw [View.canon_unit_zero hz2]
  simp only [View.ld_unit_zero (S := S1024x1024) hz2]
  rw [iblk2_0 V c t, iblk2_1 V c t, iblk2_2 V c t]
  funext j
  show G2_3 V c j = G2_3 V c (((cfg2.win 3).blk t).view.emb j)
  rw [emb2_3]

theorem cover2_3 (c : Dev nD) (i : S1024x1024.Idx) :
    ∃ t : Fin cfg2.N, (cfg2.win 3).flush t = true ∧ i ∈ ((cfg2.win 3).blk t).view.set := by
  refine ⟨t2_0, flush2_3 t2_0, ?_⟩
  show i ∈ ((View.whole main_v6).slice (win2_3.rect t2_0)).set
  rw [View.set_slice_whole, Rect.mem_set_unit]
  have hi0 : (i 0).val < 1024 := (i 0).isLt
  have hi1 : (i 1).val < 1024 := (i 1).isLt
  obtain ⟨-, -, -, ⟨e0, e1⟩⟩ := idx2 t2_0
  intro a
  match a with
  | ⟨0, _⟩ => show win2_3.index t2_0 (0 : Fin 2) * 1024 ≤ (i 0).val ∧ (i 0).val < win2_3.index t2_0 (0 : Fin 2) * 1024 + 1024; omega
  | ⟨1, _⟩ => show win2_3.index t2_0 (1 : Fin 2) * 1024 ≤ (i 1).val ∧ (i 1).val < win2_3.index t2_0 (1 : Fin 2) * 1024 + 1024; omega

/-- The result array after the region. -/
theorem final2_3 (c : Dev nD) : (dat2 V c).arrAt 3 cfg2.N = G2_3 V c :=
  (dat2 V c).arrAt_eq_of_cover 3 (G2_3 V c) (fun t _ => flushed2_3 V c t) (cover2_3 c)

end Cert.KArr

end
-- ==== Proof.KArr3.lean ====
/-
  The second weight-gradient kernel's result array, whole: one grid point, every window its whole array, so what the
  point writes back is the kernel's arithmetic of the arrays the region finds.
-/
import proofs.«123206_j75110388073098_2_alg».proof.Proof.KIBody3
import Idealize.ShloMosaic.Lib.Pipeline.Value
import Idealize.ShloMosaic.Lib.ValueIdx

set_option maxRecDepth 16384

noncomputable section

namespace Cert.KArr

open Idealize.ShloMosaic Idealize.ShloMosaic.TcCoe Idealize.ShloMosaic.ValueIdx Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- No window of this kernel moves: every block index is 0. -/
theorem idx3 : ∀ t : Fin cfg3.N, (win3_0.index t 0 = 0 ∧ win3_0.index t 1 = 0) ∧ (win3_1.index t 0 = 0 ∧ win3_1.index t 1 = 0)
    ∧ (win3_2.index t 0 = 0 ∧ win3_2.index t 1 = 0) ∧ (win3_3.index t 0 = 0 ∧ win3_3.index t 1 = 0) :=
  (by decide +kernel : ∀ t : Fin grid3.N, _)

/-! ## A block is its array -/

theorem emb3_0 (t : Fin cfg3.N) (j : S1024x1024.Idx) : ((cfg3.win 0).blk t).view.emb j = j := by
  obtain ⟨⟨e0, e1⟩, -, -, -⟩ := idx3 t
  funext a; apply Fin.ext
  match a with
  | ⟨0, _⟩ => show win3_0.index t (0 : Fin 2) * 1024 + 1 * (j 0).val = (j 0).val; omega
  | ⟨1, _⟩ => show win3_0.index t (1 : Fin 2) * 1024 + 1 * (j 1).val = (j 1).val; omega

theorem emb3_1 (t : Fin cfg3.N) (j : S1024x1024.Idx) : ((cfg3.win 1).blk t).view.emb j = j := by
  obtain ⟨-, ⟨e0, e1⟩, -, -⟩ := idx3 t
  funext a; apply Fin.ext
  match a with
  | ⟨0, _⟩ => show win3_1.index t (0 : Fin 2) * 1024 + 1 * (j 0).val = (j 0).val; omega
  | ⟨1, _⟩ => show win3_1.index t (1 : Fin 2) * 1024 + 1 * (j 1).val = (j 1).val; omega

theorem emb3_2 (t : Fin cfg3.N) (j : S1024x1024.Idx) : ((cfg3.win 2).blk t).view.emb j = j := by
  obtain ⟨-, -, ⟨e0, e1⟩, -⟩ := idx3 t
  funext a; apply Fin.ext
  match a with
  | ⟨0, _⟩ => show win3_2.index t (0 : Fin 2) * 1024 + 1 * (j 0).val = (j 0).val; omega
  | ⟨1, _⟩ => show win3_2.index t (1 : Fin 2) * 1024 + 1 * (j 1).val = (j 1).val; omega

theorem emb3_3 (t : Fin cfg3.N) (j : S1024x1024.Idx) : ((cfg3.win 3).blk t).view.emb j = j := by
  obtain ⟨-, -, -, ⟨e0, e1⟩⟩ := idx3 t
  funext a; apply Fin.ext
  match a with
  | ⟨0, _⟩ => show win3_3.index t (0 : Fin 2) * 1024 + 1 * (j 0).val = (j 0).val; omega
  | ⟨1, _⟩ => show win3_3.index t (1 : Fin 2) * 1024 + 1 * (j 1).val = (j 1).val; omega

theorem iblk3_0 (c : Dev nD) (t : Fin cfg3.N) : (iblk3 V c 0 t : S1024x1024.Idx → Elt Ideal .f32) = V c main_v5_0 := by
  funext j
  show V c main_v5_0 (((cfg3.win 0).blk t).view.emb j) = V c main_v5_0 j
  rw [emb3_0]

theorem iblk3_1 (c : Dev nD) (t : Fin cfg3.N) : (iblk3 V c 1 t : S1024x1024.Idx → Elt Ideal .f32) = V c main_arg3 := by
  funext j
  show V c main_arg3 (((cfg3.win 1).blk t).view.emb j) = V c main_arg3 j
  rw [emb3_1]

theorem iblk3_2 (c : Dev nD) (t : Fin cfg3.N) : (iblk3 V c 2 t : S1024x1024.Idx → Elt Ideal .f32) = V c main_v5_1 := by
  funext j
  show V c main_v5_1 (((cfg3.win 2).blk t).view.emb j) = V c main_v5_1 j
  rw [emb3_2]

/-! ## What the point writes back, and the array after the region -/

/-- The kernel's result, of the arrays as found. -/
abbrev G3_3 (c : Dev nD) : S1024x1024.Idx → Elt Ideal .f32 := k3_pay1 (V c main_v5_0) (V c main_arg3) (V c main_v5_1)

theorem flushed3_3 (c : Dev nD) (t : Fin cfg3.N) :
    (dat3 V c).flushed 3 t = ((cfg3.win 3).blk t).view.read (Elt Ideal) (G3_3 V c) := by
  show (cfg3.win 3).cut (grid3.coords t) ((dat3 V c).after 3 t) = _
  rw [after3_3]
  unfold out3_3
  rw [View.canon_unit_zero hz3]
  simp only [View.ld_unit_zero (S := S1024x1024) hz3]
  rw [iblk3_0 V c t, iblk3_1 V c t, iblk3_2 V c t]
  funext j
  show G3_3 V c j = G3_3 V c (((cfg3.win 3).blk t).view.emb j)
  rw [emb3_3]

theorem cover3_3 (c : Dev nD) (i : S1024x1024.Idx) :
    ∃ t : Fin cfg3.N, (cfg3.win 3).flush t = true ∧ i ∈ ((cfg3.win 3).blk t).view.set := by
  refine ⟨t3_0, flush3_3 t3_0, ?_⟩
  show i ∈ ((View.whole main_v7).slice (win3_3.rect t3_0)).set
  rw [View.set_slice_whole, Rect.mem_set_unit]
  have hi0 : (i 0).val < 1024 := (i 0).isLt
  have hi1 : (i 1).val < 1024 := (i 1).isLt
  obtain ⟨-, -, -, ⟨e0, e1⟩⟩ := idx3 t3_0
  intro a
  match a with
  | ⟨0, _⟩ => show win3_3.index t3_0 (0 : Fin 2) * 1024 ≤ (i 0).val ∧ (i 0).val < win3_3.index t3_0 (0 : Fin 2) * 1024 + 1024; omega
  | ⟨1, _⟩ => show win3_3.index t3_0 (1 : Fin 2) * 1024 ≤ (i 1).val ∧ (i 1).val < win3_3.index t3_0 (1 : Fin 2) * 1024 + 1024; omega

/-- The result array after the region. -/
theorem final3_3 (c : Dev nD) : (dat3 V c).arrAt 3 cfg3.N = G3_3 V c :=
  (dat3 V c).arrAt_eq_of_cover 3 (G3_3 V c) (fun t _ => flushed3_3 V c t) (cover3_3 c)

end Cert.KArr

end
-- ==== Proof.KArr4.lean ====
/-
  The third weight-gradient kernel's result array, whole: one grid point, every window its whole array, so what the
  point writes back is the kernel's arithmetic of the arrays the region finds.
-/
import proofs.«123206_j75110388073098_2_alg».proof.Proof.KIBody4
import Idealize.ShloMosaic.Lib.Pipeline.Value
import Idealize.ShloMosaic.Lib.ValueIdx

set_option maxRecDepth 16384

noncomputable section

namespace Cert.KArr

open Idealize.ShloMosaic Idealize.ShloMosaic.TcCoe Idealize.ShloMosaic.ValueIdx Cert.KernelIdeal Cert.KernelIdeal.Gen Cert.KernelIdeal.Hand
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- No window of this kernel moves: every block index is 0. -/
theorem idx4 : ∀ t : Fin cfg4.N, (win4_0.index t 0 = 0 ∧ win4_0.index t 1 = 0) ∧ (win4_1.index t 0 = 0 ∧ win4_1.index t 1 = 0)
    ∧ (win4_2.index t 0 = 0 ∧ win4_2.index t 1 = 0) ∧ (win4_3.index t 0 = 0 ∧ win4_3.index t 1 = 0) :=
  (by decide +kernel : ∀ t : Fin grid4.N, _)

/-! ## A block is its array -/

theorem emb4_0 (t : Fin cfg4.N) (j : S1024x1024.Idx) : ((cfg4.win 0).blk t).view.emb j = j := by
  obtain ⟨⟨e0, e1⟩, -, -, -⟩ := idx4 t
  funext a; apply Fin.ext
  match a with
  | ⟨0, _⟩ => show win4_0.index t (0 : Fin 2) * 1024 + 1 * (j 0).val = (j 0).val; omega
  | ⟨1, _⟩ => show win4_0.index t (1 : Fin 2) * 1024 + 1 * (j 1).val = (j 1).val; omega

theorem emb4_1 (t : Fin cfg4.N) (j : S1024x512.Idx) : ((cfg4.win 1).blk t).view.emb j = j := by
  obtain ⟨-, ⟨e0, e1⟩, -, -⟩ := idx4 t
  funext a; apply Fin.ext
  match a with
  | ⟨0, _⟩ => show win4_1.index t (0 : Fin 2) * 1024 + 1 * (j 0).val = (j 0).val; omega
  | ⟨1, _⟩ => show win4_1.index t (1 : Fin 2) * 512 + 1 * (j 1).val = (j 1).val; omega

theorem emb4_2 (t : Fin cfg4.N) (j : S1024x512.Idx) : ((cfg4.win 2).blk t).view.emb j = j := by
  obtain ⟨-, -, ⟨e0, e1⟩, -⟩ := idx4 t
  funext a; apply Fin.ext
  match a with
  | ⟨0, _⟩ => show win4_2.index t (0 : Fin 2) * 1024 + 1 * (j 0).val = (j 0).val; omega
  | ⟨1, _⟩ => show win4_2.index t (1 : Fin 2) * 512 + 1 * (j 1).val = (j 1).val; omega

theorem emb4_3 (t : Fin cfg4.N) (j : S1024x512.Idx) : ((cfg4.win 3).blk t).view.emb j = j := by
  obtain ⟨-, -, -, ⟨e0, e1⟩⟩ := idx4 t
  funext a; apply Fin.ext
  match a with
  | ⟨0, _⟩ => show win4_3.index t (0 : Fin 2) * 1024 + 1 * (j 0).val = (j 0).val; omega
  | ⟨1, _⟩ => show win4_3.index t (1 : Fin 2) * 512 + 1 * (j 1).val = (j 1).val; omega

theorem iblk4_0 (c : Dev nD) (t : Fin cfg4.N) : (iblk4 V c 0 t : S1024x1024.Idx → Elt Ideal .f32) = V c main_v5_1 := by
  funext j
  show V c main_v5_1 (((cfg4.win 0).blk t).view.emb j) = V c main_v5_1 j
  rw [emb4_0]

theorem iblk4_1 (c : Dev nD) (t : Fin cfg4.N) : (iblk4 V c 1 t : S1024x512.Idx → Elt Ideal .f32) = V c main_arg4 := by
  funext j
  show V c main_arg4 (((cfg4.win 1).blk t).view.emb j) = V c main_arg4 j
  rw [emb4_1]

theorem iblk4_2 (c : Dev nD) (t : Fin cfg4.N) : (iblk4 V c 2 t : S1024x512.Idx → Elt Ideal .f32) = V c main_v5_2 := by
  funext j
  show V c main_v5_2 (((cfg4.win 2).blk t).view.emb j) = V c main_v5_2 j
  rw [emb4_2]

/-! ## What the point writes back, and the array after the region -/

/-- The kernel's result, of the arrays as found. -/
abbrev G4_3 (c : Dev nD) : S1024x512.Idx → Elt Ideal .f32 := k4_pay1 (V c main_v5_1) (V c main_arg4) (V c main_v5_2)

theorem flushed4_3 (c : Dev nD) (t : Fin cfg4.N) :
    (dat4 V c).flushed 3 t = ((cfg4.win 3).blk t).view.read (Elt Ideal) (G4_3 V c) := by
  show (cfg4.win 3).cut (grid4.coords t) ((dat4 V c).after 3 t) = _
  rw [after4_3]
  unfold out4_3
  rw [View.canon_unit_zero hz4]
  simp only [View.ld_unit_zero (S := S1024x1024) hz4, View.ld_unit_zero (S := S1024x512) hz4]
  rw [iblk4_0 V c t, iblk4_1 V c t, iblk4_2 V c t]
  funext j
  show G4_3 V c j = G4_3 V c (((cfg4.win 3).blk t).view.emb j)
  rw [emb4_3]

theorem cover4_3 (c : Dev nD) (i : S1024x512.Idx) :
    ∃ t : Fin cfg4.N, (cfg4.win 3).flush t = true ∧ i ∈ ((cfg4.win 3).blk t).view.set := by
  refine ⟨t4_0, flush4_3 t4_0, ?_⟩
  show i ∈ ((View.whole main_v8).slice (win4_3.rect t4_0)).set
  rw [View.set_slice_whole, Rect.mem_set_unit]
  have hi0 : (i 0).val < 1024 := (i 0).isLt
  have hi1 : (i 1).val < 512 := (i 1).isLt
  obtain ⟨-, -, -, ⟨e0, e1⟩⟩ := idx4 t4_0
  intro a
  match a with
  | ⟨0, _⟩ => show win4_3.index t4_0 (0 : Fin 2) * 1024 ≤ (i 0).val ∧ (i 0).val < win4_3.index t4_0 (0 : Fin 2) * 1024 + 1024; omega
  | ⟨1, _⟩ => show win4_3.index t4_0 (1 : Fin 2) * 512 ≤ (i 1).val ∧ (i 1).val < win4_3.index t4_0 (1 : Fin 2) * 512 + 512; omega

/-- The result array after the region. -/
theorem final4_3 (c : Dev nD) : (dat4 V c).arrAt 3 cfg4.N = G4_3 V c :=
  (dat4 V c).arrAt_eq_of_cover 3 (G4_3 V c) (fun t _ => flushed4_3 V c t) (cover4_3 c)

end Cert.KArr

end
-- ==== Proof.KFold.lean ====
/-
  The kernel program's buffers, read through @main.

  @main is five kernel regions with two stretches of host operations between and after them. Walking the buffer
  contents from the launch memory through each region (its result arrays as the region leaves them, everything else
  untouched) and each stretch gives the four pieces the program concatenates: the three weight gradients over the
  clamping strength and the loss, each as the specification's function of the five argument arrays.
-/
import proofs.«123206_j75110388073098_2_alg».proof.Proof.KIFrame
import proofs.«123206_j75110388073098_2_alg».proof.Proof.KArr0
import proofs.«123206_j75110388073098_2_alg».proof.Proof.KArr1
import proofs.«123206_j75110388073098_2_alg».proof.Proof.KArr2
import proofs.«123206_j75110388073098_2_alg».proof.Proof.KArr3
import proofs.«123206_j75110388073098_2_alg».proof.Proof.KArr4
import Idealize.ShloMosaic.Lib.StableHlo.Run

set_option maxRecDepth 16384

noncomputable section

namespace Cert.KFold

open Idealize.ShloMosaic Idealize.ShloMosaic.TcCoe Idealize.ShloMosaic.ValueIdx Cert.KernelIdeal Cert.KernelIdeal.Gen Cert.KernelIdeal.Hand
open Idealize.ShloMosaic.Pipeline (Dat)
open Cert.Spec Cert.KValue Cert.KArr

variable (m : (ℓ : Loc nD τ sig) → Buf (Elt Ideal) ℓ) (ρ : Dev nD → PrngReg) (c : Dev nD)

/-! ## The five arguments, as arrays -/

abbrev aX : FVec Ideal S1024x1024 .f32 := m ((c : Thread nD τ).loc main_arg0)
abbrev aY : FVec Ideal S1024x512 .f32 := m ((c : Thread nD τ).loc main_arg1)
abbrev aW0 : FVec Ideal S1024x1024 .f32 := m ((c : Thread nD τ).loc main_arg2)
abbrev aW1 : FVec Ideal S1024x1024 .f32 := m ((c : Thread nD τ).loc main_arg3)
abbrev aW2 : FVec Ideal S1024x512 .f32 := m ((c : Thread nD τ).loc main_arg4)

/-! ## After the forward kernel -/

theorem W1_arg0 : W1 m ρ c (Proc.devRef .tc main_arg0) = aX m c :=
  (W1_arr m ρ c 0).trans (((dat0 (VW0 m ρ) c).arrAt_in 0 rfl _).trans (A_eq0 (VW0 m ρ) c 0))
theorem W1_arg1 : W1 m ρ c (Proc.devRef .tc main_arg1) = aY m c := W1_of_ne m ρ c main_arg1 (by decide)
theorem W1_arg2 : W1 m ρ c (Proc.devRef .tc main_arg2) = aW0 m c :=
  (W1_arr m ρ c 1).trans (((dat0 (VW0 m ρ) c).arrAt_in 1 rfl _).trans (A_eq0 (VW0 m ρ) c 1))
theorem W1_arg3 : W1 m ρ c (Proc.devRef .tc main_arg3) = aW1 m c :=
  (W1_arr m ρ c 2).trans (((dat0 (VW0 m ρ) c).arrAt_in 2 rfl _).trans (A_eq0 (VW0 m ρ) c 2))
theorem W1_arg4 : W1 m ρ c (Proc.devRef .tc main_arg4) = aW2 m c :=
  (W1_arr m ρ c 3).trans (((dat0 (VW0 m ρ) c).arrAt_in 3 rfl _).trans (A_eq0 (VW0 m ρ) c 3))
theorem W1_v0_0 : W1 m ρ c (Proc.devRef .tc main_v0_0) = k0_pay1 (F := Ideal) (aX m c) (aW0 m c) :=
  (W1_arr m ρ c 4).trans (final0_4 (VW0 m ρ) c)
theorem W1_v0_1 : W1 m ρ c (Proc.devRef .tc main_v0_1) = k0_pay2 (F := Ideal) (aX m c) (aW0 m c) (aW1 m c) :=
  (W1_arr m ρ c 5).trans (final0_5 (VW0 m ρ) c)
theorem W1_v0_2 : W1 m ρ c (Proc.devRef .tc main_v0_2) = k0_pay3 (F := Ideal) (aX m c) (aW0 m c) (aW1 m c) (aW2 m c) :=
  (W1_arr m ρ c 6).trans (final0_6 (VW0 m ρ) c)

/-! ## After the first host stretch: the loss -/

/-- The loss: the sum of the squared differences over their count. -/
def lossT (s3 y : FVec Ideal S1024x512 .f32) : FVec Ideal S_ .f32 :=
  Host.divf (Host.reduceAdd (mulf (subf s3 y) (subf s3 y)) (constant S_ .f32 0x00000000#32) reducesTo_S1024x512_S_d0_1 h_S_)
    (constant S_ .f32 0x49000000#32)

/-- The stretch's last buffer, over any contents before it. -/
theorem after1_v4 (Wv : Valuation τ sig (Elt Ideal)) :
    StableHlo.after hostOps1 Wv (Proc.devRef .tc main_v4)
      = lossT (Wv (Proc.devRef .tc main_v0_2)) (Wv (Proc.devRef .tc main_arg1)) := by
  simp only [hostOps1]
  after_results
  rfl

theorem W2_arg0 : W2 m ρ c (Proc.devRef .tc main_arg0) = aX m c := (W2_of m ρ c main_arg0 (by decide)).trans (W1_arg0 m ρ c)
theorem W2_arg1 : W2 m ρ c (Proc.devRef .tc main_arg1) = aY m c := (W2_of m ρ c main_arg1 (by decide)).trans (W1_arg1 m ρ c)
theorem W2_arg3 : W2 m ρ c (Proc.devRef .tc main_arg3) = aW1 m c := (W2_of m ρ c main_arg3 (by decide)).trans (W1_arg3 m ρ c)
theorem W2_arg4 : W2 m ρ c (Proc.devRef .tc main_arg4) = aW2 m c := (W2_of m ρ c main_arg4 (by decide)).trans (W1_arg4 m ρ c)
theorem W2_v0_0 : W2 m ρ c (Proc.devRef .tc main_v0_0) = k0_pay1 (F := Ideal) (aX m c) (aW0 m c) :=
  (W2_of m ρ c main_v0_0 (by decide)).trans (W1_v0_0 m ρ c)
theorem W2_v0_1 : W2 m ρ c (Proc.devRef .tc main_v0_1) = k0_pay2 (F := Ideal) (aX m c) (aW0 m c) (aW1 m c) :=
  (W2_of m ρ c main_v0_1 (by decide)).trans (W1_v0_1 m ρ c)
theorem W2_v0_2 : W2 m ρ c (Proc.devRef .tc main_v0_2) = k0_pay3 (F := Ideal) (aX m c) (aW0 m c) (aW1 m c) (aW2 m c) :=
  (W2_of m ρ c main_v0_2 (by decide)).trans (W1_v0_2 m ρ c)
theorem W2_v4 : W2 m ρ c (Proc.devRef .tc main_v4) = lossT (k0_pay3 (F := Ideal) (aX m c) (aW0 m c) (aW1 m c) (aW2 m c)) (aY m c) := by
  refine (after1_v4 (W1 m ρ c)).trans ?_
  rw [W1_v0_2, W1_arg1]

/-! ## After the relaxation kernel -/

theorem W3_arg0 : W3 m ρ c (Proc.devRef .tc main_arg0) = aX m c := (W3_of_ne m ρ c main_arg0 (by decide)).trans (W2_arg0 m ρ c)
theorem W3_arg3 : W3 m ρ c (Proc.devRef .tc main_arg3) = aW1 m c := ((W3_arr m ρ c 4).trans (((dat1 (VW2 m ρ) c).arrAt_in 4 rfl _).trans (A_eq1 (VW2 m ρ) c 4))).trans (W2_arg3 m ρ c)
theorem W3_arg4 : W3 m ρ c (Proc.devRef .tc main_arg4) = aW2 m c := ((W3_arr m ρ c 5).trans (((dat1 (VW2 m ρ) c).arrAt_in 5 rfl _).trans (A_eq1 (VW2 m ρ) c 5))).trans (W2_arg4 m ρ c)
theorem W3_v0_0 : W3 m ρ c (Proc.devRef .tc main_v0_0) = k0_pay1 (F := Ideal) (aX m c) (aW0 m c) := ((W3_arr m ρ c 1).trans (((dat1 (VW2 m ρ) c).arrAt_in 1 rfl _).trans (A_eq1 (VW2 m ρ) c 1))).trans (W2_v0_0 m ρ c)
theorem W3_v4 : W3 m ρ c (Proc.devRef .tc main_v4) = lossT (k0_pay3 (F := Ideal) (aX m c) (aW0 m c) (aW1 m c) (aW2 m c)) (aY m c) :=
  (W3_of_ne m ρ c main_v4 (by decide)).trans (W2_v4 m ρ c)
theorem W3_v5_0 : W3 m ρ c (Proc.devRef .tc main_v5_0) = G1_6 (VW2 m ρ) c := (W3_arr m ρ c 6).trans (final1_6 (VW2 m ρ) c)
theorem W3_v5_1 : W3 m ρ c (Proc.devRef .tc main_v5_1) = G1_7 (VW2 m ρ) c := (W3_arr m ρ c 7).trans (final1_7 (VW2 m ρ) c)
theorem W3_v5_2 : W3 m ρ c (Proc.devRef .tc main_v5_2) = G1_8 (VW2 m ρ) c := (W3_arr m ρ c 8).trans (final1_8 (VW2 m ρ) c)

/-- The relaxation of all the rows, from the five arguments: the specification's relaxed states. -/
theorem relaxAll_eq : relaxAll (VW2 m ρ) c = Cur (tW1 (aX m c)) (tW2 (aY m c)) (tW1 (aW0 m c)) (tW1 (aW1 m c)) (tW2 (aW2 m c)) := by
  show relax (tW1 (W2 m ρ c (Proc.devRef .tc main_arg3))) (tW2 (W2 m ρ c (Proc.devRef .tc main_arg4)))
      (tW1 (W2 m ρ c (Proc.devRef .tc main_v0_0))) (tW2 (W2 m ρ c (Proc.devRef .tc main_arg1)))
      (tW1 (W2 m ρ c (Proc.devRef .tc main_v0_0)), tW1 (W2 m ρ c (Proc.devRef .tc main_v0_1)), tW2 (W2 m ρ c (Proc.devRef .tc main_v0_2))) = _
  rw [W2_arg3, W2_arg4, W2_v0_0, W2_arg1, W2_v0_1, W2_v0_2, k0_pay1_toM, k0_pay2_toM, k0_pay3_toM]
  rfl

/-! ## After the three weight-gradient kernels -/

theorem W4_v6 : W4 m ρ c (Proc.devRef .tc main_v6) = k2_pay1 (F := Ideal) (aX m c) (k0_pay1 (F := Ideal) (aX m c) (aW0 m c)) (G1_6 (VW2 m ρ) c) := by
  refine ((W4_arr m ρ c 3).trans (final2_3 (VW3 m ρ) c)).trans ?_
  show k2_pay1 (F := Ideal) (W3 m ρ c (Proc.devRef .tc main_arg0)) (W3 m ρ c (Proc.devRef .tc main_v0_0)) (W3 m ρ c (Proc.devRef .tc main_v5_0)) = _
  rw [W3_arg0, W3_v0_0, W3_v5_0]
theorem W4_arg3 : W4 m ρ c (Proc.devRef .tc main_arg3) = aW1 m c := (W4_of_ne m ρ c main_arg3 (by decide)).trans (W3_arg3 m ρ c)
theorem W4_arg4 : W4 m ρ c (Proc.devRef .tc main_arg4) = aW2 m c := (W4_of_ne m ρ c main_arg4 (by decide)).trans (W3_arg4 m ρ c)
theorem W4_v4 : W4 m ρ c (Proc.devRef .tc main_v4) = lossT (k0_pay3 (F := Ideal) (aX m c) (aW0 m c) (aW1 m c) (aW2 m c)) (aY m c) :=
  (W4_of_ne m ρ c main_v4 (by decide)).trans (W3_v4 m ρ c)
theorem W4_v5_0 : W4 m ρ c (Proc.devRef .tc main_v5_0) = G1_6 (VW2 m ρ) c := ((W4_arr m ρ c 2).trans (((dat2 (VW3 m ρ) c).arrAt_in 2 rfl _).trans (A_eq2 (VW3 m ρ) c 2))).trans (W3_v5_0 m ρ c)
theorem W4_v5_1 : W4 m ρ c (Proc.devRef .tc main_v5_1) = G1_7 (VW2 m ρ) c := (W4_of_ne m ρ c main_v5_1 (by decide)).trans (W3_v5_1 m ρ c)
theorem W4_v5_2 : W4 m ρ c (Proc.devRef .tc main_v5_2) = G1_8 (VW2 m ρ) c := (W4_of_ne m ρ c main_v5_2 (by decide)).trans (W3_v5_2 m ρ c)

theorem W5_v7 : W5 m ρ c (Proc.devRef .tc main_v7) = k3_pay1 (F := Ideal) (G1_6 (VW2 m ρ) c) (aW1 m c) (G1_7 (VW2 m ρ) c) := by
  refine ((W5_arr m ρ c 3).trans (final3_3 (VW4 m ρ) c)).trans ?_
  show k3_pay1 (F := Ideal) (W4 m ρ c (Proc.devRef .tc main_v5_0)) (W4 m ρ c (Proc.devRef .tc main_arg3)) (W4 m ρ c (Proc.devRef .tc main_v5_1)) = _
  rw [W4_v5_0, W4_arg3, W4_v5_1]
theorem W5_v6 : W5 m ρ c (Proc.devRef .tc main_v6) = k2_pay1 (F := Ideal) (aX m c) (k0_pay1 (F := Ideal) (aX m c) (aW0 m c)) (G1_6 (VW2 m ρ) c) :=
  (W5_of_ne m ρ c main_v6 (by decide)).trans (W4_v6 m ρ c)
theorem W5_arg4 : W5 m ρ c (Proc.devRef .tc main_arg4) = aW2 m c := (W5_of_ne m ρ c main_arg4 (by decide)).trans (W4_arg4 m ρ c)
theorem W5_v4 : W5 m ρ c (Proc.devRef .tc main_v4) = lossT (k0_pay3 (F := Ideal) (aX m c) (aW0 m c) (aW1 m c) (aW2 m c)) (aY m c) :=
  (W5_of_ne m ρ c main_v4 (by decide)).trans (W4_v4 m ρ c)
theorem W5_v5_1 : W5 m ρ c (Proc.devRef .tc main_v5_1) = G1_7 (VW2 m ρ) c := ((W5_arr m ρ c 2).trans (((dat3 (VW4 m ρ) c).arrAt_in 2 rfl _).trans (A_eq3 (VW4 m ρ) c 2))).trans (W4_v5_1 m ρ c)
theorem W5_v5_2 : W5 m ρ c (Proc.devRef .tc main_v5_2) = G1_8 (VW2 m ρ) c := (W5_of_ne m ρ c main_v5_2 (by decide)).trans (W4_v5_2 m ρ c)

theorem W6_v8 : W6 m ρ c (Proc.devRef .tc main_v8) = k4_pay1 (F := Ideal) (G1_7 (VW2 m ρ) c) (aW2 m c) (G1_8 (VW2 m ρ) c) := by
  refine ((W6_arr m ρ c 3).trans (final4_3 (VW5 m ρ) c)).trans ?_
  show k4_pay1 (F := Ideal) (W5 m ρ c (Proc.devRef .tc main_v5_1)) (W5 m ρ c (Proc.devRef .tc main_arg4)) (W5 m ρ c (Proc.devRef .tc main_v5_2)) = _
  rw [W5_v5_1, W5_arg4, W5_v5_2]
theorem W6_v6 : W6 m ρ c (Proc.devRef .tc main_v6) = k2_pay1 (F := Ideal) (aX m c) (k0_pay1 (F := Ideal) (aX m c) (aW0 m c)) (G1_6 (VW2 m ρ) c) :=
  (W6_of_ne m ρ c main_v6 (by decide)).trans (W5_v6 m ρ c)
theorem W6_v7 : W6 m ρ c (Proc.devRef .tc main_v7) = k3_pay1 (F := Ideal) (G1_6 (VW2 m ρ) c) (aW1 m c) (G1_7 (VW2 m ρ) c) :=
  (W6_of_ne m ρ c main_v7 (by decide)).trans (W5_v7 m ρ c)
theorem W6_v4 : W6 m ρ c (Proc.devRef .tc main_v4) = lossT (k0_pay3 (F := Ideal) (aX m c) (aW0 m c) (aW1 m c) (aW2 m c)) (aY m c) :=
  (W6_of_ne m ρ c main_v4 (by decide)).trans (W5_v4 m ρ c)

/-! ## The pieces as the specification's matrices -/

/-- A result array of the relaxation kernel, read as a matrix, is its component of the relaxed states. -/
theorem G1_6_toM : tW1 (G1_6 (VW2 m ρ) c) = (Cur (tW1 (aX m c)) (tW2 (aY m c)) (tW1 (aW0 m c)) (tW1 (aW1 m c)) (tW2 (aW2 m c))).1 := by
  rw [← relaxAll_eq m ρ c]; exact toM_ofM _
theorem G1_7_toM : tW1 (G1_7 (VW2 m ρ) c) = (Cur (tW1 (aX m c)) (tW2 (aY m c)) (tW1 (aW0 m c)) (tW1 (aW1 m c)) (tW2 (aW2 m c))).2.1 := by
  rw [← relaxAll_eq m ρ c]; exact toM_ofM _
theorem G1_8_toM : tW2 (G1_8 (VW2 m ρ) c) = (Cur (tW1 (aX m c)) (tW2 (aY m c)) (tW1 (aW0 m c)) (tW1 (aW1 m c)) (tW2 (aW2 m c))).2.2 := by
  rw [← relaxAll_eq m ρ c]; exact toM_ofM _

/-- The first weight gradient over the clamping strength. -/
theorem P0_toM : tW1 (W6 m ρ c (Proc.devRef .tc main_v6)) = EP0 (tW1 (aX m c)) (tW2 (aY m c)) (tW1 (aW0 m c)) (tW1 (aW1 m c)) (tW2 (aW2 m c)) := by
  rw [W6_v6, k2_pay1_toM, k0_pay1_toM, G1_6_toM]
  rfl
/-- The second. -/
theorem P1_toM : tW1 (W6 m ρ c (Proc.devRef .tc main_v7)) = EP1 (tW1 (aX m c)) (tW2 (aY m c)) (tW1 (aW0 m c)) (tW1 (aW1 m c)) (tW2 (aW2 m c)) := by
  rw [W6_v7, k3_pay1_toM, G1_6_toM, G1_7_toM]
  rfl
/-- The third. -/
theorem P2_toM : tW2 (W6 m ρ c (Proc.devRef .tc main_v8)) = EP2 (tW1 (aX m c)) (tW2 (aY m c)) (tW1 (aW0 m c)) (tW1 (aW1 m c)) (tW2 (aW2 m c)) := by
  rw [W6_v8, k4_pay1_toM, G1_7_toM, G1_8_toM]
  rfl
/-- The last product of the forward chain, which the loss is computed from. -/
theorem S3_toM : tW2 (k0_pay3 (F := Ideal) (aX m c) (aW0 m c) (aW1 m c) (aW2 m c)) = S3 (tW1 (aX m c)) (tW1 (aW0 m c)) (tW1 (aW1 m c)) (tW2 (aW2 m c)) :=
  k0_pay3_toM _ _ _ _

/-! ## The result -/

/-- @main's result: the four pieces, each flattened, concatenated. -/
theorem W7_v13 : W7 m ρ c (Proc.devRef .tc main_v13)
    = concatenate S2621441 0 [⟨S1048576, shapeCast _ (W6 m ρ c (Proc.devRef .tc main_v6)) shapeCasts_S1024x1024_S1048576⟩,
        ⟨S1048576, shapeCast _ (W6 m ρ c (Proc.devRef .tc main_v7)) shapeCasts_S1024x1024_S1048576⟩,
        ⟨S524288, shapeCast _ (W6 m ρ c (Proc.devRef .tc main_v8)) shapeCasts_S1024x512_S524288⟩,
        ⟨S1, shapeCast _ (W6 m ρ c (Proc.devRef .tc main_v4)) shapeCasts_S_S1⟩] concatenates_S1048576_S1048576_S524288_S1_S2621441_d0 := by
  show StableHlo.after hostOps5 (W6 m ρ c) (Proc.devRef .tc main_v13) = _
  simp only [hostOps5]
  after_results
  rfl

/-! ## The run -/

/-- Every weakly fair execution of the kernel program terminates with its result buffer at the concatenated pieces and
    its five argument arrays as launched. -/
theorem run : θ_run defs (onTc (τ := τ) (main (F := Ideal))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v13 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_main m ρ)

end Cert.KFold

end
-- ==== Proof.Finite.lean ====
/-
  The precondition read back at the extended reals.

  The precondition is the conjunction, over the five float inputs, of "every entry `e` has `|e| < +∞`": each conjunct is
  a reduction by `and`, from the word 1, of the array of comparison words `|e| < +∞`. At the extended reals `|e|` is
  `max e (-e)` and the single-precision pattern of `+∞` denotes `⊤`, so a comparison word 1 says `max e (-e) < ⊤`, which
  excludes `e = ⊤` and `e = ⊥`: the entry is a real number. A reduction by `and` that came out 1 met only 1s, so the
  precondition gives this of every entry of every input.
-/
import proofs.«123206_j75110388073098_2_alg».proof.Pre_finite_inputs
import proofs.«123206_j75110388073098_2_alg».proof.Proof.Spec
import Idealize.ShloMosaic.Lib.ReduceAll
import Idealize.ShloMosaic.PureOps.Ideal.Laws

namespace Cert.Finite

open Idealize.ShloMosaic Idealize.ShloMosaic.ValueIdx

/-- every entry is a real number -/
def IsReal {m n : ℕ} (A : Cert.Spec.Mat m n) : Prop := ∀ a b, ∃ r : ℝ, A a b = (r : EReal)

/-- The single-precision pattern of `+∞` denotes `⊤`. -/
theorem ofBits_inf : Ideal.ofBits .f32 0x7F800000#32 = ⊤ := by simp [Ideal.ofBits, Ideal.ieee]

/-- An extended real whose absolute value `max x (-x)` is below `⊤` is a real number: `⊤` fails by itself, `⊥` by its
    negation. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One comparison word: `|x| < +∞` read as 1 makes `x` a real number. -/
theorem real_of_cmp_one (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  rw [Ideal.hostAbsf_def, Ideal.ofBits_def, Ideal.cmpf_def, Ideal.absf_def, ofBits_inf] at h
  by_contra hn
  simp [Ideal.cmp, hn] at h

/-- The scalar shape has one index. -/
instance : Subsingleton (⟨0, ![]⟩ : Shape).Idx := ⟨fun a b => funext fun d => d.elim0⟩

/-- One conjunct of the precondition: if the reduction by `and` of the words `|v| < +∞` over a whole matrix is 1, every
    entry of the matrix is a real number. -/
theorem real_of_all {m n : ℕ} (v : FVec Ideal ⟨2, ![m, n]⟩ .f32)
    (hb : Shape.BroadcastsInDim ⟨0, ![]⟩ ⟨2, ![m, n]⟩ (![] : Fin 0 → Fin 2))
    (hr : Shape.ReducesTo (⟨2, ![m, n]⟩ : Shape) [0, 1] ⟨0, ![]⟩) (hu : 0 < (⟨0, ![]⟩ : Shape).numel)
    (e : Host.reduce IntOp.andi
      (cmpf .olt (Host.absf v) (broadcastInDim ⟨2, ![m, n]⟩ ![] hb (constant (F := Ideal) ⟨0, ![]⟩ .f32 0x7F800000#32)))
      (constantI ⟨0, ![]⟩ 1 1#1) hr hu ix0 = 1#1) :
    IsReal (Cert.Spec.toM v) := by
  intro a b
  exact real_of_cmp_one (v (ix2 a b)) (Host.reduce_andi_all _ _ hr hu ix0 e (ix2 a b))

open Cert.Pre_finite_inputs in
/-- The precondition at the extended reals: every entry of each of the five inputs is a real number. The predicate is
    `((((p₀ ∧ p₁) ∧ p₂) ∧ p₃) ∧ p₄)` with `pₖ` the reduction by `and` for the `k`-th input; the conjunction is split from
    the outside in and each conjunct read by `real_of_all`. -/
theorem real_of_pre [Cert.Pre_finite_inputs.Facts]
    (x : FVec Ideal Cert.Pre_finite_inputs.S1024x1024 .f32) (y : FVec Ideal Cert.Pre_finite_inputs.S1024x512 .f32)
    (w0 w1 : FVec Ideal Cert.Pre_finite_inputs.S1024x1024 .f32) (w2 : FVec Ideal Cert.Pre_finite_inputs.S1024x512 .f32)
    (h : Cert.Pre_finite_inputs.fn (F := Ideal) x y w0 w1 w2 = fun _ => 1#1) :
    IsReal (Cert.Spec.toM (m := 1024) (n := 1024) (φ := .f32) x)
      ∧ IsReal (Cert.Spec.toM (m := 1024) (n := 512) (φ := .f32) y)
      ∧ IsReal (Cert.Spec.toM (m := 1024) (n := 1024) (φ := .f32) w0)
      ∧ IsReal (Cert.Spec.toM (m := 1024) (n := 1024) (φ := .f32) w1)
      ∧ IsReal (Cert.Spec.toM (m := 1024) (n := 512) (φ := .f32) w2) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x _ _ _ h0', real_of_all y _ _ _ h1, real_of_all w0 _ _ _ h2, real_of_all w1 _ _ _ h3,
    real_of_all w2 _ _ _ h4⟩

end Cert.Finite
-- ==== Proof.RefRead.lean ====
/-
  The reference program's array operations read as matrix operations on the extended reals.

  An array of rank two is a matrix (`Cert.Spec.toM`). Read this way, the pointwise operations of the program act entry
  by entry, a broadcast literal is the constant matrix of its value, and the three forms in which the program writes a
  product (plain; with the right operand transposed; with the left operand transposed) are the three contractions
  `A·B`, `A·Bᵀ`, `Aᵀ·B` of the specification. With these, the three arrays one relaxation step of the program
  produces from the three before it are the three components of the specification's step.
-/
import proofs.«123206_j75110388073098_2_alg».proof.Proof.Spec
import proofs.«123206_j75110388073098_2_alg».proof.Proof.LibPlainDot
import proofs.«123206_j75110388073098_2_alg».proof.Proof.Gen.ReferenceIdeal

noncomputable section

namespace Cert.RefValue

open Idealize.ShloMosaic Idealize.ShloMosaic.ValueIdx Cert.Spec Cert.ReferenceIdeal Cert.ReferenceIdeal.Gen

/-- A 1024 × 1024 array of the program. -/
abbrev Sq : Type := FVec Ideal ⟨2, ![1024, 1024]⟩ .f32
/-- A 1024 × 512 array of the program. -/
abbrev Rc : Type := FVec Ideal ⟨2, ![1024, 512]⟩ .f32

/-! ## Pointwise operations, entry by entry -/

section Pointwise
variable {m n : ℕ} {φ : FTy}

theorem toM_subf (A B : FVec Ideal ⟨2, ![m, n]⟩ φ) : toM (subf A B) = fun a b => toM A a b - toM B a b := rfl
theorem toM_addf (A B : FVec Ideal ⟨2, ![m, n]⟩ φ) : toM (addf A B) = fun a b => toM A a b + toM B a b := rfl
theorem toM_mulf (A B : FVec Ideal ⟨2, ![m, n]⟩ φ) : toM (mulf A B) = fun a b => toM A a b * toM B a b := rfl
theorem toM_hostDivf (A B : FVec Ideal ⟨2, ![m, n]⟩ φ) :
    toM (Host.divf A B) = fun a b => Ideal.div (toM A a b) (toM B a b) := rfl

/-- A literal broadcast to a matrix is the constant matrix of its value (whatever the axis map: a scalar has no axes). -/
theorem toM_bcast (d : Fin (⟨0, ![]⟩ : Shape).rank → Fin (⟨2, ![m, n]⟩ : Shape).rank)
    (h : (⟨0, ![]⟩ : Shape).BroadcastsInDim ⟨2, ![m, n]⟩ d) (lit : BitVec 32) :
    toM (broadcastInDim ⟨2, ![m, n]⟩ d h (constant (F := Ideal) ⟨0, ![]⟩ .f32 lit)) = fun _ _ => Ideal.ofBits .f32 lit := rfl

/-- A literal times a matrix. -/
theorem toM_scale (d : Fin (⟨0, ![]⟩ : Shape).rank → Fin (⟨2, ![m, n]⟩ : Shape).rank)
    (h : (⟨0, ![]⟩ : Shape).BroadcastsInDim ⟨2, ![m, n]⟩ d) (lit : BitVec 32) (A : FVec Ideal ⟨2, ![m, n]⟩ .f32) :
    toM (mulf (broadcastInDim ⟨2, ![m, n]⟩ d h (constant (F := Ideal) ⟨0, ![]⟩ .f32 lit)) A)
      = fun a b => Ideal.ofBits .f32 lit * toM A a b := rfl

/-- A matrix over a literal. -/
theorem toM_over (d : Fin (⟨0, ![]⟩ : Shape).rank → Fin (⟨2, ![m, n]⟩ : Shape).rank)
    (h : (⟨0, ![]⟩ : Shape).BroadcastsInDim ⟨2, ![m, n]⟩ d) (lit : BitVec 32) (A : FVec Ideal ⟨2, ![m, n]⟩ .f32) :
    toM (Host.divf A (broadcastInDim ⟨2, ![m, n]⟩ d h (constant (F := Ideal) ⟨0, ![]⟩ .f32 lit)))
      = fun a b => Ideal.div (toM A a b) (Ideal.ofBits .f32 lit) := rfl

end Pointwise

/-! ## The three forms of a product -/

section Products
variable {m k n : ℕ} {φ₁ φ₂ : FTy}

/-- A plain product is `A·B`. -/
theorem toM_dot (A : FVec Ideal ⟨2, ![m, k]⟩ φ₁) (B : FVec Ideal ⟨2, ![k, n]⟩ φ₂) :
    toM (Host.dotGeneral (F := Ideal) (DotDims.plain m k n) none A B) = mm (toM A) (toM B) := by
  funext a b
  exact StackMember.dotGeneral_plain_apply none A B a b

/-- A plain product whose right operand is a transpose is `A·Bᵀ`. -/
theorem toM_dot_rT (A : FVec Ideal ⟨2, ![m, k]⟩ φ₁) (B : FVec Ideal ⟨2, ![n, k]⟩ φ₂)
    (h : (⟨2, ![n, k]⟩ : Shape).Transposes [1, 0] ⟨2, ![k, n]⟩) :
    toM (Host.dotGeneral (F := Ideal) (DotDims.plain m k n) none A (transpose ⟨2, ![k, n]⟩ [1, 0] B h)) = mmT (toM A) (toM B) := by
  funext a b
  exact Cert.LibPlainDot.dotGeneral_plain_transposed_apply none A B h a b

/-- A plain product whose left operand is a transpose is `Aᵀ·B`. -/
theorem toM_dot_lT (A : FVec Ideal ⟨2, ![k, m]⟩ φ₁) (B : FVec Ideal ⟨2, ![k, n]⟩ φ₂)
    (h : (⟨2, ![k, m]⟩ : Shape).Transposes [1, 0] ⟨2, ![m, k]⟩) :
    toM (Host.dotGeneral (F := Ideal) (DotDims.plain m k n) none (transpose ⟨2, ![m, k]⟩ [1, 0] A h) B) = mTm (toM A) (toM B) := by
  funext a b
  refine (StackMember.dotGeneral_plain_apply none _ B a b).trans ?_
  exact Finset.sum_congr rfl fun c _ => congrArg (· * B (ix2 c b)) (transpose_ix2_apply A h a c)

end Products

end Cert.RefValue

end
-- ==== Proof.RefStep.lean ====
/-
  One relaxation step of the reference program is the specification's step.

  The program writes a step as three arrays built from the three states before it, the input, the target and the three
  weight matrices. Here those three arrays are named as functions of their operands, once for the first (coupled) step
  and once for the nineteen plain ones, and read as matrices: they are the three components of `Cert.Spec.step`, with
  the first state's anchor `x·W₀` recomputed inside the step as the program does.
-/
import proofs.«123206_j75110388073098_2_alg».proof.Proof.RefRead

noncomputable section

namespace Cert.RefValue

open Idealize.ShloMosaic Idealize.ShloMosaic.ValueIdx Cert.Spec Cert.ReferenceIdeal Cert.ReferenceIdeal.Gen

/-! ## The program's own products

The program's three product records have the dimension numbers of the plain product, so the general readings apply.
The products with a transposed operand are named, so that a step's term mentions a transpose only through them. -/

/-- `A·Bᵀ` as the program writes it, for two 1024 × 1024 arrays. -/
def mulT_SS (A B : Sq) : Sq :=
  Host.dotGeneral dot_S1024x1024_S1024x1024_S1024x1024_1_0_0_1_n_n none A (transpose S1024x1024 [1, 0] B transposes_S1024x1024_S1024x1024_1_0)
/-- `A·Bᵀ` as the program writes it, for two 1024 × 512 arrays. -/
def mulT_RR (A B : Rc) : Sq :=
  Host.dotGeneral dot_S1024x512_S512x1024_S1024x1024_1_0_0_1_n_n none A (transpose S512x1024 [1, 0] B transposes_S1024x512_S512x1024_1_0)
/-- `Aᵀ·B` as the program writes it, for two 1024 × 1024 arrays. -/
def Tmul_SS (A B : Sq) : Sq :=
  Host.dotGeneral dot_S1024x1024_S1024x1024_S1024x1024_1_0_0_1_n_n none (transpose S1024x1024 [1, 0] A transposes_S1024x1024_S1024x1024_1_0) B
/-- `Aᵀ·B` as the program writes it, for a 1024 × 1024 and a 1024 × 512 array. -/
def Tmul_SR (A : Sq) (B : Rc) : Rc :=
  Host.dotGeneral dot_S1024x1024_S1024x512_S1024x512_1_0_0_1_n_n none (transpose S1024x1024 [1, 0] A transposes_S1024x1024_S1024x1024_1_0) B

theorem toM_dotSS (A B : Sq) :
    toM (Host.dotGeneral dot_S1024x1024_S1024x1024_S1024x1024_1_0_0_1_n_n none A B) = mm (toM A) (toM B) := toM_dot A B
theorem toM_dotSR (A : Sq) (B : Rc) :
    toM (Host.dotGeneral dot_S1024x1024_S1024x512_S1024x512_1_0_0_1_n_n none A B) = mm (toM A) (toM B) := toM_dot A B
theorem toM_mulT_SS (A B : Sq) : toM (mulT_SS A B) = mmT (toM A) (toM B) := toM_dot_rT A B _
theorem toM_mulT_RR (A B : Rc) : toM (mulT_RR A B) = mmT (toM A) (toM B) := toM_dot_rT A B _
theorem toM_Tmul_SS (A B : Sq) : toM (Tmul_SS A B) = mTm (toM A) (toM B) := toM_dot_lT A B _
theorem toM_Tmul_SR (A : Sq) (B : Rc) : toM (Tmul_SR A B) = mTm (toM A) (toM B) := toM_dot_lT A B _

/-! ## A plain step -/

/-- The first state after a plain step. -/
def refStep1 (x W0 W1 c1 c2 : Sq) : Sq :=
  subf c1 (mulf (broadcastInDim S1024x1024 ![] bcast_S_S1024x1024 (constant S_ .f32 0x3F000000#32)) (subf (subf c1 (Host.dotGeneral dot_S1024x1024_S1024x1024_S1024x1024_1_0_0_1_n_n none x W0)) (mulT_SS (subf c2 (Host.dotGeneral dot_S1024x1024_S1024x1024_S1024x1024_1_0_0_1_n_n none c1 W1)) W1)))

/-- The second state after a plain step. -/
def refStep2 (W1 : Sq) (W2 : Rc) (c1 c2 : Sq) (c3 : Rc) : Sq :=
  subf c2 (mulf (broadcastInDim S1024x1024 ![] bcast_S_S1024x1024 (constant S_ .f32 0x3F000000#32)) (subf (subf c2 (Host.dotGeneral dot_S1024x1024_S1024x1024_S1024x1024_1_0_0_1_n_n none c1 W1)) (mulT_RR (subf c3 (Host.dotGeneral dot_S1024x1024_S1024x512_S1024x512_1_0_0_1_n_n none c2 W2)) W2)))

/-- The third state after a plain step. -/
def refStep3 (W2 y : Rc) (c2 : Sq) (c3 : Rc) : Rc :=
  subf c3 (mulf (broadcastInDim S1024x512 ![] bcast_S_S1024x512 (constant S_ .f32 0x3F000000#32)) (addf (subf c3 (Host.dotGeneral dot_S1024x1024_S1024x512_S1024x512_1_0_0_1_n_n none c2 W2)) (mulf (broadcastInDim S1024x512 ![] bcast_S_S1024x512 (constant S_ .f32 0x3A83126F#32)) (subf c3 y))))

theorem toM_refStep1 (x W0 W1 : Sq) (W2 y : Rc) (c1 c2 : Sq) (c3 : Rc) :
    toM (refStep1 x W0 W1 c1 c2)
      = (step false (toM W1) (toM W2) (mm (toM x) (toM W0)) (toM y) (toM c1, toM c2, toM c3)).1 := by
  unfold refStep1
  simp only [toM_subf, toM_scale, toM_dotSS, toM_mulT_SS]
  rfl

theorem toM_refStep2 (x W0 W1 : Sq) (W2 y : Rc) (c1 c2 : Sq) (c3 : Rc) :
    toM (refStep2 W1 W2 c1 c2 c3)
      = (step false (toM W1) (toM W2) (mm (toM x) (toM W0)) (toM y) (toM c1, toM c2, toM c3)).2.1 := by
  unfold refStep2
  simp only [toM_subf, toM_scale, toM_dotSS, toM_dotSR, toM_mulT_RR]
  rfl

theorem toM_refStep3 (x W0 W1 : Sq) (W2 y : Rc) (c1 c2 : Sq) (c3 : Rc) :
    toM (refStep3 W2 y c2 c3)
      = (step false (toM W1) (toM W2) (mm (toM x) (toM W0)) (toM y) (toM c1, toM c2, toM c3)).2.2 := by
  unfold refStep3
  simp only [toM_subf, toM_addf, toM_scale, toM_dotSR]
  rfl

/-! ## The coupled step -/

/-- The third state's gradient `r₂ + β·(c₃ − y)`. -/
def refG3 (W2 y : Rc) (c2 : Sq) (c3 : Rc) : Rc :=
  addf (subf c3 (Host.dotGeneral dot_S1024x1024_S1024x512_S1024x512_1_0_0_1_n_n none c2 W2)) (mulf (broadcastInDim S1024x512 ![] bcast_S_S1024x512 (constant S_ .f32 0x3A83126F#32)) (subf c3 y))

/-- The second state's coupled gradient: its own, plus the third's carried back through `W₂ᵀ`. -/
def refG2 (W1 : Sq) (W2 y : Rc) (c1 c2 : Sq) (c3 : Rc) : Sq :=
  addf (subf (subf c2 (Host.dotGeneral dot_S1024x1024_S1024x1024_S1024x1024_1_0_0_1_n_n none c1 W1)) (mulT_RR (subf c3 (Host.dotGeneral dot_S1024x1024_S1024x512_S1024x512_1_0_0_1_n_n none c2 W2)) W2)) (mulT_RR (refG3 W2 y c2 c3) W2)

/-- The first state after the coupled step. -/
def refCoupled1 (x W0 W1 : Sq) (W2 y : Rc) (c1 c2 : Sq) (c3 : Rc) : Sq :=
  subf c1 (mulf (broadcastInDim S1024x1024 ![] bcast_S_S1024x1024 (constant S_ .f32 0x3F000000#32)) (addf (subf (subf c1 (Host.dotGeneral dot_S1024x1024_S1024x1024_S1024x1024_1_0_0_1_n_n none x W0)) (mulT_SS (subf c2 (Host.dotGeneral dot_S1024x1024_S1024x1024_S1024x1024_1_0_0_1_n_n none c1 W1)) W1)) (mulT_SS (refG2 W1 W2 y c1 c2 c3) W1)))

/-- The second state after the coupled step. -/
def refCoupled2 (W1 : Sq) (W2 y : Rc) (c1 c2 : Sq) (c3 : Rc) : Sq :=
  subf c2 (mulf (broadcastInDim S1024x1024 ![] bcast_S_S1024x1024 (constant S_ .f32 0x3F000000#32)) (refG2 W1 W2 y c1 c2 c3))

/-- The third state after the coupled step. -/
def refCoupled3 (W2 y : Rc) (c2 : Sq) (c3 : Rc) : Rc :=
  subf c3 (mulf (broadcastInDim S1024x512 ![] bcast_S_S1024x512 (constant S_ .f32 0x3F000000#32)) (refG3 W2 y c2 c3))

theorem toM_refCoupled1 (x W0 W1 : Sq) (W2 y : Rc) (c1 c2 : Sq) (c3 : Rc) :
    toM (refCoupled1 x W0 W1 W2 y c1 c2 c3)
      = (step true (toM W1) (toM W2) (mm (toM x) (toM W0)) (toM y) (toM c1, toM c2, toM c3)).1 := by
  unfold refCoupled1 refG2 refG3
  simp only [toM_subf, toM_addf, toM_scale, toM_dotSS, toM_dotSR, toM_mulT_SS, toM_mulT_RR]
  rfl

theorem toM_refCoupled2 (x W0 W1 : Sq) (W2 y : Rc) (c1 c2 : Sq) (c3 : Rc) :
    toM (refCoupled2 W1 W2 y c1 c2 c3)
      = (step true (toM W1) (toM W2) (mm (toM x) (toM W0)) (toM y) (toM c1, toM c2, toM c3)).2.1 := by
  unfold refCoupled2 refG2 refG3
  simp only [toM_subf, toM_addf, toM_scale, toM_dotSS, toM_dotSR, toM_mulT_RR]
  rfl

theorem toM_refCoupled3 (x W0 W1 : Sq) (W2 y : Rc) (c1 c2 : Sq) (c3 : Rc) :
    toM (refCoupled3 W2 y c2 c3)
      = (step true (toM W1) (toM W2) (mm (toM x) (toM W0)) (toM y) (toM c1, toM c2, toM c3)).2.2 := by
  unfold refCoupled3 refG3
  simp only [toM_subf, toM_addf, toM_scale, toM_dotSR]
  rfl

/-! ## The three states together -/

/-- Three arrays of the program. -/
abbrev Arr3 : Type := Sq × Sq × Rc

/-- Three arrays read as the specification's state. -/
def toS (c : Arr3) : State 1024 := (toM c.1, toM c.2.1, toM c.2.2)

/-- A plain step of the program on the three arrays. -/
def refStep (x W0 W1 : Sq) (W2 y : Rc) (c : Arr3) : Arr3 :=
  (refStep1 x W0 W1 c.1 c.2.1, refStep2 W1 W2 c.1 c.2.1 c.2.2, refStep3 W2 y c.2.1 c.2.2)

/-- The coupled step of the program on the three arrays. -/
def refCoupled (x W0 W1 : Sq) (W2 y : Rc) (c : Arr3) : Arr3 :=
  (refCoupled1 x W0 W1 W2 y c.1 c.2.1 c.2.2, refCoupled2 W1 W2 y c.1 c.2.1 c.2.2, refCoupled3 W2 y c.2.1 c.2.2)

/-- A plain step of the program is the specification's plain step. -/
theorem toS_refStep (x W0 W1 : Sq) (W2 y : Rc) (c : Arr3) :
    toS (refStep x W0 W1 W2 y c) = step false (toM W1) (toM W2) (mm (toM x) (toM W0)) (toM y) (toS c) :=
  Prod.ext (toM_refStep1 x W0 W1 W2 y c.1 c.2.1 c.2.2)
    (Prod.ext (toM_refStep2 x W0 W1 W2 y c.1 c.2.1 c.2.2) (toM_refStep3 x W0 W1 W2 y c.1 c.2.1 c.2.2))

/-- The coupled step of the program is the specification's coupled step. -/
theorem toS_refCoupled (x W0 W1 : Sq) (W2 y : Rc) (c : Arr3) :
    toS (refCoupled x W0 W1 W2 y c) = step true (toM W1) (toM W2) (mm (toM x) (toM W0)) (toM y) (toS c) :=
  Prod.ext (toM_refCoupled1 x W0 W1 W2 y c.1 c.2.1 c.2.2)
    (Prod.ext (toM_refCoupled2 x W0 W1 W2 y c.1 c.2.1 c.2.2) (toM_refCoupled3 x W0 W1 W2 y c.1 c.2.1 c.2.2))

end Cert.RefValue

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.RefGrad.lean ====
/-
  The three weight-gradient quotients of the reference program.

  The program forms each weight gradient twice, once at the relaxed states and once along the forward chain, subtracts
  the second from the first and divides by the clamping strength. Along the forward chain the residual is a matrix
  `Z − Z` whose two terms are the same product computed twice; when its entries are real numbers it is zero, its
  contraction with anything is zero, and the quotient is the relaxed states' gradient over the clamping strength. A
  product of matrices with real entries has real entries, so this holds whenever the program's inputs are real.
-/
import proofs.«123206_j75110388073098_2_alg».proof.Proof.RefStep
import proofs.«123206_j75110388073098_2_alg».proof.Proof.LibERealCoe

noncomputable section

namespace Cert.RefValue

open Idealize.ShloMosaic Idealize.ShloMosaic.ValueIdx Cert.Spec Cert.ReferenceIdeal Cert.ReferenceIdeal.Gen

/-! ## Real entries -/

/-- A product of two matrices with real entries has real entries. -/
theorem mm_real {m k n : ℕ} (A : Mat m k) (B : Mat k n) (hA : ∀ a b, ∃ r : ℝ, A a b = (r : EReal))
    (hB : ∀ a b, ∃ r : ℝ, B a b = (r : EReal)) : ∀ a b, ∃ r : ℝ, mm A B a b = (r : EReal) := by
  choose f hf using hA
  choose g hg using hB
  intro a b
  refine ⟨∑ c, f a c * g c b, ?_⟩
  rw [Cert.LibERealCoe.coe_sum]
  refine Finset.sum_congr rfl fun c _ => ?_
  rw [hf, hg, EReal.coe_mul]

/-- A matrix with real entries minus itself, contracted with anything on the first axis, is zero. -/
theorem mTm_sub_self {k m n : ℕ} (A : Mat k m) (Z : Mat k n) (hZ : ∀ a b, ∃ r : ℝ, Z a b = (r : EReal)) :
    mTm A (fun p q => Z p q - Z p q) = fun _ _ => 0 := by
  funext a b
  refine Finset.sum_eq_zero fun c _ => ?_
  obtain ⟨r, hr⟩ := hZ c b
  show A c a * (Z c b - Z c b) = 0
  rw [hr, ← EReal.coe_sub, sub_self, EReal.coe_zero, mul_zero]

/-! ## The quotients, as functions of their operands -/

/-- The first layer's quotient: relaxed first state `c1`, forward first state `s1`. -/
def refEP0 (x W0 c1 s1 : Sq) : Sq :=
  Host.divf (subf (Tmul_SS x (subf (Host.dotGeneral dot_S1024x1024_S1024x1024_S1024x1024_1_0_0_1_n_n none x W0) c1)) (Tmul_SS x (subf (Host.dotGeneral dot_S1024x1024_S1024x1024_S1024x1024_1_0_0_1_n_n none x W0) s1))) (broadcastInDim S1024x1024 ![] bcast_S_S1024x1024 (constant S_ .f32 0x3A83126F#32))

/-- The second layer's quotient: relaxed states `c1 c2`, forward states `s1 s2`. -/
def refEP1 (W1 c1 c2 s1 s2 : Sq) : Sq :=
  Host.divf (subf (Tmul_SS c1 (subf (Host.dotGeneral dot_S1024x1024_S1024x1024_S1024x1024_1_0_0_1_n_n none c1 W1) c2)) (Tmul_SS s1 (subf (Host.dotGeneral dot_S1024x1024_S1024x1024_S1024x1024_1_0_0_1_n_n none s1 W1) s2))) (broadcastInDim S1024x1024 ![] bcast_S_S1024x1024 (constant S_ .f32 0x3A83126F#32))

/-- The third layer's quotient: relaxed states `c2 c3`, forward states `s2 s3`. -/
def refEP2 (W2 : Rc) (c2 : Sq) (c3 : Rc) (s2 : Sq) (s3 : Rc) : Rc :=
  Host.divf (subf (Tmul_SR c2 (subf (Host.dotGeneral dot_S1024x1024_S1024x512_S1024x512_1_0_0_1_n_n none c2 W2) c3)) (Tmul_SR s2 (subf (Host.dotGeneral dot_S1024x1024_S1024x512_S1024x512_1_0_0_1_n_n none s2 W2) s3))) (broadcastInDim S1024x512 ![] bcast_S_S1024x512 (constant S_ .f32 0x3A83126F#32))

/-- With the forward first state the product `x·W₀` itself and real inputs, the first quotient is `xᵀ·(s₁ − c₁) / β`. -/
theorem toM_refEP0 (x W0 c1 : Sq) (hx : ∀ a b, ∃ r : ℝ, toM x a b = (r : EReal))
    (hW0 : ∀ a b, ∃ r : ℝ, toM W0 a b = (r : EReal)) :
    toM (refEP0 x W0 c1 (Host.dotGeneral dot_S1024x1024_S1024x1024_S1024x1024_1_0_0_1_n_n none x W0))
      = ep0 (toM x) (mm (toM x) (toM W0)) (toM c1) := by
  unfold refEP0
  simp only [toM_over, toM_subf, toM_Tmul_SS, toM_dotSS]
  rw [mTm_sub_self _ _ (mm_real _ _ hx hW0)]
  simp only [sub_zero]
  rfl

/-- With the forward second state the product `s₁·W₁` itself and `s₁·W₁` real, the second quotient is
    `c₁ᵀ·(c₁·W₁ − c₂) / β`. -/
theorem toM_refEP1 (W1 c1 c2 s1 : Sq) (hs : ∀ a b, ∃ r : ℝ, mm (toM s1) (toM W1) a b = (r : EReal)) :
    toM (refEP1 W1 c1 c2 s1 (Host.dotGeneral dot_S1024x1024_S1024x1024_S1024x1024_1_0_0_1_n_n none s1 W1))
      = ep1 (toM c1) (toM W1) (toM c2) := by
  unfold refEP1
  simp only [toM_over, toM_subf, toM_Tmul_SS, toM_dotSS]
  rw [mTm_sub_self _ _ hs]
  simp only [sub_zero]
  rfl

/-- With the forward third state the product `s₂·W₂` itself and `s₂·W₂` real, the third quotient is
    `c₂ᵀ·(c₂·W₂ − c₃) / β`. -/
theorem toM_refEP2 (W2 : Rc) (c2 : Sq) (c3 : Rc) (s2 : Sq)
    (hs : ∀ a b, ∃ r : ℝ, mm (toM s2) (toM W2) a b = (r : EReal)) :
    toM (refEP2 W2 c2 c3 s2 (Host.dotGeneral dot_S1024x1024_S1024x512_S1024x512_1_0_0_1_n_n none s2 W2))
      = ep2 (toM c2) (toM W2) (toM c3) := by
  unfold refEP2
  simp only [toM_over, toM_subf, toM_Tmul_SR, toM_dotSR]
  rw [mTm_sub_self _ _ hs]
  simp only [sub_zero]
  rfl

end Cert.RefValue

end
-- ==== Proof.RefChain.lean ====
/-
  The reference program's relaxation, one step from the names of the step before.

  The run of the program names the three states after every step. Each plain step's three arrays are, by unfolding one
  name, the step terms of the arrays one step earlier; so if the earlier three read as `n` plain steps of the
  specification from some state, the later three read as `n + 1`. The start is the specification's coupled step of the
  forward chain, which the program also computes by its own three products.
-/
import proofs.«123206_j75110388073098_2_alg».proof.Proof.RefGrad
import proofs.«123206_j75110388073098_2_alg».proof.Proof.Gen.ReferenceIdeal.Run

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.ReferenceIdeal.Value

variable (V0 : Valuation τ sig (Elt Ideal))

-- The input, the target and the three weight matrices, as arrays; reading an array of either shape as a matrix.
set_option quotPrecheck false in
local notation "aX" => (V0 (Proc.devRef .tc main_arg0) : Sq)
set_option quotPrecheck false in
local notation "aY" => (V0 (Proc.devRef .tc main_arg1) : Rc)
set_option quotPrecheck false in
local notation "aW0" => (V0 (Proc.devRef .tc main_arg2) : Sq)
set_option quotPrecheck false in
local notation "aW1" => (V0 (Proc.devRef .tc main_arg3) : Sq)
set_option quotPrecheck false in
local notation "aW2" => (V0 (Proc.devRef .tc main_arg4) : Rc)
set_option quotPrecheck false in
local notation "toMS" => toM (m := 1024) (n := 1024) (φ := .f32)
set_option quotPrecheck false in
local notation "toMR" => toM (m := 1024) (n := 512) (φ := .f32)

/-! ## One step from the names of the step before -/

/-- If three arrays are the plain step's terms of three others, and those read as `n` plain steps of the specification
    from `init`, the three read as `n + 1`. -/
theorem toS_of_step {x W0 W1 : Sq} {W2 y : Rc} {c1 c2 : Sq} {c3 : Rc} {a b : Sq} {d : Rc}
    (h1 : a = refStep1 x W0 W1 c1 c2) (h2 : b = refStep2 W1 W2 c1 c2 c3) (h3 : d = refStep3 W2 y c2 c3)
    {n : ℕ} {init : State 1024}
    (hc : toS (c1, c2, c3) = (step false (toM W1) (toM W2) (mm (toM x) (toM W0)) (toM y))^[n] init) :
    toS (a, b, d) = (step false (toM W1) (toM W2) (mm (toM x) (toM W0)) (toM y))^[n + 1] init := by
  subst h1 h2 h3
  rw [Function.iterate_succ_apply', ← hc]
  exact toS_refStep x W0 W1 W2 y (c1, c2, c3)

/-! ## The coupled step -/

theorem v34_eq : res_main_v34 V0 = refCoupled1 aX aW0 aW1 aW2 aY (res_main_v3 V0) (res_main_v4 V0) (res_main_v5 V0) := rfl
theorem v37_eq : res_main_v37 V0 = refCoupled2 aW1 aW2 aY (res_main_v3 V0) (res_main_v4 V0) (res_main_v5 V0) := rfl
theorem v40_eq : res_main_v40 V0 = refCoupled3 aW2 aY (res_main_v4 V0) (res_main_v5 V0) := rfl

/-- The specification's plain step at the program's inputs. -/
def plain : State 1024 → State 1024 := step false (toMS aW1) (toMR aW2) (mm (toMS aX) (toMS aW0)) (toMR aY)

/-- The specification's coupled step of the forward chain as the program computes it. -/
def start : State 1024 :=
  step true (toMS aW1) (toMR aW2) (mm (toMS aX) (toMS aW0)) (toMR aY) (toS (res_main_v3 V0, res_main_v4 V0, res_main_v5 V0))

theorem after1 : toS (res_main_v34 V0, res_main_v37 V0, res_main_v40 V0) = (plain V0)^[0] (start V0) := by
  rw [v34_eq, v37_eq, v40_eq]
  exact toS_refCoupled aX aW0 aW1 aW2 aY (res_main_v3 V0, res_main_v4 V0, res_main_v5 V0)

/-- The third state after the last step, which the program does not name. -/
def refThird : Rc := refStep3 aW2 aY (res_main_v559 V0) (res_main_v562 V0)

/-! ## The forward chain, computed twice by the program -/

theorem toM_v3 : toMS (res_main_v3 V0) = Spec.S1 (toMS aX) (toMS aW0) := toM_dotSS aX aW0
theorem toM_v4 : toMS (res_main_v4 V0) = Spec.S2 (toMS aX) (toMS aW0) (toMS aW1) :=
  (toM_dotSS (res_main_v3 V0) aW1).trans (congrArg (mm · (toMS aW1)) (toM_v3 V0))
theorem toM_v5 : toMR (res_main_v5 V0) = Spec.S3 (toMS aX) (toMS aW0) (toMS aW1) (toMR aW2) :=
  (toM_dotSR (res_main_v4 V0) aW2).trans (congrArg (mm · (toMR aW2)) (toM_v4 V0))
theorem toM_v0 : toMS (res_main_v0 V0) = Spec.S1 (toMS aX) (toMS aW0) := toM_dotSS aX aW0
theorem toM_v1 : toMS (res_main_v1 V0) = Spec.S2 (toMS aX) (toMS aW0) (toMS aW1) :=
  (toM_dotSS (res_main_v0 V0) aW1).trans (congrArg (mm · (toMS aW1)) (toM_v0 V0))
theorem toM_v2 : toMR (res_main_v2 V0) = Spec.S3 (toMS aX) (toMS aW0) (toMS aW1) (toMR aW2) :=
  (toM_dotSR (res_main_v1 V0) aW2).trans (congrArg (mm · (toMR aW2)) (toM_v1 V0))

end Cert.RefValue

end
-- ==== Proof.RefNames.lean ====
/-
  The names of the reference run's states, step by step.

  For each of the steps two to twenty, the three arrays the run names after the step are, by unfolding one name, the
  plain step's three terms of the arrays named after the step before; hence, read as matrices, the states after step
  `k` are `k − 1` plain steps of the specification from its coupled step of the forward chain. Every line below is the
  same statement at the next step's names.
-/
import proofs.«123206_j75110388073098_2_alg».proof.Proof.RefChain

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.ReferenceIdeal.Value

variable (V0 : Valuation τ sig (Elt Ideal))

-- The input, the target and the three weight matrices, as arrays; reading an array of either shape as a matrix.
set_option quotPrecheck false in
local notation "aX" => (V0 (Proc.devRef .tc main_arg0) : Sq)
set_option quotPrecheck false in
local notation "aY" => (V0 (Proc.devRef .tc main_arg1) : Rc)
set_option quotPrecheck false in
local notation "aW0" => (V0 (Proc.devRef .tc main_arg2) : Sq)
set_option quotPrecheck false in
local notation "aW1" => (V0 (Proc.devRef .tc main_arg3) : Sq)
set_option quotPrecheck false in
local notation "aW2" => (V0 (Proc.devRef .tc main_arg4) : Rc)
set_option quotPrecheck false in
local notation "toMS" => toM (m := 1024) (n := 1024) (φ := .f32)
set_option quotPrecheck false in
local notation "toMR" => toM (m := 1024) (n := 512) (φ := .f32)

/-! ## Each name is the plain step's term of the names one step earlier -/

theorem v63_eq : res_main_v63 V0 = refStep1 aX aW0 aW1 (res_main_v34 V0) (res_main_v37 V0) := rfl
theorem v66_eq : res_main_v66 V0 = refStep2 aW1 aW2 (res_main_v34 V0) (res_main_v37 V0) (res_main_v40 V0) := rfl
theorem v69_eq : res_main_v69 V0 = refStep3 aW2 aY (res_main_v37 V0) (res_main_v40 V0) := rfl
theorem v92_eq : res_main_v92 V0 = refStep1 aX aW0 aW1 (res_main_v63 V0) (res_main_v66 V0) := rfl
theorem v95_eq : res_main_v95 V0 = refStep2 aW1 aW2 (res_main_v63 V0) (res_main_v66 V0) (res_main_v69 V0) := rfl
theorem v98_eq : res_main_v98 V0 = refStep3 aW2 aY (res_main_v66 V0) (res_main_v69 V0) := rfl
theorem v121_eq : res_main_v121 V0 = refStep1 aX aW0 aW1 (res_main_v92 V0) (res_main_v95 V0) := rfl
theorem v124_eq : res_main_v124 V0 = refStep2 aW1 aW2 (res_main_v92 V0) (res_main_v95 V0) (res_main_v98 V0) := rfl
theorem v127_eq : res_main_v127 V0 = refStep3 aW2 aY (res_main_v95 V0) (res_main_v98 V0) := rfl
theorem v150_eq : res_main_v150 V0 = refStep1 aX aW0 aW1 (res_main_v121 V0) (res_main_v124 V0) := rfl
theorem v153_eq : res_main_v153 V0 = refStep2 aW1 aW2 (res_main_v121 V0) (res_main_v124 V0) (res_main_v127 V0) := rfl
theorem v156_eq : res_main_v156 V0 = refStep3 aW2 aY (res_main_v124 V0) (res_main_v127 V0) := rfl
theorem v179_eq : res_main_v179 V0 = refStep1 aX aW0 aW1 (res_main_v150 V0) (res_main_v153 V0) := rfl
theorem v182_eq : res_main_v182 V0 = refStep2 aW1 aW2 (res_main_v150 V0) (res_main_v153 V0) (res_main_v156 V0) := rfl
theorem v185_eq : res_main_v185 V0 = refStep3 aW2 aY (res_main_v153 V0) (res_main_v156 V0) := rfl
theorem v208_eq : res_main_v208 V0 = refStep1 aX aW0 aW1 (res_main_v179 V0) (res_main_v182 V0) := rfl
theorem v211_eq : res_main_v211 V0 = refStep2 aW1 aW2 (res_main_v179 V0) (res_main_v182 V0) (res_main_v185 V0) := rfl
theorem v214_eq : res_main_v214 V0 = refStep3 aW2 aY (res_main_v182 V0) (res_main_v185 V0) := rfl
theorem v237_eq : res_main_v237 V0 = refStep1 aX aW0 aW1 (res_main_v208 V0) (res_main_v211 V0) := rfl
theorem v240_eq : res_main_v240 V0 = refStep2 aW1 aW2 (res_main_v208 V0) (res_main_v211 V0) (res_main_v214 V0) := rfl
theorem v243_eq : res_main_v243 V0 = refStep3 aW2 aY (res_main_v211 V0) (res_main_v214 V0) := rfl
theorem v266_eq : res_main_v266 V0 = refStep1 aX aW0 aW1 (res_main_v237 V0) (res_main_v240 V0) := rfl
theorem v269_eq : res_main_v269 V0 = refStep2 aW1 aW2 (res_main_v237 V0) (res_main_v240 V0) (res_main_v243 V0) := rfl
theorem v272_eq : res_main_v272 V0 = refStep3 aW2 aY (res_main_v240 V0) (res_main_v243 V0) := rfl
theorem v295_eq : res_main_v295 V0 = refStep1 aX aW0 aW1 (res_main_v266 V0) (res_main_v269 V0) := rfl
theorem v298_eq : res_main_v298 V0 = refStep2 aW1 aW2 (res_main_v266 V0) (res_main_v269 V0) (res_main_v272 V0) := rfl
theorem v301_eq : res_main_v301 V0 = refStep3 aW2 aY (res_main_v269 V0) (res_main_v272 V0) := rfl
theorem v324_eq : res_main_v324 V0 = refStep1 aX aW0 aW1 (res_main_v295 V0) (res_main_v298 V0) := rfl
theorem v327_eq : res_main_v327 V0 = refStep2 aW1 aW2 (res_main_v295 V0) (res_main_v298 V0) (res_main_v301 V0) := rfl
theorem v330_eq : res_main_v330 V0 = refStep3 aW2 aY (res_main_v298 V0) (res_main_v301 V0) := rfl
theorem v353_eq : res_main_v353 V0 = refStep1 aX aW0 aW1 (res_main_v324 V0) (res_main_v327 V0) := rfl
theorem v356_eq : res_main_v356 V0 = refStep2 aW1 aW2 (res_main_v324 V0) (res_main_v327 V0) (res_main_v330 V0) := rfl
theorem v359_eq : res_main_v359 V0 = refStep3 aW2 aY (res_main_v327 V0) (res_main_v330 V0) := rfl
theorem v382_eq : res_main_v382 V0 = refStep1 aX aW0 aW1 (res_main_v353 V0) (res_main_v356 V0) := rfl
theorem v385_eq : res_main_v385 V0 = refStep2 aW1 aW2 (res_main_v353 V0) (res_main_v356 V0) (res_main_v359 V0) := rfl
theorem v388_eq : res_main_v388 V0 = refStep3 aW2 aY (res_main_v356 V0) (res_main_v359 V0) := rfl
theorem v411_eq : res_main_v411 V0 = refStep1 aX aW0 aW1 (res_main_v382 V0) (res_main_v385 V0) := rfl
theorem v414_eq : res_main_v414 V0 = refStep2 aW1 aW2 (res_main_v382 V0) (res_main_v385 V0) (res_main_v388 V0) := rfl
theorem v417_eq : res_main_v417 V0 = refStep3 aW2 aY (res_main_v385 V0) (res_main_v388 V0) := rfl
theorem v440_eq : res_main_v440 V0 = refStep1 aX aW0 aW1 (res_main_v411 V0) (res_main_v414 V0) := rfl
theorem v443_eq : res_main_v443 V0 = refStep2 aW1 aW2 (res_main_v411 V0) (res_main_v414 V0) (res_main_v417 V0) := rfl
theorem v446_eq : res_main_v446 V0 = refStep3 aW2 aY (res_main_v414 V0) (res_main_v417 V0) := rfl
theorem v469_eq : res_main_v469 V0 = refStep1 aX aW0 aW1 (res_main_v440 V0) (res_main_v443 V0) := rfl
theorem v472_eq : res_main_v472 V0 = refStep2 aW1 aW2 (res_main_v440 V0) (res_main_v443 V0) (res_main_v446 V0) := rfl
theorem v475_eq : res_main_v475 V0 = refStep3 aW2 aY (res_main_v443 V0) (res_main_v446 V0) := rfl
theorem v498_eq : res_main_v498 V0 = refStep1 aX aW0 aW1 (res_main_v469 V0) (res_main_v472 V0) := rfl
theorem v501_eq : res_main_v501 V0 = refStep2 aW1 aW2 (res_main_v469 V0) (res_main_v472 V0) (res_main_v475 V0) := rfl
theorem v504_eq : res_main_v504 V0 = refStep3 aW2 aY (res_main_v472 V0) (res_main_v475 V0) := rfl
theorem v527_eq : res_main_v527 V0 = refStep1 aX aW0 aW1 (res_main_v498 V0) (res_main_v501 V0) := rfl
theorem v530_eq : res_main_v530 V0 = refStep2 aW1 aW2 (res_main_v498 V0) (res_main_v501 V0) (res_main_v504 V0) := rfl
theorem v533_eq : res_main_v533 V0 = refStep3 aW2 aY (res_main_v501 V0) (res_main_v504 V0) := rfl
theorem v556_eq : res_main_v556 V0 = refStep1 aX aW0 aW1 (res_main_v527 V0) (res_main_v530 V0) := rfl
theorem v559_eq : res_main_v559 V0 = refStep2 aW1 aW2 (res_main_v527 V0) (res_main_v530 V0) (res_main_v533 V0) := rfl
theorem v562_eq : res_main_v562 V0 = refStep3 aW2 aY (res_main_v530 V0) (res_main_v533 V0) := rfl
theorem v585_eq : res_main_v585 V0 = refStep1 aX aW0 aW1 (res_main_v556 V0) (res_main_v559 V0) := rfl
theorem v588_eq : res_main_v588 V0 = refStep2 aW1 aW2 (res_main_v556 V0) (res_main_v559 V0) (res_main_v562 V0) := rfl

/-! ## The states after each step -/

theorem after2 : toS (res_main_v63 V0, res_main_v66 V0, res_main_v69 V0) = (plain V0)^[1] (start V0) :=
  toS_of_step (v63_eq V0) (v66_eq V0) (v69_eq V0) (after1 V0)
theorem after3 : toS (res_main_v92 V0, res_main_v95 V0, res_main_v98 V0) = (plain V0)^[2] (start V0) :=
  toS_of_step (v92_eq V0) (v95_eq V0) (v98_eq V0) (after2 V0)
theorem after4 : toS (res_main_v121 V0, res_main_v124 V0, res_main_v127 V0) = (plain V0)^[3] (start V0) :=
  toS_of_step (v121_eq V0) (v124_eq V0) (v127_eq V0) (after3 V0)
theorem after5 : toS (res_main_v150 V0, res_main_v153 V0, res_main_v156 V0) = (plain V0)^[4] (start V0) :=
  toS_of_step (v150_eq V0) (v153_eq V0) (v156_eq V0) (after4 V0)
theorem after6 : toS (res_main_v179 V0, res_main_v182 V0, res_main_v185 V0) = (plain V0)^[5] (start V0) :=
  toS_of_step (v179_eq V0) (v182_eq V0) (v185_eq V0) (after5 V0)
theorem after7 : toS (res_main_v208 V0, res_main_v211 V0, res_main_v214 V0) = (plain V0)^[6] (start V0) :=
  toS_of_step (v208_eq V0) (v211_eq V0) (v214_eq V0) (after6 V0)
theorem after8 : toS (res_main_v237 V0, res_main_v240 V0, res_main_v243 V0) = (plain V0)^[7] (start V0) :=
  toS_of_step (v237_eq V0) (v240_eq V0) (v243_eq V0) (after7 V0)
theorem after9 : toS (res_main_v266 V0, res_main_v269 V0, res_main_v272 V0) = (plain V0)^[8] (start V0) :=
  toS_of_step (v266_eq V0) (v269_eq V0) (v272_eq V0) (after8 V0)
theorem after10 : toS (res_main_v295 V0, res_main_v298 V0, res_main_v301 V0) = (plain V0)^[9] (start V0) :=
  toS_of_step (v295_eq V0) (v298_eq V0) (v301_eq V0) (after9 V0)
theorem after11 : toS (res_main_v324 V0, res_main_v327 V0, res_main_v330 V0) = (plain V0)^[10] (start V0) :=
  toS_of_step (v324_eq V0) (v327_eq V0) (v330_eq V0) (after10 V0)
theorem after12 : toS (res_main_v353 V0, res_main_v356 V0, res_main_v359 V0) = (plain V0)^[11] (start V0) :=
  toS_of_step (v353_eq V0) (v356_eq V0) (v359_eq V0) (after11 V0)
theorem after13 : toS (res_main_v382 V0, res_main_v385 V0, res_main_v388 V0) = (plain V0)^[12] (start V0) :=
  toS_of_step (v382_eq V0) (v385_eq V0) (v388_eq V0) (after12 V0)
theorem after14 : toS (res_main_v411 V0, res_main_v414 V0, res_main_v417 V0) = (plain V0)^[13] (start V0) :=
  toS_of_step (v411_eq V0) (v414_eq V0) (v417_eq V0) (after13 V0)
theorem after15 : toS (res_main_v440 V0, res_main_v443 V0, res_main_v446 V0) = (plain V0)^[14] (start V0) :=
  toS_of_step (v440_eq V0) (v443_eq V0) (v446_eq V0) (after14 V0)
theorem after16 : toS (res_main_v469 V0, res_main_v472 V0, res_main_v475 V0) = (plain V0)^[15] (start V0) :=
  toS_of_step (v469_eq V0) (v472_eq V0) (v475_eq V0) (after15 V0)
theorem after17 : toS (res_main_v498 V0, res_main_v501 V0, res_main_v504 V0) = (plain V0)^[16] (start V0) :=
  toS_of_step (v498_eq V0) (v501_eq V0) (v504_eq V0) (after16 V0)
theorem after18 : toS (res_main_v527 V0, res_main_v530 V0, res_main_v533 V0) = (plain V0)^[17] (start V0) :=
  toS_of_step (v527_eq V0) (v530_eq V0) (v533_eq V0) (after17 V0)
theorem after19 : toS (res_main_v556 V0, res_main_v559 V0, res_main_v562 V0) = (plain V0)^[18] (start V0) :=
  toS_of_step (v556_eq V0) (v559_eq V0) (v562_eq V0) (after18 V0)

end Cert.RefValue

end
-- ==== Proof.RefValue.lean ====
/-
  The reference program's result, piece by piece.

  After its twentieth step the program's three states, read as matrices, are the specification's relaxed states. The
  result is the concatenation of four pieces: the three weight-gradient quotients, flattened, and the loss. Here the
  four are named, the run of the program is restated over the names, and, for inputs whose entries are real numbers,
  the three quotients read as matrices are the specification's three results `EP0`, `EP1`, `EP2` of the inputs.
-/
import proofs.«123206_j75110388073098_2_alg».proof.Proof.RefNames

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.ReferenceIdeal.Value

section Pieces

variable (V0 : Valuation τ sig (Elt Ideal))

-- The input, the target and the three weight matrices, as arrays; reading an array of either shape as a matrix.
set_option quotPrecheck false in
local notation "aX" => (V0 (Proc.devRef .tc main_arg0) : Sq)
set_option quotPrecheck false in
local notation "aY" => (V0 (Proc.devRef .tc main_arg1) : Rc)
set_option quotPrecheck false in
local notation "aW0" => (V0 (Proc.devRef .tc main_arg2) : Sq)
set_option quotPrecheck false in
local notation "aW1" => (V0 (Proc.devRef .tc main_arg3) : Sq)
set_option quotPrecheck false in
local notation "aW2" => (V0 (Proc.devRef .tc main_arg4) : Rc)
set_option quotPrecheck false in
local notation "toMS" => toM (m := 1024) (n := 1024) (φ := .f32)
set_option quotPrecheck false in
local notation "toMR" => toM (m := 1024) (n := 512) (φ := .f32)

/-! ## The relaxed states -/

theorem after20 : toS (res_main_v585 V0, res_main_v588 V0, refThird V0) = (plain V0)^[19] (start V0) :=
  toS_of_step (v585_eq V0) (v588_eq V0) rfl (after19 V0)

/-- The program's three states after its twenty steps are the specification's relaxed states. -/
theorem toS_relaxed :
    toS (res_main_v585 V0, res_main_v588 V0, refThird V0) = Cur (toMS aX) (toMR aY) (toMS aW0) (toMS aW1) (toMR aW2) := by
  rw [after20]
  unfold plain start
  rw [show toS (res_main_v3 V0, res_main_v4 V0, res_main_v5 V0)
      = (Spec.S1 (toMS aX) (toMS aW0), Spec.S2 (toMS aX) (toMS aW0) (toMS aW1), Spec.S3 (toMS aX) (toMS aW0) (toMS aW1) (toMR aW2)) from
    Prod.ext (toM_v3 V0) (Prod.ext (toM_v4 V0) (toM_v5 V0))]
  rfl

theorem toM_v585 : toMS (res_main_v585 V0) = (Cur (toMS aX) (toMR aY) (toMS aW0) (toMS aW1) (toMR aW2)).1 :=
  congrArg Prod.fst (toS_relaxed V0)
theorem toM_v588 : toMS (res_main_v588 V0) = (Cur (toMS aX) (toMR aY) (toMS aW0) (toMS aW1) (toMR aW2)).2.1 :=
  congrArg (fun s => s.2.1) (toS_relaxed V0)
theorem toM_refThird : toM (refThird V0) = (Cur (toMS aX) (toMR aY) (toMS aW0) (toMS aW1) (toMR aW2)).2.2 :=
  congrArg (fun s => s.2.2) (toS_relaxed V0)

/-! ## The four pieces of the result -/

/-- The first layer's quotient in the result. -/
def refP0 : Sq := refEP0 aX aW0 (res_main_v585 V0) (res_main_v0 V0)
/-- The second layer's quotient in the result. -/
def refP1 : Sq := refEP1 aW1 (res_main_v585 V0) (res_main_v588 V0) (res_main_v0 V0) (res_main_v1 V0)
/-- The third layer's quotient in the result. -/
def refP2 : Rc := refEP2 aW2 (res_main_v588 V0) (refThird V0) (res_main_v1 V0) (res_main_v2 V0)
/-- The loss in the result: the mean of the squared differences of the forward chain's last state and the target. -/
def refLoss : FVec Ideal S_ .f32 :=
  Host.divf (Host.reduceAdd (mulf (res_main_v625 V0) (res_main_v625 V0)) (constant S_ .f32 0x00000000#32) reducesTo_S1024x512_S_d0_1 h_S_) (constant S_ .f32 0x49000000#32)

/-- The loss, with the difference of the forward chain's last state and the target written out. -/
theorem refLoss_eq :
    refLoss V0 = Host.divf (Host.reduceAdd (mulf (subf (res_main_v2 V0) (V0 (Proc.devRef .tc main_arg1))) (subf (res_main_v2 V0) (V0 (Proc.devRef .tc main_arg1)))) (constant S_ .f32 0x00000000#32) reducesTo_S1024x512_S_d0_1 h_S_) (constant S_ .f32 0x49000000#32) := rfl

/-- The forward chain, which the program computes a second time for the loss and the subtracted gradients, is the
    specification's. -/
theorem ref_S1 : toMS (res_main_v0 V0) = Spec.S1 (toMS aX) (toMS aW0) := toM_v0 V0
theorem ref_S2 : toMS (res_main_v1 V0) = Spec.S2 (toMS aX) (toMS aW0) (toMS aW1) := toM_v1 V0
theorem ref_S3 : toMR (res_main_v2 V0) = Spec.S3 (toMS aX) (toMS aW0) (toMS aW1) (toMR aW2) := toM_v2 V0

/-- With real inputs the first quotient is the specification's first result (only the input and the first weights
    need be real). -/
theorem ref_EP0 (hx : ∀ a b, ∃ r : ℝ, toMS aX a b = (r : EReal)) (hw0 : ∀ a b, ∃ r : ℝ, toMS aW0 a b = (r : EReal))
    (_hw1 : ∀ a b, ∃ r : ℝ, toMS aW1 a b = (r : EReal)) (_hw2 : ∀ a b, ∃ r : ℝ, toMR aW2 a b = (r : EReal)) :
    toM (refP0 V0) = EP0 (toMS aX) (toMR aY) (toMS aW0) (toMS aW1) (toMR aW2) := by
  have h := toM_refEP0 aX aW0 (res_main_v585 V0) hx hw0
  rw [toM_v585] at h
  exact h

/-- With real inputs the second quotient is the specification's second result (the last weights need not be real). -/
theorem ref_EP1 (hx : ∀ a b, ∃ r : ℝ, toMS aX a b = (r : EReal)) (hw0 : ∀ a b, ∃ r : ℝ, toMS aW0 a b = (r : EReal))
    (hw1 : ∀ a b, ∃ r : ℝ, toMS aW1 a b = (r : EReal)) (_hw2 : ∀ a b, ∃ r : ℝ, toMR aW2 a b = (r : EReal)) :
    toM (refP1 V0) = EP1 (toMS aX) (toMR aY) (toMS aW0) (toMS aW1) (toMR aW2) := by
  have hs : ∀ a b, ∃ r : ℝ, mm (toMS (res_main_v0 V0)) (toMS aW1) a b = (r : EReal) := by
    rw [toM_v0]
    exact mm_real _ _ (mm_real _ _ hx hw0) hw1
  have h := toM_refEP1 aW1 (res_main_v585 V0) (res_main_v588 V0) (res_main_v0 V0) hs
  rw [toM_v585, toM_v588] at h
  exact h

/-- With real inputs the third quotient is the specification's third result. -/
theorem ref_EP2 (hx : ∀ a b, ∃ r : ℝ, toMS aX a b = (r : EReal)) (hw0 : ∀ a b, ∃ r : ℝ, toMS aW0 a b = (r : EReal))
    (hw1 : ∀ a b, ∃ r : ℝ, toMS aW1 a b = (r : EReal)) (hw2 : ∀ a b, ∃ r : ℝ, toMR aW2 a b = (r : EReal)) :
    toM (refP2 V0) = EP2 (toMS aX) (toMR aY) (toMS aW0) (toMS aW1) (toMR aW2) := by
  have hs : ∀ a b, ∃ r : ℝ, mm (toMS (res_main_v1 V0)) (toMR aW2) a b = (r : EReal) := by
    rw [toM_v1]
    exact mm_real _ _ (mm_real _ _ (mm_real _ _ hx hw0) hw1) hw2
  have h := toM_refEP2 aW2 (res_main_v588 V0) (refThird V0) (res_main_v1 V0) hs
  rw [toM_v588, toM_refThird] at h
  exact h

end Pieces

/-- The run of the reference program over the named pieces: every weakly fair execution terminates with the result
    the concatenation of the three flattened quotients and the loss, the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v633) = concatenate S2621441 0 [⟨S1048576, (shapeCast _ (refP0 (launchContents m c)) shapeCasts_S1024x1024_S1048576)⟩, ⟨S1048576, (shapeCast _ (refP1 (launchContents m c)) shapeCasts_S1024x1024_S1048576)⟩, ⟨S524288, (shapeCast _ (refP2 (launchContents m c)) shapeCasts_S1024x512_S524288)⟩, ⟨S1, (broadcastInDim S1 ![] bcast_S_S1 (refLoss (launchContents m c)))⟩] concatenates_S1048576_S1048576_S524288_S1_S2621441_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.RefValue

end
-- ==== Proof.Assemble.lean ====
/-
  The two idealized programs end with the same result.

  The kernel program's result buffer is the concatenation of four flattened pieces, and so is the reference's. Read as
  matrices of extended reals, the first three pieces of each are the specification's three weight gradients over the
  clamping strength, functions of the five argument arrays alone (for the reference this uses that the inputs are
  finite: its free-phase gradient `sᵀ·(s·W − s')` with `s' = s·W` is a sum of terms `s · 0` only where `s·W` is a
  real number); the fourth piece is one scalar function of `((x·W₀)·W₁)·W₂` and `y`, the two programs computing that
  product as the same sums. The two programs are run from memories that agree on the arguments, so the pieces agree.
-/
import proofs.«123206_j75110388073098_2_alg».proof.Defs
import proofs.«123206_j75110388073098_2_alg».proof.Proof.Gen.Pre_finite_inputs
import proofs.«123206_j75110388073098_2_alg».proof.Proof.KFold
import proofs.«123206_j75110388073098_2_alg».proof.Proof.Finite
import proofs.«123206_j75110388073098_2_alg».proof.Proof.RefValue

set_option maxRecDepth 16384

noncomputable section

namespace Cert.Assemble

open Idealize.ShloMosaic Idealize.ShloMosaic.TcCoe Idealize.ShloMosaic.ValueIdx Idealize.SL.Sem Idealize.ShloMosaic.StableHlo
open Cert.Spec

/-- A scalar made a one-element vector by a broadcast or by a shape cast: the same vector. -/
theorem scalar_to_vec (l : (⟨0, ![]⟩ : Shape).Idx → EReal)
    (hb : Shape.BroadcastsInDim (⟨0, ![]⟩ : Shape) ⟨1, ![1]⟩ (![] : Fin 0 → Fin 1))
    (hs : (⟨0, ![]⟩ : Shape).ShapeCasts ⟨1, ![1]⟩) :
    broadcastInDim ⟨1, ![1]⟩ ![] hb l = shapeCast ⟨1, ![1]⟩ l hs := by
  funext j
  rw [broadcastInDim_apply ![] hb l j ix0 (fun a => a.elim0)]
  refine (shapeCast_apply l hs j ix0 ?_).symm
  have h1 := ((⟨0, ![]⟩ : Shape).rowMajor ix0).isLt
  have h2 := ((⟨1, ![1]⟩ : Shape).rowMajor j).isLt
  have e1 : (⟨0, ![]⟩ : Shape).numel = 1 := by decide
  have e2 : (⟨1, ![1]⟩ : Shape).numel = 1 := by decide
  omega

section
variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's launch contents on core `c`. -/
abbrev V' : Valuation Cert.ReferenceIdeal.τ Cert.ReferenceIdeal.sig (Elt Ideal) := launchContents m' c

variable
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include e0 in
theorem hX : toM (m := 1024) (n := 1024) (φ := .f32) (V' m' c (Proc.devRef .tc Cert.ReferenceIdeal.main_arg0)) = Cert.KValue.tW1 (Cert.KFold.aX m c) := by
  show toM (m := 1024) (n := 1024) (φ := .f32) (m' ((c.tc : Thread Cert.ReferenceIdeal.nD Cert.ReferenceIdeal.τ).loc Cert.ReferenceIdeal.main_arg0)) = _
  rw [e0]
include e1 in
theorem hY : toM (m := 1024) (n := 512) (φ := .f32) (V' m' c (Proc.devRef .tc Cert.ReferenceIdeal.main_arg1)) = Cert.KValue.tW2 (Cert.KFold.aY m c) := by
  show toM (m := 1024) (n := 512) (φ := .f32) (m' ((c.tc : Thread Cert.ReferenceIdeal.nD Cert.ReferenceIdeal.τ).loc Cert.ReferenceIdeal.main_arg1)) = _
  rw [e1]
include e2 in
theorem hW0 : toM (m := 1024) (n := 1024) (φ := .f32) (V' m' c (Proc.devRef .tc Cert.ReferenceIdeal.main_arg2)) = Cert.KValue.tW1 (Cert.KFold.aW0 m c) := by
  show toM (m := 1024) (n := 1024) (φ := .f32) (m' ((c.tc : Thread Cert.ReferenceIdeal.nD Cert.ReferenceIdeal.τ).loc Cert.ReferenceIdeal.main_arg2)) = _
  rw [e2]
include e3 in
theorem hW1 : toM (m := 1024) (n := 1024) (φ := .f32) (V' m' c (Proc.devRef .tc Cert.ReferenceIdeal.main_arg3)) = Cert.KValue.tW1 (Cert.KFold.aW1 m c) := by
  show toM (m := 1024) (n := 1024) (φ := .f32) (m' ((c.tc : Thread Cert.ReferenceIdeal.nD Cert.ReferenceIdeal.τ).loc Cert.ReferenceIdeal.main_arg3)) = _
  rw [e3]
include e4 in
theorem hW2 : toM (m := 1024) (n := 512) (φ := .f32) (V' m' c (Proc.devRef .tc Cert.ReferenceIdeal.main_arg4)) = Cert.KValue.tW2 (Cert.KFold.aW2 m c) := by
  show toM (m := 1024) (n := 512) (φ := .f32) (m' ((c.tc : Thread Cert.ReferenceIdeal.nD Cert.ReferenceIdeal.τ).loc Cert.ReferenceIdeal.main_arg4)) = _
  rw [e4]

variable (hx : Cert.Finite.IsReal (Cert.KValue.tW1 (Cert.KFold.aX m c))) (hw0 : Cert.Finite.IsReal (Cert.KValue.tW1 (Cert.KFold.aW0 m c)))
  (hw1 : Cert.Finite.IsReal (Cert.KValue.tW1 (Cert.KFold.aW1 m c))) (hw2 : Cert.Finite.IsReal (Cert.KValue.tW2 (Cert.KFold.aW2 m c)))

include e0 e1 e2 e3 e4 hx hw0 hw1 hw2 in
/-- The first pieces agree: both are the specification's first weight gradient of the same arguments. -/
theorem piece0 : Cert.RefValue.refP0 (V' m' c) = Cert.KernelIdeal.Hand.W6 m g c (Proc.devRef .tc Cert.KernelIdeal.main_v6) := by
  refine toM_inj (m := 1024) (n := 1024) (φ := .f32) ?_
  refine (Cert.RefValue.ref_EP0 (V' m' c) ?_ ?_ ?_ ?_).trans ?_
  · rw [hX m m' c e0]; exact hx
  · rw [hW0 m m' c e2]; exact hw0
  · rw [hW1 m m' c e3]; exact hw1
  · rw [hW2 m m' c e4]; exact hw2
  · rw [hX m m' c e0, hY m m' c e1, hW0 m m' c e2, hW1 m m' c e3, hW2 m m' c e4]
    exact (Cert.KFold.P0_toM m g c).symm

include e0 e1 e2 e3 e4 hx hw0 hw1 hw2 in
theorem piece1 : Cert.RefValue.refP1 (V' m' c) = Cert.KernelIdeal.Hand.W6 m g c (Proc.devRef .tc Cert.KernelIdeal.main_v7) := by
  refine toM_inj (m := 1024) (n := 1024) (φ := .f32) ?_
  refine (Cert.RefValue.ref_EP1 (V' m' c) ?_ ?_ ?_ ?_).trans ?_
  · rw [hX m m' c e0]; exact hx
  · rw [hW0 m m' c e2]; exact hw0
  · rw [hW1 m m' c e3]; exact hw1
  · rw [hW2 m m' c e4]; exact hw2
  · rw [hX m m' c e0, hY m m' c e1, hW0 m m' c e2, hW1 m m' c e3, hW2 m m' c e4]
    exact (Cert.KFold.P1_toM m g c).symm

include e0 e1 e2 e3 e4 hx hw0 hw1 hw2 in
theorem piece2 : Cert.RefValue.refP2 (V' m' c) = Cert.KernelIdeal.Hand.W6 m g c (Proc.devRef .tc Cert.KernelIdeal.main_v8) := by
  refine toM_inj (m := 1024) (n := 512) (φ := .f32) ?_
  refine (Cert.RefValue.ref_EP2 (V' m' c) ?_ ?_ ?_ ?_).trans ?_
  · rw [hX m m' c e0]; exact hx
  · rw [hW0 m m' c e2]; exact hw0
  · rw [hW1 m m' c e3]; exact hw1
  · rw [hW2 m m' c e4]; exact hw2
  · rw [hX m m' c e0, hY m m' c e1, hW0 m m' c e2, hW1 m m' c e3, hW2 m m' c e4]
    exact (Cert.KFold.P2_toM m g c).symm

include e0 e1 e2 e3 e4 in
/-- The losses agree: one function of the last forward product, the same sums in both programs, and of `y`. -/
theorem piece3 : Cert.RefValue.refLoss (V' m' c) = Cert.KernelIdeal.Hand.W6 m g c (Proc.devRef .tc Cert.KernelIdeal.main_v4) := by
  have hs3 : Cert.ReferenceIdeal.Value.res_main_v2 (V' m' c)
      = Cert.KernelIdeal.Gen.k0_pay3 (F := Ideal) (Cert.KFold.aX m c) (Cert.KFold.aW0 m c) (Cert.KFold.aW1 m c) (Cert.KFold.aW2 m c) := by
    refine toM_inj (m := 1024) (n := 512) (φ := .f32) ?_
    refine (Cert.RefValue.ref_S3 (V' m' c)).trans ?_
    rw [hX m m' c e0, hW0 m m' c e2, hW1 m m' c e3, hW2 m m' c e4]
    exact (Cert.KFold.S3_toM m c).symm
  have hy : V' m' c (Proc.devRef .tc Cert.ReferenceIdeal.main_arg1) = Cert.KFold.aY m c := e1
  rw [Cert.RefValue.refLoss_eq, Cert.KFold.W6_v4, hs3, hy]
  rfl

end

/-- The value claim. -/
theorem algebraic : Cert.algebraic_KernelIdeal_ReferenceIdeal := by
  intro m g m' g' hpre hagree
  refine ⟨fun c => Cert.KernelIdeal.Hand.W7 m g c (Proc.devRef .tc Cert.KernelIdeal.main_v13), Cert.KFold.run m g, ?_⟩
  refine (θ_run (Cert.ReferenceIdeal.defs (F := Ideal)) _ _).mono (fun r h c => ⟨(h c).1.trans ?_, (h c).2⟩) (Cert.RefValue.run' m' g')
  obtain ⟨hx, -, hw0, hw1, hw2⟩ := Cert.Finite.real_of_pre _ _ _ _ _ (hpre c)
  obtain ⟨e0, e1, e2, e3, e4⟩ := hagree c
  show _ = Cert.KernelIdeal.Hand.W7 m g c (Proc.devRef .tc Cert.KernelIdeal.main_v13)
  rw [Cert.KFold.W7_v13 m g c, piece0 m g m' c e0 e1 e2 e3 e4 hx hw0 hw1 hw2, piece1 m g m' c e0 e1 e2 e3 e4 hx hw0 hw1 hw2,
    piece2 m g m' c e0 e1 e2 e3 e4 hx hw0 hw1 hw2, piece3 m g m' c e0 e1 e2 e3 e4]
  have h4 : ∀ hb, broadcastInDim Cert.ReferenceIdeal.S1 ![] hb (Cert.KernelIdeal.Hand.W6 m g c (Proc.devRef .tc Cert.KernelIdeal.main_v4))
      = shapeCast Cert.KernelIdeal.S1 (Cert.KernelIdeal.Hand.W6 m g c (Proc.devRef .tc Cert.KernelIdeal.main_v4))
          Cert.KernelIdeal.Gen.shapeCasts_S_S1 := fun hb => scalar_to_vec _ hb _
  rw [h4]

end Cert.Assemble

end
-- ==== Proof.lean ====
/-
  The certificate's claim: both kernel programs and the reference run to the end, fault nowhere and leave their five
  argument arrays unchanged; the idealized kernel program is the kernel program's own text read on the extended reals
  (no rewrite was applied); and the idealized kernel program and the idealized reference, run from memories that agree
  on the arguments, end with equal results.

  The kernel program is five kernel launches around two stretches of host operations: a forward chain of three matrix
  products, twenty relaxation steps of the three states (run in four blocks of 256 rows, every step acting row by row),
  and three weight-gradient contractions, each divided by the clamping strength; the reference computes the same
  quantities with the relaxation unrolled over all 1024 rows and subtracts a free-phase gradient that vanishes on
  finite inputs. The frames are in KFrame / KIFrame and the reference's run; the value claim is in Assemble.
-/
import proofs.«123206_j75110388073098_2_alg».proof.Defs
import proofs.«123206_j75110388073098_2_alg».proof.Proof.Gen.Kernel
import proofs.«123206_j75110388073098_2_alg».proof.Proof.Gen.KernelIdeal
import proofs.«123206_j75110388073098_2_alg».proof.Proof.Gen.ReferenceIdeal
import proofs.«123206_j75110388073098_2_alg».proof.Proof.Gen.Pre_finite_inputs
import proofs.«123206_j75110388073098_2_alg».proof.Proof.KFrame
import proofs.«123206_j75110388073098_2_alg».proof.Proof.KIFrame
import proofs.«123206_j75110388073098_2_alg».proof.Proof.Assemble

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Assemble.algebraic⟩

end Cert.Proof

end
